-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v219) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S100000x160 : Shape := ⟨2, ![100000, 160]⟩
abbrev S2x600000 : Shape := ⟨2, ![2, 600000]⟩
abbrev S96x128 : Shape := ⟨2, ![96, 128]⟩
abbrev S128 : Shape := ⟨1, ![128]⟩
abbrev S160x128 : Shape := ⟨2, ![160, 128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S100000x160 : S_.BroadcastsInDim S100000x160 (![] : Fin 0 → Fin S100000x160.rank)
  reducesTo_S100000x160_S_d0_1 : S100000x160.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S160x128 : S_.BroadcastsInDim S160x128 (![] : Fin 0 → Fin S160x128.rank)
  reducesTo_S160x128_S_d0_1 : S160x128.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part7 {F : FTy → Type} [FloatOps F] (main_arg27 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  main_v128

def fn_part6 {F : FTy → Type} [FloatOps F] (main_arg23 : FVec F S128x64 .f32) (main_arg24 : FVec F S64 .f32) (main_arg25 : FVec F S64 .f32) (main_arg26 : FVec F S64 .f32) (main_arg27 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S128x64 .f32 := Host.absf main_arg23
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg26
  fn_part7 (F := F) main_arg27 main_v118 main_v119

def fn_part5 {F : FTy → Type} [FloatOps F] (main_arg20 : FVec F S128x64 .f32) (main_arg21 : FVec F S128x64 .f32) (main_arg22 : FVec F S64 .f32) (main_arg23 : FVec F S128x64 .f32) (main_arg24 : FVec F S64 .f32) (main_arg25 : FVec F S64 .f32) (main_arg26 : FVec F S64 .f32) (main_arg27 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x64 .f32 := Host.absf main_arg20
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S128 .f32) (main_arg17 : FVec F S128 .f32) (main_arg18 : FVec F S128x64 .f32) (main_arg19 : FVec F S64 .f32) (main_arg20 : FVec F S128x64 .f32) (main_arg21 : FVec F S128x64 .f32) (main_arg22 : FVec F S64 .f32) (main_arg23 : FVec F S128x64 .f32) (main_arg24 : FVec F S64 .f32) (main_arg25 : FVec F S64 .f32) (main_arg26 : FVec F S64 .f32) (main_arg27 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg18
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S128x128 .f32) (main_arg14 : FVec F S128 .f32) (main_arg15 : FVec F S128 .f32) (main_arg16 : FVec F S128 .f32) (main_arg17 : FVec F S128 .f32) (main_arg18 : FVec F S128x64 .f32) (main_arg19 : FVec F S64 .f32) (main_arg20 : FVec F S128x64 .f32) (main_arg21 : FVec F S128x64 .f32) (main_arg22 : FVec F S64 .f32) (main_arg23 : FVec F S128x64 .f32) (main_arg24 : FVec F S64 .f32) (main_arg25 : FVec F S64 .f32) (main_arg26 : FVec F S64 .f32) (main_arg27 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x64 .f32) (main_arg19 : FVec F S64 .f32) (main_arg20 : FVec F S128x64 .f32) (main_arg21 : FVec F S128x64 .f32) (main_arg22 : FVec F S64 .f32) (main_arg23 : FVec F S128x64 .f32) (main_arg24 : FVec F S64 .f32) (main_arg25 : FVec F S64 .f32) (main_arg26 : FVec F S64 .f32) (main_arg27 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S160x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x64 .f32) (main_arg19 : FVec F S64 .f32) (main_arg20 : FVec F S128x64 .f32) (main_arg21 : FVec F S128x64 .f32) (main_arg22 : FVec F S64 .f32) (main_arg23 : FVec F S128x64 .f32) (main_arg24 : FVec F S64 .f32) (main_arg25 : FVec F S64 .f32) (main_arg26 : FVec F S64 .f32) (main_arg27 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S160x128 .f32 := Host.absf main_arg6
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x96 .f32) (main_arg1 : FVec F S100000x160 .f32) (main_arg2 : IVec S2x600000 32) (main_arg3 : IVec S2x600000 32) (main_arg4 : FVec F S96x128 .f32) (main_arg5 : FVec F S128 .f32) (main_arg6 : FVec F S160x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x64 .f32) (main_arg19 : FVec F S64 .f32) (main_arg20 : FVec F S128x64 .f32) (main_arg21 : FVec F S128x64 .f32) (main_arg22 : FVec F S64 .f32) (main_arg23 : FVec F S128x64 .f32) (main_arg24 : FVec F S64 .f32) (main_arg25 : FVec F S64 .f32) (main_arg26 : FVec F S64 .f32) (main_arg27 : FVec F S64 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S100000x160 .f32 := Host.absf main_arg1
  let main_cst_0 : FVec F S_ .f32 := constant S_ .f32 0x7F800000#32
  let main_v5 : FVec F S100000x160 .f32 := broadcastInDim S100000x160 ![] bcast_S_S100000x160 main_cst_0
  let main_v6 : IVec S100000x160 1 := cmpf .olt main_v4 main_v5
  let main_c_1 : IVec S_ 1 := constantI S_ 1 1#1
  let main_v7 : IVec S_ 1 := (fun x v => Host.reduce IntOp.andi x v reducesTo_S100000x160_S_d0_1 h_S_) main_v6 main_c_1
  let main_v8 : IVec S_ 1 := andi main_v3 main_v7
  let main_v9 : FVec F S96x128 .f32 := Host.absf main_arg4
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x96 : Shape := ⟨2, ![100000, 96]⟩
abbrev S100000x160 : Shape := ⟨2, ![100000, 160]⟩
abbrev S2x600000 : Shape := ⟨2, ![2, 600000]⟩
abbrev S96x128 : Shape := ⟨2, ![96, 128]⟩
abbrev S128 : Shape := ⟨1, ![128]⟩
abbrev S160x128 : Shape := ⟨2, ![160, 128]⟩
abbrev S128x128 : Shape := ⟨2, ![128, 128]⟩
abbrev S128x64 : Shape := ⟨2, ![128, 64]⟩
abbrev S64 : Shape := ⟨1, ![64]⟩
abbrev S100000x128 : Shape := ⟨2, ![100000, 128]⟩
abbrev S2000x96 : Shape := ⟨2, ![2000, 96]⟩
abbrev S2000x128 : Shape := ⟨2, ![2000, 128]⟩
abbrev S1x128 : Shape := ⟨2, ![1, 128]⟩
abbrev S2000x160 : Shape := ⟨2, ![2000, 160]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S2000x1 : Shape := ⟨2, ![2000, 1]⟩
abbrev S2000 : Shape := ⟨1, ![2000]⟩
abbrev S100000x64 : Shape := ⟨2, ![100000, 64]⟩
abbrev S2000x64 : Shape := ⟨2, ![2000, 64]⟩
abbrev S1x64 : Shape := ⟨2, ![1, 64]⟩

abbrev nBuf : Space → Nat
  | .hbm => 154
  | .vmem => 64
  | .smem => 0
  | _ => 0

abbrev hbmTy0_0 (i : Nat) : BufTy := match i % 128 with
  | 0 => ⟨S100000x96, .f32⟩
  | 1 => ⟨S100000x160, .f32⟩
  | 2 => ⟨S2x600000, .i32⟩
  | 3 => ⟨S2x600000, .i32⟩
  | 4 => ⟨S96x128, .f32⟩
  | 5 => ⟨S128, .f32⟩
  | 6 => ⟨S160x128, .f32⟩
  | 7 => ⟨S128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128x64, .f32⟩
  | 19 => ⟨S64, .f32⟩
  | 20 => ⟨S128x64, .f32⟩
  | 21 => ⟨S128x64, .f32⟩
  | 22 => ⟨S64, .f32⟩
  | 23 => ⟨S128x64, .f32⟩
  | 24 => ⟨S64, .f32⟩
  | 25 => ⟨S64, .f32⟩
  | 26 => ⟨S64, .f32⟩
  | 27 => ⟨S64, .f32⟩
  | 28 => ⟨S100000x128, .f32⟩
  | 29 => ⟨S100000x128, .f32⟩
  | 30 => ⟨S1x600000, .i32⟩
  | 31 => ⟨S600000, .i32⟩
  | 32 => ⟨S1x600000, .i32⟩
  | 33 => ⟨S600000, .i32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S_, .f32⟩
  | 44 => ⟨S100000x128, .f32⟩
  | 45 => ⟨S600000x1, .i32⟩
  | 46 => ⟨S100000x128, .f32⟩
  | 47 => ⟨S_, .f32⟩
  | 48 => ⟨S600000, .f32⟩
  | 49 => ⟨S_, .f32⟩
  | 50 => ⟨S100000, .f32⟩
  | 51 => ⟨S600000x1, .i32⟩
  | 52 => ⟨S100000, .f32⟩
  | 53 => ⟨S_, .f32⟩
  | 54 => ⟨S100000, .f32⟩
  | 55 => ⟨S100000, .f32⟩
  | 56 => ⟨S_, .f32⟩
  | 57 => ⟨S100000, .f32⟩
  | 58 => ⟨S100000, .f32⟩
  | 59 => ⟨S100000x1, .f32⟩
  | 60 => ⟨S1x600000, .i32⟩
  | 61 => ⟨S600000, .i32⟩
  | 62 => ⟨S1x600000, .i32⟩
  | 63 => ⟨S600000, .i32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S_, .f32⟩
  | 74 => ⟨S100000x128, .f32⟩
  | 75 => ⟨S600000x1, .i32⟩
  | 76 => ⟨S100000x128, .f32⟩
  | 77 => ⟨S_, .f32⟩
  | 78 => ⟨S600000, .f32⟩
  | 79 => ⟨S_, .f32⟩
  | 80 => ⟨S100000, .f32⟩
  | 81 => ⟨S600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S1x600000, .i32⟩
  | 93 => ⟨S600000, .i32⟩
  | 94 => ⟨S1x600000, .i32⟩
  | 95 => ⟨S600000, .i32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S_, .f32⟩
  | 106 => ⟨S100000x128, .f32⟩
  | 107 => ⟨S600000x1, .i32⟩
  | 108 => ⟨S100000x128, .f32⟩
  | 109 => ⟨S_, .f32⟩
  | 110 => ⟨S600000, .f32⟩
  | 111 => ⟨S_, .f32⟩
  | 112 => ⟨S100000, .f32⟩
  | 113 => ⟨S600000x1, .i32⟩
  | 114 => ⟨S100000, .f32⟩
  | 115 => ⟨S_, .f32⟩
  | 116 => ⟨S100000, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S1x600000, .i32⟩
  | 123 => ⟨S600000, .i32⟩
  | 124 => ⟨S1x600000, .i32⟩
  | 125 => ⟨S600000, .i32⟩
  | 126 => ⟨S_, .i32⟩
  | 127 => ⟨S600000, .i32⟩
  | _ => ⟨S100000x96, .f32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000x128, .f32⟩
  | 7 => ⟨S_, .f32⟩
  | 8 => ⟨S100000x128, .f32⟩
  | 9 => ⟨S600000x1, .i32⟩
  | 10 => ⟨S100000x128, .f32⟩
  | 11 => ⟨S_, .f32⟩
  | 12 => ⟨S600000, .f32⟩
  | 13 => ⟨S_, .f32⟩
  | 14 => ⟨S100000, .f32⟩
  | 15 => ⟨S600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x64, .f32⟩
  | 25 => ⟨S100000x64, .f32⟩
  | _ => ⟨S100000x96, .f32⟩

abbrev hbmTy (i : Nat) : BufTy := match i / 128 with
  | 0 => hbmTy0_0 i
  | 1 => hbmTy0_1 i
  | _ => ⟨S100000x96, .f32⟩

abbrev bufTy : (tb : Table) → Fin (tcTables nBuf tb) → BufTy
  | .hbm, ⟨i, _⟩ => hbmTy i
  | .local _ .vmem, ⟨0, _⟩ => ⟨S2000x96, .f32⟩
  | .local _ .vmem, ⟨1, _⟩ => ⟨S2000x96, .f32⟩
  | .local _ .vmem, ⟨2, _⟩ => ⟨S96x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x160, .f32⟩
  | .local _ .vmem, ⟨7, _⟩ => ⟨S2000x160, .f32⟩
  | .local _ .vmem, ⟨8, _⟩ => ⟨S160x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x1, .f32⟩
  | .local _ .vmem, ⟨41, _⟩ => ⟨S2000x1, .f32⟩
  | .local _ .vmem, ⟨42, _⟩ => ⟨S2000x128, .f32⟩
  | .local _ .vmem, ⟨43, _⟩ => ⟨S2000x128, .f32⟩
  | .local _ .vmem, ⟨44, _⟩ => ⟨S128x64, .f32⟩
  | .local _ .vmem, ⟨45, _⟩ => ⟨S64, .f32⟩
  | .local _ .vmem, ⟨46, _⟩ => ⟨S128x64, .f32⟩
  | .local _ .vmem, ⟨47, _⟩ => ⟨S64, .f32⟩
  | .local _ .vmem, ⟨48, _⟩ => ⟨S64, .f32⟩
  | .local _ .vmem, ⟨49, _⟩ => ⟨S2000x64, .f32⟩
  | .local _ .vmem, ⟨50, _⟩ => ⟨S2000x64, .f32⟩
  | .local _ .vmem, ⟨51, _⟩ => ⟨S2000x128, .f32⟩
  | .local _ .vmem, ⟨52, _⟩ => ⟨S2000x128, .f32⟩
  | .local _ .vmem, ⟨53, _⟩ => ⟨S2000x1, .f32⟩
  | .local _ .vmem, ⟨54, _⟩ => ⟨S2000x1, .f32⟩
  | .local _ .vmem, ⟨55, _⟩ => ⟨S2000x128, .f32⟩
  | .local _ .vmem, ⟨56, _⟩ => ⟨S2000x128, .f32⟩
  | .local _ .vmem, ⟨57, _⟩ => ⟨S128x64, .f32⟩
  | .local _ .vmem, ⟨58, _⟩ => ⟨S64, .f32⟩
  | .local _ .vmem, ⟨59, _⟩ => ⟨S128x64, .f32⟩
  | .local _ .vmem, ⟨60, _⟩ => ⟨S64, .f32⟩
  | .local _ .vmem, ⟨61, _⟩ => ⟨S64, .f32⟩
  | .local _ .vmem, ⟨62, _⟩ => ⟨S2000x64, .f32⟩
  | .local _ .vmem, ⟨63, _⟩ => ⟨S2000x64, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_5 : Ref sig .tc := ⟨.hbm, 64, rfl⟩
abbrev main_v29 : Ref sig .tc := ⟨.hbm, 65, rfl⟩
abbrev main_v30 : Ref sig .tc := ⟨.hbm, 66, rfl⟩
abbrev main_c_6 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_10 : Ref sig .tc := ⟨.hbm, 83, rfl⟩
abbrev main_v43 : Ref sig .tc := ⟨.hbm, 84, rfl⟩
abbrev main_v44 : Ref sig .tc := ⟨.hbm, 85, rfl⟩
abbrev main_cst_11 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_12 : Ref sig .tc := ⟨.hbm, 96, rfl⟩
abbrev main_v54 : Ref sig .tc := ⟨.hbm, 97, rfl⟩
abbrev main_v55 : Ref sig .tc := ⟨.hbm, 98, rfl⟩
abbrev main_c_13 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_14 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_15 : Ref sig .tc := ⟨.hbm, 109, rfl⟩
abbrev main_v64 : Ref sig .tc := ⟨.hbm, 110, rfl⟩
abbrev main_cst_16 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_17 : Ref sig .tc := ⟨.hbm, 115, rfl⟩
abbrev main_v68 : Ref sig .tc := ⟨.hbm, 116, rfl⟩
abbrev main_v69 : Ref sig .tc := ⟨.hbm, 117, rfl⟩
abbrev main_cst_18 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_19 : Ref sig .tc := ⟨.hbm, 126, rfl⟩
abbrev main_v77 : Ref sig .tc := ⟨.hbm, 127, rfl⟩
abbrev main_v78 : Ref sig .tc := ⟨.hbm, 128, rfl⟩
abbrev main_c_20 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_21 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_22 : Ref sig .tc := ⟨.hbm, 139, rfl⟩
abbrev main_v87 : Ref sig .tc := ⟨.hbm, 140, rfl⟩
abbrev main_cst_23 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_24 : Ref sig .tc := ⟨.hbm, 145, rfl⟩
abbrev main_v91 : Ref sig .tc := ⟨.hbm, 146, rfl⟩
abbrev main_v92 : Ref sig .tc := ⟨.hbm, 147, rfl⟩
abbrev main_cst_25 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_stg8_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg8_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem8_0 : DmaSem sig := 49
abbrev cc4_sem8_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem8_1 : DmaSem sig := 63

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S160x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S2000x160_S2000x160_0_0 : ∀ a, (![0, 0] : Fin 2 → Nat) a + S2000x160.size a ≤ S2000x160.size a
  h_S2000x160 : 0 < S2000x160.numel
  inb_S160x128_S160x128_0_0 : ∀ a, (![0, 0] : Fin 2 → Nat) a + S160x128.size a ≤ S160x128.size a
  h_S160x128 : 0 < S160x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  dot_S2000x96_S96x128_S2000x128_1_0_0_1_n_n_wf : DotDims.WF S2000x96 S96x128 S2000x128 [1] [0] [0] [1] [] []
  dot_S2000x160_S160x128_S2000x128_1_0_0_1_n_n_wf : DotDims.WF S2000x160 S160x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S100000x96.size a
  hwx0_0 : ∀ i : grid0.Coords, EltTy.bits .f32 = 32 ∨ (Rect.block (s := S100000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x160.size a ≤ S100000x160.size a
  hwx1_0 : ∀ i : grid1.Coords, EltTy.bits .f32 = 32 ∨ (Rect.block (s := S100000x160) S2000x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x128.size a ≤ S160x128.size a
  hwx1_1 : ∀ i : grid1.Coords, EltTy.bits .f32 = 32 ∨ (Rect.block (s := S160x128) S160x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S100000x128.size a
  hwx3_8 : ∀ i : grid3.Coords, EltTy.bits .f32 = 32 ∨ (Rect.block (s := S100000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x64.size a ≤ S100000x64.size a
  hwx4_8 : ∀ i : grid4.Coords, EltTy.bits .f32 = 32 ∨ (Rect.block (s := S100000x64) S2000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64.size a ≤ S64.size a
  hwx5_7 : ∀ i : grid5.Coords, EltTy.bits .f32 = 32 ∨ (Rect.block (s := S64) S64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x64.size a ≤ S100000x64.size a
  hwx5_8 : ∀ i : grid5.Coords, EltTy.bits .f32 = 32 ∨ (Rect.block (s := S100000x64) S2000x64.size (cc5_transform_8 i) (hinb5_8 i)).WholeWords (EltTy.packing .f32)

variable [Facts₀]

def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def dot_S2000x160_S160x128_S2000x128_1_0_0_1_n_n : DotDims S2000x160 S160x128 S2000x128 where
  lhsContracting := [1]
  rhsContracting := [0]
  lhsNonContracting := [0]
  rhsNonContracting := [1]
  lhsBatch := []
  rhsBatch := []
  wf := dot_S2000x160_S160x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S160x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg14) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg15) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v49) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg26) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg27) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v96) S2000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v86) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg21) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg22) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg23) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg24) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg25) S64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v97) S2000x64.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S100000x96 : Shape := ⟨2, ![100000, 96]⟩
abbrev S100000x160 : Shape := ⟨2, ![100000, 160]⟩
abbrev S2x600000 : Shape := ⟨2, ![2, 600000]⟩
abbrev S96x128 : Shape := ⟨2, ![96, 128]⟩
abbrev S128 : Shape := ⟨1, ![128]⟩
abbrev S160x128 : Shape := ⟨2, ![160, 128]⟩
abbrev S128x128 : Shape := ⟨2, ![128, 128]⟩
abbrev S128x64 : Shape := ⟨2, ![128, 64]⟩
abbrev S64 : Shape := ⟨1, ![64]⟩
abbrev S100000x128 : Shape := ⟨2, ![100000, 128]⟩
abbrev S1x128 : Shape := ⟨2, ![1, 128]⟩
abbrev S_ : Shape := ⟨0, ![]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S100000x1 : Shape := ⟨2, ![100000, 1]⟩
abbrev S100000 : Shape := ⟨1, ![100000]⟩
abbrev S100000x64 : Shape := ⟨2, ![100000, 64]⟩
abbrev S1x64 : Shape := ⟨2, ![1, 64]⟩

abbrev nBuf : Space → Nat
  | .hbm => 300
  | .vmem => 0
  | .smem => 0
  | _ => 0

abbrev hbmTy0_0 (i : Nat) : BufTy := match i % 128 with
  | 0 => ⟨S100000x96, .f32⟩
  | 1 => ⟨S100000x160, .f32⟩
  | 2 => ⟨S2x600000, .i32⟩
  | 3 => ⟨S2x600000, .i32⟩
  | 4 => ⟨S96x128, .f32⟩
  | 5 => ⟨S128, .f32⟩
  | 6 => ⟨S160x128, .f32⟩
  | 7 => ⟨S128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128x64, .f32⟩
  | 19 => ⟨S64, .f32⟩
  | 20 => ⟨S128x64, .f32⟩
  | 21 => ⟨S128x64, .f32⟩
  | 22 => ⟨S64, .f32⟩
  | 23 => ⟨S128x64, .f32⟩
  | 24 => ⟨S64, .f32⟩
  | 25 => ⟨S64, .f32⟩
  | 26 => ⟨S64, .f32⟩
  | 27 => ⟨S64, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x600000, .i32⟩
  | 43 => ⟨S600000, .i32⟩
  | 44 => ⟨S1x600000, .i32⟩
  | 45 => ⟨S600000, .i32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S_, .f32⟩
  | 60 => ⟨S600000x1, .f32⟩
  | 61 => ⟨S_, .f32⟩
  | 62 => ⟨S100000x1, .f32⟩
  | 63 => ⟨S600000x1, .i32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S100000x128, .f32⟩
  | 76 => ⟨S1x600000, .i32⟩
  | 77 => ⟨S600000, .i32⟩
  | 78 => ⟨S1x600000, .i32⟩
  | 79 => ⟨S600000, .i32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S_, .f32⟩
  | 90 => ⟨S100000x128, .f32⟩
  | 91 => ⟨S600000x1, .i32⟩
  | 92 => ⟨S100000x128, .f32⟩
  | 93 => ⟨S_, .f32⟩
  | 94 => ⟨S600000x1, .f32⟩
  | 95 => ⟨S_, .f32⟩
  | 96 => ⟨S100000x1, .f32⟩
  | 97 => ⟨S600000x1, .i32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S100000x128, .f32⟩
  | 109 => ⟨S100000x128, .f32⟩
  | 110 => ⟨S_, .f32⟩
  | 111 => ⟨S100000, .f32⟩
  | 112 => ⟨S100000x1, .f32⟩
  | 113 => ⟨S_, .f32⟩
  | 114 => ⟨S100000x1, .f32⟩
  | 115 => ⟨S100000x1, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S_, .f32⟩
  | _ => ⟨S100000x96, .f32⟩

abbrev hbmTy0_1 (i : Nat) : BufTy := match i % 128 with
  | 0 => ⟨S100000x1, .f32⟩
  | 1 => ⟨S100000x1, .f32⟩
  | 2 => ⟨S100000x1, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x128, .f32⟩
  | 21 => ⟨S100000x128, .f32⟩
  | 22 => ⟨S100000x128, .f32⟩
  | 23 => ⟨S_, .f32⟩
  | 24 => ⟨S100000, .f32⟩
  | 25 => ⟨S100000x1, .f32⟩
  | 26 => ⟨S_, .f32⟩
  | 27 => ⟨S100000x1, .f32⟩
  | 28 => ⟨S100000x1, .f32⟩
  | 29 => ⟨S100000x128, .f32⟩
  | 30 => ⟨S100000x128, .f32⟩
  | 31 => ⟨S_, .f32⟩
  | 32 => ⟨S100000x1, .f32⟩
  | 33 => ⟨S100000x1, .f32⟩
  | 34 => ⟨S100000x1, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S1x600000, .i32⟩
  | 47 => ⟨S600000, .i32⟩
  | 48 => ⟨S1x600000, .i32⟩
  | 49 => ⟨S600000, .i32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S_, .f32⟩
  | 60 => ⟨S100000x128, .f32⟩
  | 61 => ⟨S600000x1, .i32⟩
  | 62 => ⟨S100000x128, .f32⟩
  | 63 => ⟨S_, .f32⟩
  | 64 => ⟨S600000x1, .f32⟩
  | 65 => ⟨S_, .f32⟩
  | 66 => ⟨S100000x1, .f32⟩
  | 67 => ⟨S600000x1, .i32⟩
  | 68 => ⟨S100000x1, .f32⟩
  | 69 => ⟨S_, .f32⟩
  | 70 => ⟨S100000x1, .f32⟩
  | 71 => ⟨S100000x1, .f32⟩
  | 72 => ⟨S100000x128, .f32⟩
  | 73 => ⟨S100000x128, .f32⟩
  | 74 => ⟨S100000x64, .f32⟩
  | 75 => ⟨S1x64, .f32⟩
  | 76 => ⟨S100000x64, .f32⟩
  | 77 => ⟨S100000x64, .f32⟩
  | 78 => ⟨S100000x64, .f32⟩
  | 79 => ⟨S100000x64, .f32⟩
  | 80 => ⟨S1x600000, .i32⟩
  | 81 => ⟨S600000, .i32⟩
  | 82 => ⟨S1x600000, .i32⟩
  | 83 => ⟨S600000, .i32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S_, .f32⟩
  | 98 => ⟨S600000x1, .f32⟩
  | 99 => ⟨S_, .f32⟩
  | 100 => ⟨S100000x1, .f32⟩
  | 101 => ⟨S600000x1, .i32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S100000x64, .f32⟩
  | 109 => ⟨S1x64, .f32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S100000, .f32⟩
  | 116 => ⟨S100000x1, .f32⟩
  | 117 => ⟨S_, .f32⟩
  | 118 => ⟨S100000x1, .f32⟩
  | 119 => ⟨S100000x1, .f32⟩
  | 120 => ⟨S100000x64, .f32⟩
  | 121 => ⟨S100000x64, .f32⟩
  | 122 => ⟨S100000x64, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x96, .f32⟩

abbrev hbmTy0_2 (i : Nat) : BufTy := match i % 128 with
  | 0 => ⟨S100000x1, .f32⟩
  | 1 => ⟨S100000x64, .f32⟩
  | 2 => ⟨S100000x64, .f32⟩
  | 3 => ⟨S_, .f32⟩
  | 4 => ⟨S100000x1, .f32⟩
  | 5 => ⟨S100000x1, .f32⟩
  | 6 => ⟨S100000x1, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000, .f32⟩
  | 17 => ⟨S100000x1, .f32⟩
  | 18 => ⟨S_, .f32⟩
  | 19 => ⟨S100000x1, .f32⟩
  | 20 => ⟨S100000x1, .f32⟩
  | 21 => ⟨S100000x64, .f32⟩
  | 22 => ⟨S100000x64, .f32⟩
  | 23 => ⟨S100000x64, .f32⟩
  | 24 => ⟨S_, .f32⟩
  | 25 => ⟨S100000, .f32⟩
  | 26 => ⟨S100000x1, .f32⟩
  | 27 => ⟨S_, .f32⟩
  | 28 => ⟨S100000x1, .f32⟩
  | 29 => ⟨S100000x1, .f32⟩
  | 30 => ⟨S100000x64, .f32⟩
  | 31 => ⟨S100000x64, .f32⟩
  | 32 => ⟨S_, .f32⟩
  | 33 => ⟨S100000x1, .f32⟩
  | 34 => ⟨S100000x1, .f32⟩
  | 35 => ⟨S100000x1, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | _ => ⟨S100000x96, .f32⟩

abbrev hbmTy (i : Nat) : BufTy := match i / 128 with
  | 0 => hbmTy0_0 i
  | 1 => hbmTy0_1 i
  | 2 => hbmTy0_2 i
  | _ => ⟨S100000x96, .f32⟩

abbrev bufTy : (tb : Table) → Fin (tcTables nBuf tb) → BufTy
  | .hbm, ⟨i, _⟩ => hbmTy i
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_cst : Ref sig .tc := ⟨.hbm, 32, rfl⟩
abbrev main_call0_v0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c : Ref sig .tc := ⟨.hbm, 46, rfl⟩
abbrev main_v14 : Ref sig .tc := ⟨.hbm, 47, rfl⟩
abbrev main_v15 : Ref sig .tc := ⟨.hbm, 48, rfl⟩
abbrev main_c_0 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_1 : Ref sig .tc := ⟨.hbm, 59, rfl⟩
abbrev main_v24 : Ref sig .tc := ⟨.hbm, 60, rfl⟩
abbrev main_cst_2 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_4 : Ref sig .tc := ⟨.hbm, 80, rfl⟩
abbrev main_v42 : Ref sig .tc := ⟨.hbm, 81, rfl⟩
abbrev main_v43 : Ref sig .tc := ⟨.hbm, 82, rfl⟩
abbrev main_c_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_6 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_7 : Ref sig .tc := ⟨.hbm, 93, rfl⟩
abbrev main_v52 : Ref sig .tc := ⟨.hbm, 94, rfl⟩
abbrev main_cst_8 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_9 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_10 : Ref sig .tc := ⟨.hbm, 110, rfl⟩
abbrev main_v66 : Ref sig .tc := ⟨.hbm, 111, rfl⟩
abbrev main_v67 : Ref sig .tc := ⟨.hbm, 112, rfl⟩
abbrev main_cst_11 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_12 : Ref sig .tc := ⟨.hbm, 119, rfl⟩
abbrev main_v73 : Ref sig .tc := ⟨.hbm, 120, rfl⟩
abbrev main_v74 : Ref sig .tc := ⟨.hbm, 121, rfl⟩
abbrev main_cst_13 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_14 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_call2_cst : Ref sig .tc := ⟨.hbm, 139, rfl⟩
abbrev main_call2_v0 : Ref sig .tc := ⟨.hbm, 140, rfl⟩
abbrev main_v90 : Ref sig .tc := ⟨.hbm, 141, rfl⟩
abbrev main_cst_15 : Ref sig .tc := ⟨.hbm, 142, rfl⟩
abbrev main_v91 : Ref sig .tc := ⟨.hbm, 143, rfl⟩
abbrev main_v92 : Ref sig .tc := ⟨.hbm, 144, rfl⟩
abbrev main_cst_16 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_17 : Ref sig .tc := ⟨.hbm, 151, rfl⟩
abbrev main_v98 : Ref sig .tc := ⟨.hbm, 152, rfl⟩
abbrev main_v99 : Ref sig .tc := ⟨.hbm, 153, rfl⟩
abbrev main_cst_18 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_19 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call3_cst : Ref sig .tc := ⟨.hbm, 171, rfl⟩
abbrev main_call3_v0 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_c_20 : Ref sig .tc := ⟨.hbm, 178, rfl⟩
abbrev main_v120 : Ref sig .tc := ⟨.hbm, 179, rfl⟩
abbrev main_v121 : Ref sig .tc := ⟨.hbm, 180, rfl⟩
abbrev main_c_21 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_22 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_23 : Ref sig .tc := ⟨.hbm, 191, rfl⟩
abbrev main_v130 : Ref sig .tc := ⟨.hbm, 192, rfl⟩
abbrev main_cst_24 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_25 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_c_26 : Ref sig .tc := ⟨.hbm, 212, rfl⟩
abbrev main_v148 : Ref sig .tc := ⟨.hbm, 213, rfl⟩
abbrev main_v149 : Ref sig .tc := ⟨.hbm, 214, rfl⟩
abbrev main_c_27 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_28 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_29 : Ref sig .tc := ⟨.hbm, 225, rfl⟩
abbrev main_v158 : Ref sig .tc := ⟨.hbm, 226, rfl⟩
abbrev main_cst_30 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_cst_31 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_cst_32 : Ref sig .tc := ⟨.hbm, 242, rfl⟩
abbrev main_v172 : Ref sig .tc := ⟨.hbm, 243, rfl⟩
abbrev main_v173 : Ref sig .tc := ⟨.hbm, 244, rfl⟩
abbrev main_cst_33 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_cst_34 : Ref sig .tc := ⟨.hbm, 251, rfl⟩
abbrev main_v179 : Ref sig .tc := ⟨.hbm, 252, rfl⟩
abbrev main_v180 : Ref sig .tc := ⟨.hbm, 253, rfl⟩
abbrev main_cst_35 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_cst_36 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_cst_37 : Ref sig .tc := ⟨.hbm, 271, rfl⟩
abbrev main_v196 : Ref sig .tc := ⟨.hbm, 272, rfl⟩
abbrev main_v197 : Ref sig .tc := ⟨.hbm, 273, rfl⟩
abbrev main_cst_38 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_cst_39 : Ref sig .tc := ⟨.hbm, 280, rfl⟩
abbrev main_v203 : Ref sig .tc := ⟨.hbm, 281, rfl⟩
abbrev main_v204 : Ref sig .tc := ⟨.hbm, 282, rfl⟩
abbrev main_cst_40 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_cst_41 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  dot_S100000x96_S96x128_S100000x128_1_0_0_1_n_n_wf : DotDims.WF S100000x96 S96x128 S100000x128 [1] [0] [0] [1] [] []
  dot_S100000x160_S160x128_S100000x128_1_0_0_1_n_n_wf : DotDims.WF S100000x160 S160x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def dot_S100000x96_S96x128_S100000x128_1_0_0_1_n_n : DotDims S100000x96 S96x128 S100000x128 where
  lhsContracting := [1]
  rhsContracting := [0]
  lhsNonContracting := [0]
  rhsNonContracting := [1]
  lhsBatch := []
  rhsBatch := []
  wf := dot_S100000x96_S96x128_S100000x128_1_0_0_1_n_n_wf
def dot_S100000x160_S160x128_S100000x128_1_0_0_1_n_n : DotDims S100000x160 S160x128 S100000x128 where
  lhsContracting := [1]
  rhsContracting := [0]
  lhsNonContracting := [0]
  rhsNonContracting := [1]
  lhsBatch := []
  rhsBatch := []
  wf := dot_S100000x160_S160x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its two results named.  The program is six kernel regions among two stretches of
  host operations; the buffers' contents at each boundary are a fold from the launch memory (the launch contents,
  each region's arrays at what its write-backs leave, each stretch's operations applied), and every weakly fair
  execution terminates with every unscoped buffer at the last boundary's contents.  Read at the two result buffers
  and at the argument buffers (which no region and no host operation writes), that is: the users' and the items' last
  layer at the fold's value, the arguments as launched.
-/
import proofs.«174023_j26113401160011_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents and the argument arrays as launched. -/
theorem run : θ_run defs (onTc (τ := τ) (main (F := F))) ⟨m, fun _ => 0, ρ⟩ (fun r => ∀ c : Dev nD,
      r.2.mem ((c.tc : Thread nD τ).loc main_v97) = W8 m ρ c (Proc.devRef .tc main_v97)
      ∧ r.2.mem ((c.tc : Thread nD τ).loc main_v96) = W8 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v97 (by decide)),
       h c _ (mem_uc main_v96 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c)⟩)

end Cert.KernelIdeal.Run

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«174023_j26113401160011_1_alg».proof.Proof.LibMatmul2
import proofs.«174023_j26113401160011_1_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«174023_j26113401160011_1_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«174023_j26113401160011_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibHeteroLayers.lean ====
/-
  The two layer shapes of a two-type message-passing network with mean aggregation, entry by entry, on the extended
  reals.

  An input projection of node features x (N rows of K entries) with weights w (K rows of B entries) and a bias b is,
  at (p, q),  max (∑ₖ x(p,k)·w(k,q) + b(q)) 0.

  A message-passing layer takes the aggregated neighbour features a (N rows of K entries), the node's own features x,
  weights wl, wr, a bias bl, and a gain g and shift b for the normalisation.  Row p of its linear part is
      z(q) = (∑ₖ a(p,k)·wl(k,q) + bl(q)) + ∑ₖ x(p,k)·wr(k,q),
  and the layer's value at (p, q) is the row normalised to zero mean and unit variance, scaled and shifted:
      μ = (∑ₖ z(k)) / n,   σ² = (∑ₖ (z(k) − μ)²) / n,   ((z(q) − μ) · rsqrt(σ² + ε)) · g(q) + b(q),
  optionally followed by the maximum with zero.  The divisor n and ε enter as the bit patterns the programs print, and
  are never evaluated.  The aggregated features are a sum-array s scaled row by row: either multiplied by a column
  of reciprocals (`aggMul`) or divided by a column of counts (`aggDiv`); the two agree when the first column is
  the reciprocal of the second and no count is zero, at the infinities too, because a division by a nonzero number
  is the product with its inverse and the reciprocal of c is 1·c⁻¹ = c⁻¹.

  Then the two ways programs spell these: a tile of rows computed by matrix products into zero accumulators, lane
  reductions kept as columns and repeated along the rows; and the same on whole arrays with the host's products,
  reductions and repetitions.  Every operation is applied in the same order on both sides, so apart from the law for
  the aggregation nothing of the arithmetic of the extended reals is used and nothing has to be finite.
-/
import Idealize.ShloMosaic.PureOps.Ideal.Laws
import Idealize.ShloMosaic.Lib.ValueIdx
import Idealize.ShloMosaic.Lib.ValueLayout
import proofs.«174023_j26113401160011_1_alg».proof.Proof.LibEntryReads
import proofs.«174023_j26113401160011_1_alg».proof.Proof.LibHostReads
import proofs.«174023_j26113401160011_1_alg».proof.Proof.LibAffineLayer

noncomputable section

open scoped BigOperators

namespace Cert.Hetero

open Idealize.ShloMosaic Idealize.ShloMosaic.ValueIdx

variable {N K B : ℕ}

/-! ## The functions -/

/-- The input projection at row p and column q. -/
def projAt (x : FVec Ideal ⟨2, ![N, K]⟩ .f32) (w : FVec Ideal ⟨2, ![K, B]⟩ .f32) (b : FVec Ideal ⟨1, ![B]⟩ .f32)
    (p : Fin N) (q : Fin B) : EReal :=
  max ((∑ k : Fin K, x (ix2 p k) * w (ix2 k q)) + b (ix1 q)) (Ideal.ofBits .f32 0x00000000#32)

/-- The input projection as one function of the result index. -/
def proj (x : FVec Ideal ⟨2, ![N, K]⟩ .f32) (w : FVec Ideal ⟨2, ![K, B]⟩ .f32) (b : FVec Ideal ⟨1, ![B]⟩ .f32) :
    FVec Ideal ⟨2, ![N, B]⟩ .f32 := fun i => projAt x w b ⟨(i 0).val, idx2_lt0 i⟩ ⟨(i 1).val, idx2_lt1 i⟩

theorem proj_ix2 (x : FVec Ideal ⟨2, ![N, K]⟩ .f32) (w : FVec Ideal ⟨2, ![K, B]⟩ .f32) (b : FVec Ideal ⟨1, ![B]⟩ .f32)
    (p : Fin N) (q : Fin B) : proj x w b (ix2 p q) = projAt x w b p q := rfl

/-- The linear part of a layer at row p and column q. -/
def lin (a x : FVec Ideal ⟨2, ![N, K]⟩ .f32) (wl wr : FVec Ideal ⟨2, ![K, B]⟩ .f32) (bl : FVec Ideal ⟨1, ![B]⟩ .f32)
    (p : Fin N) (q : Fin B) : EReal :=
  ((∑ k : Fin K, a (ix2 p k) * wl (ix2 k q)) + bl (ix1 q)) + ∑ k : Fin K, x (ix2 p k) * wr (ix2 k q)

/-- The mean of a row, its sum over the divisor. -/
def mean (n : EReal) (z : Fin B → EReal) : EReal := Ideal.div (∑ k : Fin B, z k) n

/-- A row normalised, scaled and shifted, at column q. -/
def normAt (n e : EReal) (z : Fin B → EReal) (g b : FVec Ideal ⟨1, ![B]⟩ .f32) (q : Fin B) : EReal :=
  ((z q - mean n z) * Ideal.rsqrt (Ideal.div (∑ k : Fin B, (z k - mean n z) * (z k - mean n z)) n + e)) * g (ix1 q)
    + b (ix1 q)

/-- A layer without the final maximum, at row p and column q; `nw` and `ew` are the words of the divisor and of ε. -/
def layerAt (nw ew : BitVec 32) (a x : FVec Ideal ⟨2, ![N, K]⟩ .f32) (wl wr : FVec Ideal ⟨2, ![K, B]⟩ .f32)
    (bl g b : FVec Ideal ⟨1, ![B]⟩ .f32) (p : Fin N) (q : Fin B) : EReal :=
  normAt (Ideal.ofBits .f32 nw) (Ideal.ofBits .f32 ew) (fun k => lin a x wl wr bl p k) g b q

/-- A layer without the final maximum, as one function of the result index. -/
def layer (nw ew : BitVec 32) (a x : FVec Ideal ⟨2, ![N, K]⟩ .f32) (wl wr : FVec Ideal ⟨2, ![K, B]⟩ .f32)
    (bl g b : FVec Ideal ⟨1, ![B]⟩ .f32) : FVec Ideal ⟨2, ![N, B]⟩ .f32 := fun i =>
  layerAt nw ew a x wl wr bl g b ⟨(i 0).val, idx2_lt0 i⟩ ⟨(i 1).val, idx2_lt1 i⟩

/-- A layer followed by the maximum with zero. -/
def layerRelu (nw ew : BitVec 32) (a x : FVec Ideal ⟨2, ![N, K]⟩ .f32) (wl wr : FVec Ideal ⟨2, ![K, B]⟩ .f32)
    (bl g b : FVec Ideal ⟨1, ![B]⟩ .f32) : FVec Ideal ⟨2, ![N, B]⟩ .f32 := fun i =>
  max (layerAt nw ew a x wl wr bl g b ⟨(i 0).val, idx2_lt0 i⟩ ⟨(i 1).val, idx2_lt1 i⟩) (Ideal.ofBits .f32 0x00000000#32)

/-- Each row of s times that row's entry of a column. -/
def aggMul (s : FVec Ideal ⟨2, ![N, K]⟩ .f32) (ic : FVec Ideal ⟨2, ![N, 1]⟩ .f32) : FVec Ideal ⟨2, ![N, K]⟩ .f32 :=
  fun i => s i * ic (ix2 (⟨(i 0).val, idx2_lt0 i⟩ : Fin N) (0 : Fin 1))

/-- Each row of s over that row's entry of a column. -/
def aggDiv (s : FVec Ideal ⟨2, ![N, K]⟩ .f32) (c : FVec Ideal ⟨2, ![N, 1]⟩ .f32) : FVec Ideal ⟨2, ![N, K]⟩ .f32 :=
  fun i => Ideal.div (s i) (c (ix2 (⟨(i 0).val, idx2_lt0 i⟩ : Fin N) (0 : Fin 1)))

/-- Multiplying by the reciprocal of a nonzero number is dividing by it, for every extended real. -/
theorem mul_recip_eq_div (s c : EReal) (hc : c ≠ 0) : s * Ideal.div 1 c = Ideal.div s c := by
  unfold Ideal.div
  rw [if_neg hc, if_neg hc, one_mul]

/-- The two aggregations agree when the first column holds the reciprocals of the second and no entry is zero. -/
theorem aggMul_eq_aggDiv (s : FVec Ideal ⟨2, ![N, K]⟩ .f32) (ic c : FVec Ideal ⟨2, ![N, 1]⟩ .f32)
    (h : ∀ p : Fin N, ic (ix2 p (0 : Fin 1)) = Ideal.div 1 (c (ix2 p (0 : Fin 1))) ∧ c (ix2 p (0 : Fin 1)) ≠ 0) :
    aggMul s ic = aggDiv s c := by
  funext i
  unfold aggMul aggDiv
  rw [(h _).1]
  exact mul_recip_eq_div _ _ (h _).2

/-! ## A tile of rows, as a kernel body computes it -/

/-- A product into the zero accumulator plus a bias vector cast to a row and repeated, then the maximum with zero,
    at (p, q). -/
theorem tile_proj (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    {φ : FTy} (x : FVec Ideal ⟨2, ![N, K]⟩ φ) (w : FVec Ideal ⟨2, ![K, B]⟩ φ) (b : FVec Ideal ⟨1, ![B]⟩ .f32)
    (hc : (⟨1, ![B]⟩ : Shape).ShapeCasts ⟨2, ![1, B]⟩) (hc' : (⟨2, ![1, B]⟩ : Shape).ShapeCasts ⟨2, ![1, B]⟩)
    (hb : (⟨2, ![1, B]⟩ : Shape).Broadcasts ⟨2, ![N, B]⟩) (p : Fin N) (q : Fin B) :
    maximumf (addf (matmul D none x w (constant ⟨2, ![N, B]⟩ .f32 0x00000000#32))
        (broadcastTo ⟨2, ![N, B]⟩ (shapeCast ⟨2, ![1, B]⟩ (shapeCast ⟨2, ![1, B]⟩ b hc) hc') hb))
        (broadcast ⟨2, ![N, B]⟩ (Scalar.ofBits .f32 0x00000000#32)) (ix2 p q)
      = max ((∑ k : Fin K, x (ix2 p k) * w (ix2 k q)) + b (ix1 q)) (Ideal.ofBits .f32 0x00000000#32) := by
  rw [shapeCast_self _ hc']
  show max (matmul D none x w (constant ⟨2, ![N, B]⟩ .f32 0x00000000#32) (ix2 p q)
      + broadcastTo ⟨2, ![N, B]⟩ (shapeCast ⟨2, ![1, B]⟩ b hc) hb (ix2 p q)) (Ideal.ofBits .f32 0x00000000#32) = _
  rw [Cert.Lib.matmul_plain_apply D wf hD x w p q, Cert.Lib.rowBroadcast_apply b hc hb p q]

/-- The linear part of a layer on a tile: the sum-tile times a column of reciprocals repeated along the rows, its
    product with wl into the zero accumulator, plus the bias row repeated, plus the product of the node tile with wr,
    at (p, q). -/
theorem tile_lin (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (s x : FVec Ideal ⟨2, ![N, K]⟩ .f32) (ic : FVec Ideal ⟨2, ![N, 1]⟩ .f32) (wl wr : FVec Ideal ⟨2, ![K, B]⟩ .f32)
    (bl : FVec Ideal ⟨1, ![B]⟩ .f32)
    (h11 : (⟨2, ![N, 1]⟩ : Shape).ShapeCasts ⟨2, ![N, 1]⟩) (hbK : (⟨2, ![N, 1]⟩ : Shape).Broadcasts ⟨2, ![N, K]⟩)
    (hNK : (⟨2, ![N, K]⟩ : Shape).ShapeCasts ⟨2, ![N, K]⟩) (hlt : FTy.bf16.bits < FTy.f32.bits)
    (hc : (⟨1, ![B]⟩ : Shape).ShapeCasts ⟨2, ![1, B]⟩) (hc' : (⟨2, ![1, B]⟩ : Shape).ShapeCasts ⟨2, ![1, B]⟩)
    (hb : (⟨2, ![1, B]⟩ : Shape).Broadcasts ⟨2, ![N, B]⟩) (p : Fin N) (q : Fin B) :
    addf (addf (matmul D none
            (truncf .bf16 (mulf (shapeCast ⟨2, ![N, K]⟩ s hNK)
              (broadcastTo ⟨2, ![N, K]⟩ (shapeCast ⟨2, ![N, 1]⟩ (shapeCast ⟨2, ![N, 1]⟩ ic h11) h11) hbK)) hlt)
            (truncf .bf16 wl hlt) (constant ⟨2, ![N, B]⟩ .f32 0x00000000#32))
          (broadcastTo ⟨2, ![N, B]⟩ (shapeCast ⟨2, ![1, B]⟩ (shapeCast ⟨2, ![1, B]⟩ bl hc) hc') hb))
        (matmul D none (truncf .bf16 (shapeCast ⟨2, ![N, K]⟩ x hNK) hlt) (truncf .bf16 wr hlt)
          (constant ⟨2, ![N, B]⟩ .f32 0x00000000#32)) (ix2 p q)
      = lin (aggMul s ic) x wl wr bl p q := by
  rw [shapeCast_self _ hc', shapeCast_self _ hNK, shapeCast_self _ hNK, shapeCast_self _ h11, shapeCast_self _ h11]
  show (matmul D none _ _ (constant ⟨2, ![N, B]⟩ .f32 0x00000000#32) (ix2 p q)
      + broadcastTo ⟨2, ![N, B]⟩ (shapeCast ⟨2, ![1, B]⟩ bl hc) hb (ix2 p q))
      + matmul D none _ _ (constant ⟨2, ![N, B]⟩ .f32 0x00000000#32) (ix2 p q) = _
  rw [Cert.Lib.matmul_plain_apply D wf hD _ _ p q, Cert.Lib.matmul_plain_apply D wf hD _ _ p q,
    Cert.Lib.rowBroadcast_apply bl hc hb p q]
  unfold lin aggMul
  refine congrArg (fun t => (t + bl (ix1 q)) + _) (Finset.sum_congr rfl fun k _ => ?_)
  show (s (ix2 p k) * broadcastTo ⟨2, ![N, K]⟩ ic hbK (ix2 p k)) * wl (ix2 k q) = _
  rw [Cert.Lib.broadcastTo_a1_ab_apply ic hbK p k]
  rfl

/-- The normalisation of a tile z: the row sums kept as a column over the divisor, repeated and subtracted, the
    squares summed the same way, ε added, the reciprocal square root repeated and multiplied in, then the gain row
    and the shift row, at (p, q). -/
theorem tile_norm (z : FVec Ideal ⟨2, ![N, B]⟩ .f32) (nw ew : BitVec 32) (g b : FVec Ideal ⟨1, ![B]⟩ .f32)
    (hred : (⟨2, ![N, B]⟩ : Shape).Reduces [1] ⟨1, ![N]⟩) (hφ : FKind.Formats FTy.f32)
    (hadd : (0x00000000#32 : BitVec FTy.f32.bits) = FKind.add.neutral .f32 hφ)
    (hcol : (⟨1, ![N]⟩ : Shape).ShapeCasts ⟨2, ![N, 1]⟩) (hbB : (⟨2, ![N, 1]⟩ : Shape).Broadcasts ⟨2, ![N, B]⟩)
    (hc : (⟨1, ![B]⟩ : Shape).ShapeCasts ⟨2, ![1, B]⟩) (hc' : (⟨2, ![1, B]⟩ : Shape).ShapeCasts ⟨2, ![1, B]⟩)
    (hb : (⟨2, ![1, B]⟩ : Shape).Broadcasts ⟨2, ![N, B]⟩) (p : Fin N) (q : Fin B) :
    addf (mulf (mulf
          (subf z (broadcastTo ⟨2, ![N, B]⟩ (divf (shapeCast ⟨2, ![N, 1]⟩ (multiReduction .add [1] ⟨1, ![N]⟩ z 0x00000000#32 hred hφ hadd) hcol)
            (broadcast ⟨2, ![N, 1]⟩ (Scalar.ofBits .f32 nw))) hbB))
          (broadcastTo ⟨2, ![N, B]⟩ (rsqrt (addf (divf (shapeCast ⟨2, ![N, 1]⟩ (multiReduction .add [1] ⟨1, ![N]⟩
              (mulf (subf z (broadcastTo ⟨2, ![N, B]⟩ (divf (shapeCast ⟨2, ![N, 1]⟩ (multiReduction .add [1] ⟨1, ![N]⟩ z 0x00000000#32 hred hφ hadd) hcol)
                  (broadcast ⟨2, ![N, 1]⟩ (Scalar.ofBits .f32 nw))) hbB))
                (subf z (broadcastTo ⟨2, ![N, B]⟩ (divf (shapeCast ⟨2, ![N, 1]⟩ (multiReduction .add [1] ⟨1, ![N]⟩ z 0x00000000#32 hred hφ hadd) hcol)
                  (broadcast ⟨2, ![N, 1]⟩ (Scalar.ofBits .f32 nw))) hbB)))
              0x00000000#32 hred hφ hadd) hcol) (broadcast ⟨2, ![N, 1]⟩ (Scalar.ofBits .f32 nw)))
            (broadcast ⟨2, ![N, 1]⟩ (Scalar.ofBits .f32 ew)))) hbB))
          (broadcastTo ⟨2, ![N, B]⟩ (shapeCast ⟨2, ![1, B]⟩ (shapeCast ⟨2, ![1, B]⟩ g hc) hc') hb))
        (broadcastTo ⟨2, ![N, B]⟩ (shapeCast ⟨2, ![1, B]⟩ (shapeCast ⟨2, ![1, B]⟩ b hc) hc') hb) (ix2 p q)
      = normAt (Ideal.ofBits .f32 nw) (Ideal.ofBits .f32 ew) (fun k => z (ix2 p k)) g b q := by
  rw [shapeCast_self _ hc', shapeCast_self _ hc']
  simp only [addf_apply, mulf_apply, subf_apply, divf_apply, broadcast_apply, Cert.Lib.rsqrt_apply,
    Cert.Lib.rowBroadcast_apply _ hc hb p q, Cert.Lib.broadcastTo_a1_ab_apply _ hbB p,
    Cert.Lib.shapeCast_a_a1_apply _ hcol p (0 : Fin 1), Cert.Lib.rowSum_apply _ _ hred hφ hadd p]
  rfl

/-! ## The same on whole arrays, as the host computes it -/

/-- The host's quotient at an index is the quotient of the elements. -/
theorem host_divf_apply {s : Shape} {φ : FTy} (a b : FVec Ideal s φ) (i : s.Idx) :
    Host.divf a b i = Ideal.div (a i) (b i) := rfl

/-- The host's product plus the bias vector repeated along the rows, then the maximum with a repeated zero. -/
theorem host_proj (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (x : FVec Ideal ⟨2, ![N, K]⟩ .f32) (w : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1])
    (h0 : (⟨0, ![]⟩ : Shape).BroadcastsInDim ⟨2, ![N, B]⟩ ![]) :
    maximumf (addf (Host.dotGeneral D none x w)
        (broadcastInDim ⟨2, ![N, B]⟩ ![0, 1] h2 (broadcastInDim ⟨2, ![1, B]⟩ ![1] h1 b)))
        (broadcastInDim ⟨2, ![N, B]⟩ ![] h0 (constant (F := Ideal) ⟨0, ![]⟩ .f32 0x00000000#32))
      = proj x w b := by
  funext i
  obtain ⟨p, q, rfl⟩ : ∃ (p : Fin N) (q : Fin B), i = ix2 p q := ⟨i 0, i 1, eq_ix2 i⟩
  show max (Host.dotGeneral D none x w (ix2 p q)
      + broadcastInDim ⟨2, ![N, B]⟩ ![0, 1] h2 (broadcastInDim ⟨2, ![1, B]⟩ ![1] h1 b) (ix2 p q))
      (broadcastInDim ⟨2, ![N, B]⟩ ![] h0 (constant (F := Ideal) ⟨0, ![]⟩ .f32 0x00000000#32) (ix2 p q)) = _
  rw [Cert.Lib.dotGeneral_plain_apply D wf hD x w p q, Cert.Lib.bcast_vec_rows_apply b h1 h2 p q,
    Cert.Lib.bcast_scalar_apply h0 _ _]
  rfl

/-- The host's linear part of a layer on whole arrays: the aggregated features' product with wl, plus the bias
    repeated, plus the node features' product with wr, at (p, q). -/
theorem host_lin (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (bl : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (addf (Host.dotGeneral D none a wl)
        (broadcastInDim ⟨2, ![N, B]⟩ ![0, 1] h2 (broadcastInDim ⟨2, ![1, B]⟩ ![1] h1 bl)))
        (Host.dotGeneral D none x wr) (ix2 p q)
      = lin a x wl wr bl p q := by
  show (Host.dotGeneral D none a wl (ix2 p q)
      + broadcastInDim ⟨2, ![N, B]⟩ ![0, 1] h2 (broadcastInDim ⟨2, ![1, B]⟩ ![1] h1 bl) (ix2 p q))
      + Host.dotGeneral D none x wr (ix2 p q) = _
  rw [Cert.Lib.dotGeneral_plain_apply D wf hD a wl p q, Cert.Lib.dotGeneral_plain_apply D wf hD x wr p q,
    Cert.Lib.bcast_vec_rows_apply bl h1 h2 p q]
  rfl

/-- The host's division of a sum-array by a column of counts repeated along the rows. -/
theorem host_aggDiv (s : FVec Ideal ⟨2, ![N, K]⟩ .f32) (c : FVec Ideal ⟨2, ![N, 1]⟩ .f32)
    (h2 : (⟨2, ![N, 1]⟩ : Shape).BroadcastsInDim ⟨2, ![N, K]⟩ ![0, 1]) :
    Host.divf s (broadcastInDim ⟨2, ![N, K]⟩ ![0, 1] h2 c) = aggDiv s c := by
  funext i
  obtain ⟨p, k, rfl⟩ : ∃ (p : Fin N) (k : Fin K), i = ix2 p k := ⟨i 0, i 1, eq_ix2 i⟩
  show Ideal.div (s (ix2 p k)) (broadcastInDim ⟨2, ![N, K]⟩ ![0, 1] h2 c (ix2 p k)) = _
  rw [Cert.Lib.bcast_col_rows_apply c h2 p k]
  rfl

/-- The host's normalisation of an array z, at (p, q). -/
theorem host_norm (z : FVec Ideal ⟨2, ![N, B]⟩ .f32) (nw ew : BitVec 32) (g b : FVec Ideal ⟨1, ![B]⟩ .f32)
    (hred : (⟨2, ![N, B]⟩ : Shape).Reduces [1] ⟨1, ![N]⟩) (h' : (⟨2, ![N, B]⟩ : Shape).ReducesTo [1] ⟨1, ![N]⟩)
    (hu : 0 < (⟨0, ![]⟩ : Shape).numel)
    (hcol : (⟨1, ![N]⟩ : Shape).BroadcastsInDim ⟨2, ![N, 1]⟩ ![0])
    (hs : (⟨0, ![]⟩ : Shape).BroadcastsInDim ⟨2, ![N, 1]⟩ ![])
    (hrow : (⟨2, ![N, 1]⟩ : Shape).BroadcastsInDim ⟨2, ![N, B]⟩ ![0, 1])
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (mulf (mulf
          (subf z (broadcastInDim ⟨2, ![N, B]⟩ ![0, 1] hrow (Host.divf (broadcastInDim ⟨2, ![N, 1]⟩ ![0] hcol
              (Host.reduceAdd z (constant (⟨0, ![]⟩ : Shape) .f32 0x00000000#32) h' hu))
            (broadcastInDim ⟨2, ![N, 1]⟩ ![] hs (constant (F := Ideal) ⟨0, ![]⟩ .f32 nw)))))
          (broadcastInDim ⟨2, ![N, B]⟩ ![0, 1] hrow (Host.rsqrt (addf (Host.divf (broadcastInDim ⟨2, ![N, 1]⟩ ![0] hcol
              (Host.reduceAdd
                (mulf (subf z (broadcastInDim ⟨2, ![N, B]⟩ ![0, 1] hrow (Host.divf (broadcastInDim ⟨2, ![N, 1]⟩ ![0] hcol
                    (Host.reduceAdd z (constant (⟨0, ![]⟩ : Shape) .f32 0x00000000#32) h' hu))
                  (broadcastInDim ⟨2, ![N, 1]⟩ ![] hs (constant (F := Ideal) ⟨0, ![]⟩ .f32 nw)))))
                  (subf z (broadcastInDim ⟨2, ![N, B]⟩ ![0, 1] hrow (Host.divf (broadcastInDim ⟨2, ![N, 1]⟩ ![0] hcol
                    (Host.reduceAdd z (constant (⟨0, ![]⟩ : Shape) .f32 0x00000000#32) h' hu))
                  (broadcastInDim ⟨2, ![N, 1]⟩ ![] hs (constant (F := Ideal) ⟨0, ![]⟩ .f32 nw))))))
                (constant (⟨0, ![]⟩ : Shape) .f32 0x00000000#32) h' hu))
              (broadcastInDim ⟨2, ![N, 1]⟩ ![] hs (constant (F := Ideal) ⟨0, ![]⟩ .f32 nw)))
            (broadcastInDim ⟨2, ![N, 1]⟩ ![] hs (constant (F := Ideal) ⟨0, ![]⟩ .f32 ew))))))
          (broadcastInDim ⟨2, ![N, B]⟩ ![0, 1] h2 (broadcastInDim ⟨2, ![1, B]⟩ ![1] h1 g)))
        (broadcastInDim ⟨2, ![N, B]⟩ ![0, 1] h2 (broadcastInDim ⟨2, ![1, B]⟩ ![1] h1 b)) (ix2 p q)
      = normAt (Ideal.ofBits .f32 nw) (Ideal.ofBits .f32 ew) (fun k => z (ix2 p k)) g b q := by
  simp only [addf_apply, mulf_apply, subf_apply, host_divf_apply, Cert.Lib.host_rsqrt_apply,
    Cert.Lib.bcast_vec_rows_apply _ h1 h2 p, Cert.Lib.bcast_col_rows_apply _ hrow p,
    Cert.Lib.bcast_col_apply _ hcol p (0 : Fin 1), Cert.Lib.bcast_scalar_apply hs,
    Cert.Lib.host_rowSum_apply hred _ h' hu p]
  rfl

/-! ## Each row of the result depends on that row of the row-wise operands only -/

theorem aggMul_ix2 (s : FVec Ideal ⟨2, ![N, K]⟩ .f32) (ic : FVec Ideal ⟨2, ![N, 1]⟩ .f32) (p : Fin N) (k : Fin K) :
    aggMul s ic (ix2 p k) = s (ix2 p k) * ic (ix2 p (0 : Fin 1)) := rfl

theorem layer_ix2 (nw ew : BitVec 32) (a x : FVec Ideal ⟨2, ![N, K]⟩ .f32) (wl wr : FVec Ideal ⟨2, ![K, B]⟩ .f32)
    (bl g b : FVec Ideal ⟨1, ![B]⟩ .f32) (p : Fin N) (q : Fin B) :
    layer nw ew a x wl wr bl g b (ix2 p q) = layerAt nw ew a x wl wr bl g b p q := rfl

theorem layerRelu_ix2 (nw ew : BitVec 32) (a x : FVec Ideal ⟨2, ![N, K]⟩ .f32) (wl wr : FVec Ideal ⟨2, ![K, B]⟩ .f32)
    (bl g b : FVec Ideal ⟨1, ![B]⟩ .f32) (p : Fin N) (q : Fin B) :
    layerRelu nw ew a x wl wr bl g b (ix2 p q)
      = max (layerAt nw ew a x wl wr bl g b p q) (Ideal.ofBits .f32 0x00000000#32) := rfl

/-- The projection at row p of one array is the projection at row p' of another when the rows, the weights and the
    bias agree. -/
theorem projAt_congr {N' : ℕ} (x : FVec Ideal ⟨2, ![N, K]⟩ .f32) (x' : FVec Ideal ⟨2, ![N', K]⟩ .f32)
    (w w' : FVec Ideal ⟨2, ![K, B]⟩ .f32) (b b' : FVec Ideal ⟨1, ![B]⟩ .f32) (p : Fin N) (p' : Fin N') (q : Fin B)
    (hx : ∀ k, x (ix2 p k) = x' (ix2 p' k)) (hw : ∀ k, w (ix2 k q) = w' (ix2 k q)) (hb : b (ix1 q) = b' (ix1 q)) :
    projAt x w b p q = projAt x' w' b' p' q := by
  unfold projAt
  rw [hb]
  exact congrArg (fun s => max (s + b' (ix1 q)) (Ideal.ofBits .f32 0x00000000#32))
    (Finset.sum_congr rfl fun k _ => by rw [hx k, hw k])

/-- The layer at row p of one pair of arrays is the layer at row p' of another when the rows, the weights, the bias,
    the gain and the shift agree. -/
theorem layerAt_congr {N' : ℕ} (nw ew : BitVec 32) (a x : FVec Ideal ⟨2, ![N, K]⟩ .f32) (a' x' : FVec Ideal ⟨2, ![N', K]⟩ .f32)
    (wl wr wl' wr' : FVec Ideal ⟨2, ![K, B]⟩ .f32) (bl g b bl' g' b' : FVec Ideal ⟨1, ![B]⟩ .f32)
    (p : Fin N) (p' : Fin N') (q : Fin B)
    (ha : ∀ k, a (ix2 p k) = a' (ix2 p' k)) (hx : ∀ k, x (ix2 p k) = x' (ix2 p' k))
    (hwl : ∀ k j, wl (ix2 k j) = wl' (ix2 k j)) (hwr : ∀ k j, wr (ix2 k j) = wr' (ix2 k j))
    (hbl : ∀ j, bl (ix1 j) = bl' (ix1 j)) (hg : ∀ j, g (ix1 j) = g' (ix1 j)) (hb : ∀ j, b (ix1 j) = b' (ix1 j)) :
    layerAt nw ew a x wl wr bl g b p q = layerAt nw ew a' x' wl' wr' bl' g' b' p' q := by
  have hl : (fun j => lin a x wl wr bl p j) = fun j => lin a' x' wl' wr' bl' p' j := by
    funext j
    have h1 : ∑ k : Fin K, a (ix2 p k) * wl (ix2 k j) = ∑ k : Fin K, a' (ix2 p' k) * wl' (ix2 k j) :=
      Finset.sum_congr rfl fun k _ => by rw [ha k, hwl k j]
    have h2 : ∑ k : Fin K, x (ix2 p k) * wr (ix2 k j) = ∑ k : Fin K, x' (ix2 p' k) * wr' (ix2 k j) :=
      Finset.sum_congr rfl fun k _ => by rw [hx k, hwr k j]
    unfold lin
    rw [h1, h2, hbl j]
  unfold layerAt normAt
  rw [hl, hg q, hb q]

end Cert.Hetero

end
-- ==== Proof.KBody.lean ====
/-
  What each kernel body stores, as a function of the tiles it loads: the input projection's body stores the
  projection of its row tile (the maximum with zero of the product with the weights plus the bias row), and each
  message-passing body stores the layer of its tiles — the sum tile times the column of reciprocal counts, its product
  with the left weights plus the bias, plus the product of the node tile with the right weights, each row then
  normalised, scaled and shifted (and, in the hidden layers, the maximum with zero taken).  A change of float format
  is the identity on the extended reals, so the narrowing before each product disappears.
-/
import proofs.«174023_j26113401160011_1_alg».proof.Proof.Gen.KernelIdeal.Skeleton
import proofs.«174023_j26113401160011_1_alg».proof.Proof.LibHeteroLayers

noncomputable section

namespace Cert.KernelIdeal.Body

open Idealize.ShloMosaic Idealize.ShloMosaic.ValueIdx Cert.KernelIdeal Cert.KernelIdeal.Gen Cert.Hetero

/-- Region 0's stored tile is the projection of its loaded tiles. -/
theorem pay0 (x0 : Vec Ideal S2000x96 .f32) (x1 : Vec Ideal S96x128 .f32) (x2 : Vec Ideal S128 .f32) :
    k0_pay1 (F := Ideal) x0 x1 x2 = proj x0 x1 x2 := by
  funext i
  obtain ⟨p, q, rfl⟩ : ∃ (p : Fin 2000) (q : Fin 128), i = ix2 p q := ⟨i 0, i 1, eq_ix2 i⟩
  unfold k0_pay1
  exact tile_proj dot_S2000x96_S96x128_S2000x128_1_0_0_1_n_n dot_S2000x96_S96x128_S2000x128_1_0_0_1_n_n.wf rfl _ _ x2 _ _ _ p q

/-- Region 1's stored tile is the projection of its loaded tiles. -/
theorem pay1 (x0 : Vec Ideal S2000x160 .f32) (x1 : Vec Ideal S160x128 .f32) (x2 : Vec Ideal S128 .f32) :
    k1_pay1 (F := Ideal) x0 x1 x2 = proj x0 x1 x2 := by
  funext i
  obtain ⟨p, q, rfl⟩ : ∃ (p : Fin 2000) (q : Fin 128), i = ix2 p q := ⟨i 0, i 1, eq_ix2 i⟩
  unfold k1_pay1
  exact tile_proj dot_S2000x160_S160x128_S2000x128_1_0_0_1_n_n dot_S2000x160_S160x128_S2000x128_1_0_0_1_n_n.wf rfl _ _ x2 _ _ _ p q

/-- Region 2's stored tile is the layer of its loaded tiles: the sum tile scaled by the reciprocal column, the two
    products, the bias, the row normalisation, gain and shift, and the maximum with zero. -/
theorem pay2 (x0 x2 : Vec Ideal S2000x128 .f32) (x1 : Vec Ideal S2000x1 .f32) (x3 x5 : Vec Ideal S128x128 .f32)
    (x4 x6 x7 : Vec Ideal S128 .f32) :
    k2_pay1 (F := Ideal) (k2_pay2 x1 x0 x3 x4 x2 x5) x6 x7
      = layerRelu 0x43000000#32 0x3727C5AC#32 (aggMul x0 x1) x2 x3 x5 x4 x6 x7 := by
  funext i
  obtain ⟨p, q, rfl⟩ : ∃ (p : Fin 2000) (q : Fin 128), i = ix2 p q := ⟨i 0, i 1, eq_ix2 i⟩
  unfold k2_pay1 k2_pay2
  dsimp only
  show max _ (Ideal.ofBits .f32 0x00000000#32) = max (layerAt _ _ _ _ _ _ _ _ _ p q) (Ideal.ofBits .f32 0x00000000#32)
  refine congrArg (fun t => max t (Ideal.ofBits .f32 0x00000000#32)) ?_
  refine (tile_norm _ _ _ x6 x7 _ _ rfl _ _ _ _ _ p q).trans ?_
  unfold layerAt
  refine congrArg (fun z => normAt _ _ z x6 x7 q) (funext fun k => ?_)
  exact tile_lin dot_S2000x128_S128x128_S2000x128_1_0_0_1_n_n dot_S2000x128_S128x128_S2000x128_1_0_0_1_n_n.wf rfl x0 x2 x1 x3 x5 x4 _ _ _ _ _ _ _ p k

/-- Region 3's stored tile is the layer of its loaded tiles: the sum tile scaled by the reciprocal column, the two
    products, the bias, the row normalisation, gain and shift, and the maximum with zero. -/
theorem pay3 (x0 x2 : Vec Ideal S2000x128 .f32) (x1 : Vec Ideal S2000x1 .f32) (x3 x5 : Vec Ideal S128x128 .f32)
    (x4 x6 x7 : Vec Ideal S128 .f32) :
    k3_pay1 (F := Ideal) (k3_pay2 x1 x0 x3 x4 x2 x5) x6 x7
      = layerRelu 0x43000000#32 0x3727C5AC#32 (aggMul x0 x1) x2 x3 x5 x4 x6 x7 := by
  funext i
  obtain ⟨p, q, rfl⟩ : ∃ (p : Fin 2000) (q : Fin 128), i = ix2 p q := ⟨i 0, i 1, eq_ix2 i⟩
  unfold k3_pay1 k3_pay2
  dsimp only
  show max _ (Ideal.ofBits .f32 0x00000000#32) = max (layerAt _ _ _ _ _ _ _ _ _ p q) (Ideal.ofBits .f32 0x00000000#32)
  refine congrArg (fun t => max t (Ideal.ofBits .f32 0x00000000#32)) ?_
  refine (tile_norm _ _ _ x6 x7 _ _ rfl _ _ _ _ _ p q).trans ?_
  unfold layerAt
  refine congrArg (fun z => normAt _ _ z x6 x7 q) (funext fun k => ?_)
  exact tile_lin dot_S2000x128_S128x128_S2000x128_1_0_0_1_n_n dot_S2000x128_S128x128_S2000x128_1_0_0_1_n_n.wf rfl x0 x2 x1 x3 x5 x4 _ _ _ _ _ _ _ p k

/-- Region 4's stored tile is the layer of its loaded tiles: the sum tile scaled by the reciprocal column, the two
    products, the bias, the row normalisation, gain and shift. -/
theorem pay4 (x0 x2 : Vec Ideal S2000x128 .f32) (x1 : Vec Ideal S2000x1 .f32) (x3 x5 : Vec Ideal S128x64 .f32)
    (x4 x6 x7 : Vec Ideal S64 .f32) :
    k4_pay1 (F := Ideal) (k4_pay2 x1 x0 x3 x4 x2 x5) x6 x7
      = layer 0x42800000#32 0x3727C5AC#32 (aggMul x0 x1) x2 x3 x5 x4 x6 x7 := by
  funext i
  obtain ⟨p, q, rfl⟩ : ∃ (p : Fin 2000) (q : Fin 64), i = ix2 p q := ⟨i 0, i 1, eq_ix2 i⟩
  unfold k4_pay1 k4_pay2
  dsimp only
  show _ = layerAt _ _ _ _ _ _ _ _ _ p q
  refine (tile_norm _ _ _ x6 x7 _ _ rfl _ _ _ _ _ p q).trans ?_
  unfold layerAt
  refine congrArg (fun z => normAt _ _ z x6 x7 q) (funext fun k => ?_)
  exact tile_lin dot_S2000x128_S128x64_S2000x64_1_0_0_1_n_n dot_S2000x128_S128x64_S2000x64_1_0_0_1_n_n.wf rfl x0 x2 x1 x3 x5 x4 _ _ _ _ _ _ _ p k

/-- Region 5's stored tile is the layer of its loaded tiles: the sum tile scaled by the reciprocal column, the two
    products, the bias, the row normalisation, gain and shift. -/
theorem pay5 (x0 x2 : Vec Ideal S2000x128 .f32) (x1 : Vec Ideal S2000x1 .f32) (x3 x5 : Vec Ideal S128x64 .f32)
    (x4 x6 x7 : Vec Ideal S64 .f32) :
    k5_pay1 (F := Ideal) (k5_pay2 x1 x0 x3 x4 x2 x5) x6 x7
      = layer 0x42800000#32 0x3727C5AC#32 (aggMul x0 x1) x2 x3 x5 x4 x6 x7 := by
  funext i
  obtain ⟨p, q, rfl⟩ : ∃ (p : Fin 2000) (q : Fin 64), i = ix2 p q := ⟨i 0, i 1, eq_ix2 i⟩
  unfold k5_pay1 k5_pay2
  dsimp only
  show _ = layerAt _ _ _ _ _ _ _ _ _ p q
  refine (tile_norm _ _ _ x6 x7 _ _ rfl _ _ _ _ _ p q).trans ?_
  unfold layerAt
  refine congrArg (fun z => normAt _ _ z x6 x7 q) (funext fun k => ?_)
  exact tile_lin dot_S2000x128_S128x64_S2000x64_1_0_0_1_n_n dot_S2000x128_S128x64_S2000x64_1_0_0_1_n_n.wf rfl x0 x2 x1 x3 x5 x4 _ _ _ _ _ _ _ p k

end Cert.KernelIdeal.Body

end
-- ==== Proof.KReg0.lean ====
/-
  Region 0 (the input projection of one node type): the array its output window ends holding is the projection of
  the arrays its input windows read, because point t's tile is rows 2000·t … 2000·t + 1999 of the features and the
  weights and bias are staged whole at every point, and the 50 tiles cover the 100000 rows.
-/
import proofs.«174023_j26113401160011_1_alg».proof.Proof.Gen.KernelIdeal.Frame
import proofs.«174023_j26113401160011_1_alg».proof.Proof.KBody

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Hetero

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid of 50 points: a row-tiled window's block index is (t, 0), a whole-array
    window's is zero. -/
theorem idx : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- Row p of point t's tile is row 2000·t + p of the array. -/
def rowAt (t : Fin cfg0.N) (p : Fin 2000) : Fin 100000 :=
  ⟨t.val * 2000 + p.val, by have ht : t.val < 50 := t.isLt; have hp := p.isLt; omega⟩

/-- Window 0's block at point t is rows 2000·t … 2000·t + 1999 of its array. -/
theorem emb0 (t : Fin cfg0.N) (p : Fin 2000) (k : Fin 96) :
    ((cfg0.win 0).blk t).view.emb (ix2 p k) = ix2 (rowAt t p) k := by
  obtain ⟨e0, e1, e2, e3, e4, e5, e6⟩ := idx t
  funext a; apply Fin.ext
  match a with
  | ⟨0, _⟩ => show win0_0.index t (0 : Fin 2) * 2000 + 1 * p.val = t.val * 2000 + p.val; omega
  | ⟨1, _⟩ => show win0_0.index t (1 : Fin 2) * 96 + 1 * k.val = k.val; omega
theorem blk0 (c : Dev nD) (t : Fin cfg0.N) (p : Fin 2000) (k : Fin 96) :
    iblk0 V c 0 t (ix2 p k) = V c main_arg0 (ix2 (rowAt t p) k) := by
  show V c main_arg0 (((cfg0.win 0).blk t).view.emb (ix2 p k)) = _
  rw [emb0 t p k]

/-- Window 1's block at every point is its whole array. -/
theorem emb1 (t : Fin cfg0.N) (k : Fin 96) (q : Fin 128) :
    ((cfg0.win 1).blk t).view.emb (ix2 k q) = ix2 k q := by
  obtain ⟨e0, e1, e2, e3, e4, e5, e6⟩ := idx t
  funext a; apply Fin.ext
  match a with
  | ⟨0, _⟩ => show win0_1.index t (0 : Fin 2) * 96 + 1 * k.val = k.val; omega
  | ⟨1, _⟩ => show win0_1.index t (1 : Fin 2) * 128 + 1 * q.val = q.val; omega
theorem blk1 (c : Dev nD) (t : Fin cfg0.N) (k : Fin 96) (q : Fin 128) :
    iblk0 V c 1 t (ix2 k q) = V c main_arg4 (ix2 k q) := by
  show V c main_arg4 (((cfg0.win 1).blk t).view.emb (ix2 k q)) = _
  rw [emb1 t k q]

/-- Window 2's block at every point is its whole array. -/
theorem emb2 (t : Fin cfg0.N) (q : Fin 128) :
    ((cfg0.win 2).blk t).view.emb (ix1 q) = ix1 q := by
  obtain ⟨e0, e1, e2, e3, e4, e5, e6⟩ := idx t
  funext a; apply Fin.ext
  match a with
  | ⟨0, _⟩ => show win0_2.index t (0 : Fin 1) * 128 + 1 * q.val = q.val; omega
theorem blk2 (c : Dev nD) (t : Fin cfg0.N) (q : Fin 128) :
    iblk0 V c 2 t (ix1 q) = V c main_arg5 (ix1 q) := by
  show V c main_arg5 (((cfg0.win 2).blk t).view.emb (ix1 q)) = _
  rw [emb2 t q]

/-- Window 3's block at point t is rows 2000·t … 2000·t + 1999 of its array. -/
theorem emb3 (t : Fin cfg0.N) (p : Fin 2000) (k : Fin 128) :
    ((cfg0.win 3).blk t).view.emb (ix2 p k) = ix2 (rowAt t p) k := by
  obtain ⟨e0, e1, e2, e3, e4, e5, e6⟩ := idx t
  funext a; apply Fin.ext
  match a with
  | ⟨0, _⟩ => show win0_3.index t (0 : Fin 2) * 2000 + 1 * p.val = t.val * 2000 + p.val; omega
  | ⟨1, _⟩ => show win0_3.index t (1 : Fin 2) * 128 + 1 * k.val = k.val; omega

/-- The array the region's output window writes, as one function of the arrays it reads. -/
abbrev G (c : Dev nD) : FVec Ideal S100000x128 .f32 := proj (V c main_arg0) (V c main_arg4) (V c main_arg5)

/-- What point t writes back is block t of `G`. -/
theorem flushed (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S2000x96) hz2, View.ld_unit_zero (S := S96x128) hz2, View.ld_unit_zero (S := S128) hz1]
  rw [Body.pay0]
  funext j
  obtain ⟨p, q, rfl⟩ : ∃ (p : Fin 2000) (q : Fin 128), j = ix2 p q := ⟨j 0, j 1, eq_ix2 j⟩
  show proj (iblk0 V c 0 t) (iblk0 V c 1 t) (iblk0 V c 2 t) (ix2 p q)
    = G V c (((cfg0.win 3).blk t).view.emb (ix2 p q))
  rw [emb3 t p q]
  rw [proj_ix2]
  show _ = proj _ _ _ (ix2 (rowAt t p) q)
  rw [proj_ix2]
  exact projAt_congr _ _ _ _ _ _ p (rowAt t p) q (fun k => blk0 V c t p k) (fun k => blk1 V c t k q) (blk2 V c t q)

/-- An index of the array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- Every index of the array lies in the block of the point its row falls in. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 2000, by show _ < 50; omega⟩, flush0_3 _, ?_⟩
  rw [mem_blk]
  obtain ⟨-, -, -, -, -, e5, e6⟩ := idx ⟨(i 0).val / 2000, by show _ < 50; omega⟩
  intro a
  match a with
  | ⟨0, _⟩ => show win0_3.index _ (0 : Fin 2) * 2000 ≤ (i 0).val ∧ (i 0).val < win0_3.index _ (0 : Fin 2) * 2000 + 2000; rw [e5]; show (i 0).val / 2000 * 2000 ≤ _ ∧ _ < (i 0).val / 2000 * 2000 + 2000; omega
  | ⟨1, _⟩ => show win0_3.index _ (1 : Fin 2) * 128 ≤ (i 1).val ∧ (i 1).val < win0_3.index _ (1 : Fin 2) * 128 + 128; rw [e6]; omega

/-- THE ARRAY the region leaves in its output: `G` of the arrays it found. -/
theorem final (c : Dev nD) : (dat0 V c).arrAt 3 cfg0.N = G V c :=
  (dat0 V c).arrAt_eq_of_cover 3 (G V c) (fun t _ => flushed V c t) cover

end Cert.KernelIdeal.Reg0

end
-- ==== Proof.KReg1.lean ====
/-
  Region 1 (the input projection of one node type): the array its output window ends holding is the projection of
  the arrays its input windows read, because point t's tile is rows 2000·t … 2000·t + 1999 of the features and the
  weights and bias are staged whole at every point, and the 50 tiles cover the 100000 rows.
-/
import proofs.«174023_j26113401160011_1_alg».proof.Proof.Gen.KernelIdeal.Frame
import proofs.«174023_j26113401160011_1_alg».proof.Proof.KBody

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Hetero

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid of 50 points: a row-tiled window's block index is (t, 0), a whole-array
    window's is zero. -/
theorem idx : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- Row p of point t's tile is row 2000·t + p of the array. -/
def rowAt (t : Fin cfg1.N) (p : Fin 2000) : Fin 100000 :=
  ⟨t.val * 2000 + p.val, by have ht : t.val < 50 := t.isLt; have hp := p.isLt; omega⟩

/-- Window 0's block at point t is rows 2000·t … 2000·t + 1999 of its array. -/
theorem emb0 (t : Fin cfg1.N) (p : Fin 2000) (k : Fin 160) :
    ((cfg1.win 0).blk t).view.emb (ix2 p k) = ix2 (rowAt t p) k := by
  obtain ⟨e0, e1, e2, e3, e4, e5, e6⟩ := idx t
  funext a; apply Fin.ext
  match a with
  | ⟨0, _⟩ => show win1_0.index t (0 : Fin 2) * 2000 + 1 * p.val = t.val * 2000 + p.val; omega
  | ⟨1, _⟩ => show win1_0.index t (1 : Fin 2) * 160 + 1 * k.val = k.val; omega
theorem blk0 (c : Dev nD) (t : Fin cfg1.N) (p : Fin 2000) (k : Fin 160) :
    iblk1 V c 0 t (ix2 p k) = V c main_arg1 (ix2 (rowAt t p) k) := by
  show V c main_arg1 (((cfg1.win 0).blk t).view.emb (ix2 p k)) = _
  rw [emb0 t p k]

/-- Window 1's block at every point is its whole array. -/
theorem emb1 (t : Fin cfg1.N) (k : Fin 160) (q : Fin 128) :
    ((cfg1.win 1).blk t).view.emb (ix2 k q) = ix2 k q := by
  obtain ⟨e0, e1, e2, e3, e4, e5, e6⟩ := idx t
  funext a; apply Fin.ext
  match a with
  | ⟨0, _⟩ => show win1_1.index t (0 : Fin 2) * 160 + 1 * k.val = k.val; omega
  | ⟨1, _⟩ => show win1_1.index t (1 : Fin 2) * 128 + 1 * q.val = q.val; omega
theorem blk1 (c : Dev nD) (t : Fin cfg1.N) (k : Fin 160) (q : Fin 128) :
    iblk1 V c 1 t (ix2 k q) = V c main_arg6 (ix2 k q) := by
  show V c main_arg6 (((cfg1.win 1).blk t).view.emb (ix2 k q)) = _
  rw [emb1 t k q]

/-- Window 2's block at every point is its whole array. -/
theorem emb2 (t : Fin cfg1.N) (q : Fin 128) :
    ((cfg1.win 2).blk t).view.emb (ix1 q) = ix1 q := by
  obtain ⟨e0, e1, e2, e3, e4, e5, e6⟩ := idx t
  funext a; apply Fin.ext
  match a with
  | ⟨0, _⟩ => show win1_2.index t (0 : Fin 1) * 128 + 1 * q.val = q.val; omega
theorem blk2 (c : Dev nD) (t : Fin cfg1.N) (q : Fin 128) :
    iblk1 V c 2 t (ix1 q) = V c main_arg7 (ix1 q) := by
  show V c main_arg7 (((cfg1.win 2).blk t).view.emb (ix1 q)) = _
  rw [emb2 t q]

/-- Window 3's block at point t is rows 2000·t … 2000·t + 1999 of its array. -/
theorem emb3 (t : Fin cfg1.N) (p : Fin 2000) (k : Fin 128) :
    ((cfg1.win 3).blk t).view.emb (ix2 p k) = ix2 (rowAt t p) k := by
  obtain ⟨e0, e1, e2, e3, e4, e5, e6⟩ := idx t
  funext a; apply Fin.ext
  match a with
  | ⟨0, _⟩ => show win1_3.index t (0 : Fin 2) * 2000 + 1 * p.val = t.val * 2000 + p.val; omega
  | ⟨1, _⟩ => show win1_3.index t (1 : Fin 2) * 128 + 1 * k.val = k.val; omega

/-- The array the region's output window writes, as one function of the arrays it reads. -/
abbrev G (c : Dev nD) : FVec Ideal S100000x128 .f32 := proj (V c main_arg1) (V c main_arg6) (V c main_arg7)

/-- What point t writes back is block t of `G`. -/
theorem flushed (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S2000x160) hz2, View.ld_unit_zero (S := S160x128) hz2, View.ld_unit_zero (S := S128) hz1]
  rw [Body.pay1]
  funext j
  obtain ⟨p, q, rfl⟩ : ∃ (p : Fin 2000) (q : Fin 128), j = ix2 p q := ⟨j 0, j 1, eq_ix2 j⟩
  show proj (iblk1 V c 0 t) (iblk1 V c 1 t) (iblk1 V c 2 t) (ix2 p q)
    = G V c (((cfg1.win 3).blk t).view.emb (ix2 p q))
  rw [emb3 t p q]
  rw [proj_ix2]
  show _ = proj _ _ _ (ix2 (rowAt t p) q)
  rw [proj_ix2]
  exact projAt_congr _ _ _ _ _ _ p (rowAt t p) q (fun k => blk0 V c t p k) (fun k => blk1 V c t k q) (blk2 V c t q)

/-- An index of the array is in point t's block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v1).slice (win1_3.rect t)).set ↔ _
  rw [View.set_slice_whole, Rect.mem_set_unit]
  exact Iff.rfl

/-- Every index of the array lies in the block of the point its row falls in. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  refine ⟨⟨(i 0).val / 2000, by show _ < 50; omega⟩, flush1_3 _, ?_⟩
  rw [mem_blk]
  obtain ⟨-, -, -, -, -, e5, e6⟩ := idx ⟨(i 0).val / 2000, by show _ < 50; omega⟩
  intro a
  match a with
  | ⟨0, _⟩ => show win1_3.index _ (0 : Fin 2) * 2000 ≤ (i 0).val ∧ (i 0).val < win1_3.index _ (0 : Fin 2) * 2000 + 2000; rw [e5]; show (i 0).val / 2000 * 2000 ≤ _ ∧ _ < (i 0).val / 2000 * 2000 + 2000; omega
  | ⟨1, _⟩ => show win1_3.index _ (1 : Fin 2) * 128 ≤ (i 1).val ∧ (i 1).val < win1_3.index _ (1 : Fin 2) * 128 + 128; rw [e6]; omega

/-- THE ARRAY the region leaves in its output: `G` of the arrays it found. -/
theorem final (c : Dev nD) : (dat1 V c).arrAt 3 cfg1.N = G V c :=
  (dat1 V c).arrAt_eq_of_cover 3 (G V c) (fun t _ => flushed V c t) cover

end Cert.KernelIdeal.Reg1

end
-- ==== Proof.KReg2.lean ====
/-
  Region 2 (one message-passing layer for one node type): the array its output window ends holding is the layer
  of the arrays its input windows read, because point t's tiles are rows 2000·t … 2000·t + 1999 of the sum array, of
  the column of reciprocal counts and of the node features, the weights, bias, gain and shift are staged whole at
  every point, each row of the layer depends on that row only, and the 50 tiles cover the 100000 rows.
-/
import proofs.«174023_j26113401160011_1_alg».proof.Proof.Gen.KernelIdeal.Frame
import proofs.«174023_j26113401160011_1_alg».proof.Proof.KBody

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Hetero

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid of 50 points: a row-tiled window's block index is (t, 0), a whole-array
    window's is zero. -/
theorem idx : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 1) = 0
    ∧ win2_8.index t (0 : Fin 2) = t.val
    ∧ win2_8.index t (1 : Fin 2) = 0 :=
  (by decide +kernel : ∀ t : Fin grid2.N, _)

/-- Row p of point t's tile is row 2000·t + p of the array. -/
def rowAt (t : Fin cfg2.N) (p : Fin 2000) : Fin 100000 :=
  ⟨t.val * 2000 + p.val, by have ht : t.val < 50 := t.isLt; have hp := p.isLt; omega⟩

/-- Window 0's block at point t is rows 2000·t … 2000·t + 1999 of its array. -/
theorem emb0 (t : Fin cfg2.N) (p : Fin 2000) (k : Fin 128) :
    ((cfg2.win 0).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega
theorem blk0 (c : Dev nD) (t : Fin cfg2.N) (p : Fin 2000) (k : Fin 128) :
    iblk2 V c 0 t (ix2 p k) = V c main_v15 (ix2 (rowAt t p) k) := by
  show V c main_v15 (((cfg2.win 0).blk t).view.emb (ix2 p k)) = _
  rw [emb0 t p k]

/-- Window 1's block at point t is rows 2000·t … 2000·t + 1999 of its array. -/
theorem emb1 (t : Fin cfg2.N) (p : Fin 2000) (k : Fin 1) :
    ((cfg2.win 1).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win2_1.index t (0 : Fin 2) * 2000 + 1 * p.val = t.val * 2000 + p.val; omega
  | ⟨1, _⟩ => show win2_1.index t (1 : Fin 2) * 1 + 1 * k.val = k.val; omega
theorem blk1 (c : Dev nD) (t : Fin cfg2.N) (p : Fin 2000) (k : Fin 1) :
    iblk2 V c 1 t (ix2 p k) = V c main_v24 (ix2 (rowAt t p) k) := by
  show V c main_v24 (((cfg2.win 1).blk t).view.emb (ix2 p k)) = _
  rw [emb1 t p k]

/-- Window 2's block at point t is rows 2000·t … 2000·t + 1999 of its array. -/
theorem emb2 (t : Fin cfg2.N) (p : Fin 2000) (k : Fin 128) :
    ((cfg2.win 2).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win2_2.index t (0 : Fin 2) * 2000 + 1 * p.val = t.val * 2000 + p.val; omega
  | ⟨1, _⟩ => show win2_2.index t (1 : Fin 2) * 128 + 1 * k.val = k.val; omega
theorem blk2 (c : Dev nD) (t : Fin cfg2.N) (p : Fin 2000) (k : Fin 128) :
    iblk2 V c 2 t (ix2 p k) = V c main_v1 (ix2 (rowAt t p) k) := by
  show V c main_v1 (((cfg2.win 2).blk t).view.emb (ix2 p k)) = _
  rw [emb2 t p k]

/-- Window 3's block at every point is its whole array. -/
theorem emb3 (t : Fin cfg2.N) (k : Fin 128) (q : Fin 128) :
    ((cfg2.win 3).blk t).view.emb (ix2 k q) = ix2 k q := by
  obtain ⟨e0, e1, e2, e3, e4, e5, e6, e7, e8, e9, e10, e11, e12, e13, e14⟩ := idx t
  funext a; apply Fin.ext
  match a with
  | ⟨0, _⟩ => show win2_3.index t (0 : Fin 2) * 128 + 1 * k.val = k.val; omega
  | ⟨1, _⟩ => show win2_3.index t (1 : Fin 2) * 128 + 1 * q.val = q.val; omega
theorem blk3 (c : Dev nD) (t : Fin cfg2.N) (k : Fin 128) (q : Fin 128) :
    iblk2 V c 3 t (ix2 k q) = V c main_arg8 (ix2 k q) := by
  show V c main_arg8 (((cfg2.win 3).blk t).view.emb (ix2 k q)) = _
  rw [emb3 t k q]

/-- Window 4's block at every point is its whole array. -/
theorem emb4 (t : Fin cfg2.N) (q : Fin 128) :
    ((cfg2.win 4).blk t).view.emb (ix1 q) = ix1 q := by
  obtain ⟨e0, e1, e2, e3, e4, e5, e6, e7, e8, e9, e10, e11, e12, e13, e14⟩ := idx t
  funext a; apply Fin.ext
  match a with
  | ⟨0, _⟩ => show win2_4.index t (0 : Fin 1) * 128 + 1 * q.val = q.val; omega
theorem blk4 (c : Dev nD) (t : Fin cfg2.N) (q : Fin 128) :
    iblk2 V c 4 t (ix1 q) = V c main_arg9 (ix1 q) := by
  show V c main_arg9 (((cfg2.win 4).blk t).view.emb (ix1 q)) = _
  rw [emb4 t q]

/-- Window 5's block at every point is its whole array. -/
theorem emb5 (t : Fin cfg2.N) (k : Fin 128) (q : Fin 128) :
    ((cfg2.win 5).blk t).view.emb (ix2 k q) = ix2 k q := by
  obtain ⟨e0, e1, e2, e3, e4, e5, e6, e7, e8, e9, e10, e11, e12, e13, e14⟩ := idx t
  funext a; apply Fin.ext
  match a with
  | ⟨0, _⟩ => show win2_5.index t (0 : Fin 2) * 128 + 1 * k.val = k.val; omega
  | ⟨1, _⟩ => show win2_5.index t (1 : Fin 2) * 128 + 1 * q.val = q.val; omega
theorem blk5 (c : Dev nD) (t : Fin cfg2.N) (k : Fin 128) (q : Fin 128) :
    iblk2 V c 5 t (ix2 k q) = V c main_arg10 (ix2 k q) := by
  show V c main_arg10 (((cfg2.win 5).blk t).view.emb (ix2 k q)) = _
  rw [emb5 t k q]

/-- Window 6's block at every point is its whole array. -/
theorem emb6 (t : Fin cfg2.N) (q : Fin 128) :
    ((cfg2.win 6).blk t).view.emb (ix1 q) = ix1 q := by
  obtain ⟨e0, e1, e2, e3, e4, e5, e6, e7, e8, e9, e10, e11, e12, e13, e14⟩ := idx t
  funext a; apply Fin.ext
  match a with
  | ⟨0, _⟩ => show win2_6.index t (0 : Fin 1) * 128 + 1 * q.val = q.val; omega
theorem blk6 (c : Dev nD) (t : Fin cfg2.N) (q : Fin 128) :
    iblk2 V c 6 t (ix1 q) = V c main_arg16 (ix1 q) := by
  show V c main_arg16 (((cfg2.win 6).blk t).view.emb (ix1 q)) = _
  rw [emb6 t q]

/-- Window 7's block at every point is its whole array. -/
theorem emb7 (t : Fin cfg2.N) (q : Fin 128) :
    ((cfg2.win 7).blk t).view.emb (ix1 q) = ix1 q := by
  obtain ⟨e0, e1, e2, e3, e4, e5, e6, e7, e8, e9, e10, e11, e12, e13, e14⟩ := idx t
  funext a; apply Fin.ext
  match a with
  | ⟨0, _⟩ => show win2_7.index t (0 : Fin 1) * 128 + 1 * q.val = q.val; omega
theorem blk7 (c : Dev nD) (t : Fin cfg2.N) (q : Fin 128) :
    iblk2 V c 7 t (ix1 q) = V c main_arg17 (ix1 q) := by
  show V c main_arg17 (((cfg2.win 7).blk t).view.emb (ix1 q)) = _
  rw [emb7 t q]

/-- Window 8's block at point t is rows 2000·t … 2000·t + 1999 of its array. -/
theorem emb8 (t : Fin cfg2.N) (p : Fin 2000) (k : Fin 128) :
    ((cfg2.win 8).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win2_8.index t (0 : Fin 2) * 2000 + 1 * p.val = t.val * 2000 + p.val; omega
  | ⟨1, _⟩ => show win2_8.index t (1 : Fin 2) * 128 + 1 * k.val = k.val; omega

/-- The array the region's output window writes, as one function of the arrays it reads. -/
abbrev G (c : Dev nD) : FVec Ideal S100000x128 .f32 := layerRelu 0x43000000#32 0x3727C5AC#32 (aggMul (V c main_v15) (V c main_v24)) (V c main_v1) (V c main_arg8) (V c main_arg10) (V c main_arg9) (V c main_arg16) (V c main_arg17)

/-- What point t writes back is block t of `G`. -/
theorem flushed (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz2]
  simp only [View.ld_unit_zero (S := S2000x128) hz2, View.ld_unit_zero (S := S2000x1) hz2, View.ld_unit_zero (S := S128x128) hz2, View.ld_unit_zero (S := S128) hz1]
  rw [Body.pay2]
  funext j
  obtain ⟨p, q, rfl⟩ : ∃ (p : Fin 2000) (q : Fin 128), j = ix2 p q := ⟨j 0, j 1, eq_ix2 j⟩
  show layerRelu _ _ (aggMul (iblk2 V c 0 t) (iblk2 V c 1 t)) (iblk2 V c 2 t) (iblk2 V c 3 t) (iblk2 V c 5 t) (iblk2 V c 4 t) (iblk2 V c 6 t) (iblk2 V c 7 t) (ix2 p q)
    = G V c (((cfg2.win 8).blk t).view.emb (ix2 p q))
  rw [emb8 t p q]
  rw [layerRelu_ix2]
  show _ = layerRelu _ _ _ _ _ _ _ _ _ (ix2 (rowAt t p) q)
  rw [layerRelu_ix2]
  refine congrArg (fun z => max z (Ideal.ofBits .f32 0x00000000#32)) ?_
  refine layerAt_congr _ _ _ _ _ _ _ _ _ _ _ _ _ _ _ _ p (rowAt t p) q (fun k => ?_) (fun k => blk2 V c t p k)
    (fun k j => blk3 V c t k j) (fun k j => blk5 V c t k j) (fun j => blk4 V c t j) (fun j => blk6 V c t j) (fun j => blk7 V c t j)
  rw [aggMul_ix2, aggMul_ix2, blk0 V c t p k, blk1 V c t p (0 : Fin 1)]

/-- An index of the array is in point t's block iff each coordinate is in the block's range on its axis. -/
theorem mem_blk (t : Fin cfg2.N) (i : S100000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v48).slice (win2_8.rect t)).set ↔ _
  rw [View.set_slice_whole, Rect.mem_set_unit]
  exact Iff.rfl

/-- Every index of the array lies in the block of the point its row falls in. -/
theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  refine ⟨⟨(i 0).val / 2000, by show _ < 50; omega⟩, flush2_8 _, ?_⟩
  rw [mem_blk]
  obtain ⟨-, -, -, -, -, -, -, -, -, -, -, -, -, e13, e14⟩ := idx ⟨(i 0).val / 2000, by show _ < 50; omega⟩
  intro a
  match a with
  | ⟨0, _⟩ => show win2_8.index _ (0 : Fin 2) * 2000 ≤ (i 0).val ∧ (i 0).val < win2_8.index _ (0 : Fin 2) * 2000 + 2000; rw [e13]; show (i 0).val / 2000 * 2000 ≤ _ ∧ _ < (i 0).val / 2000 * 2000 + 2000; omega
  | ⟨1, _⟩ => show win2_8.index _ (1 : Fin 2) * 128 ≤ (i 1).val ∧ (i 1).val < win2_8.index _ (1 : Fin 2) * 128 + 128; rw [e14]; omega

/-- THE ARRAY the region leaves in its output: `G` of the arrays it found. -/
theorem final (c : Dev nD) : (dat2 V c).arrAt 8 cfg2.N = G V c :=
  (dat2 V c).arrAt_eq_of_cover 8 (G V c) (fun t _ => flushed V c t) cover

end Cert.KernelIdeal.Reg2

end
-- ==== Proof.KReg3.lean ====
/-
  Region 3 (one message-passing layer for one node type): the array its output window ends holding is the layer
  of the arrays its input windows read, because point t's tiles are rows 2000·t … 2000·t + 1999 of the sum array, of
  the column of reciprocal counts and of the node features, the weights, bias, gain and shift are staged whole at
  every point, each row of the layer depends on that row only, and the 50 tiles cover the 100000 rows.
-/
import proofs.«174023_j26113401160011_1_alg».proof.Proof.Gen.KernelIdeal.Frame
import proofs.«174023_j26113401160011_1_alg».proof.Proof.KBody

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Hetero

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid of 50 points: a row-tiled window's block index is (t, 0), a whole-array
    window's is zero. -/
theorem idx : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 1) = 0
    ∧ win3_8.index t (0 : Fin 2) = t.val
    ∧ win3_8.index t (1 : Fin 2) = 0 :=
  (by decide +kernel : ∀ t : Fin grid3.N, _)

/-- Row p of point t's tile is row 2000·t + p of the array. -/
def rowAt (t : Fin cfg3.N) (p : Fin 2000) : Fin 100000 :=
  ⟨t.val * 2000 + p.val, by have ht : t.val < 50 := t.isLt; have hp := p.isLt; omega⟩

/-- Window 0's block at point t is rows 2000·t … 2000·t + 1999 of its array. -/
theorem emb0 (t : Fin cfg3.N) (p : Fin 2000) (k : Fin 128) :
    ((cfg3.win 0).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win3_0.index t (0 : Fin 2) * 2000 + 1 * p.val = t.val * 2000 + p.val; omega
  | ⟨1, _⟩ => show win3_0.index t (1 : Fin 2) * 128 + 1 * k.val = k.val; omega
theorem blk0 (c : Dev nD) (t : Fin cfg3.N) (p : Fin 2000) (k : Fin 128) :
    iblk3 V c 0 t (ix2 p k) = V c main_v38 (ix2 (rowAt t p) k) := by
  show V c main_v38 (((cfg3.win 0).blk t).view.emb (ix2 p k)) = _
  rw [emb0 t p k]

/-- Window 1's block at point t is rows 2000·t … 2000·t + 1999 of its array. -/
theorem emb1 (t : Fin cfg3.N) (p : Fin 2000) (k : Fin 1) :
    ((cfg3.win 1).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win3_1.index t (0 : Fin 2) * 2000 + 1 * p.val = t.val * 2000 + p.val; omega
  | ⟨1, _⟩ => show win3_1.index t (1 : Fin 2) * 1 + 1 * k.val = k.val; omega
theorem blk1 (c : Dev nD) (t : Fin cfg3.N) (p : Fin 2000) (k : Fin 1) :
    iblk3 V c 1 t (ix2 p k) = V c main_v47 (ix2 (rowAt t p) k) := by
  show V c main_v47 (((cfg3.win 1).blk t).view.emb (ix2 p k)) = _
  rw [emb1 t p k]

/-- Window 2's block at point t is rows 2000·t … 2000·t + 1999 of its array. -/
theorem emb2 (t : Fin cfg3.N) (p : Fin 2000) (k : Fin 128) :
    ((cfg3.win 2).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win3_2.index t (0 : Fin 2) * 2000 + 1 * p.val = t.val * 2000 + p.val; omega
  | ⟨1, _⟩ => show win3_2.index t (1 : Fin 2) * 128 + 1 * k.val = k.val; omega
theorem blk2 (c : Dev nD) (t : Fin cfg3.N) (p : Fin 2000) (k : Fin 128) :
    iblk3 V c 2 t (ix2 p k) = V c main_v0 (ix2 (rowAt t p) k) := by
  show V c main_v0 (((cfg3.win 2).blk t).view.emb (ix2 p k)) = _
  rw [emb2 t p k]

/-- Window 3's block at every point is its whole array. -/
theorem emb3 (t : Fin cfg3.N) (k : Fin 128) (q : Fin 128) :
    ((cfg3.win 3).blk t).view.emb (ix2 k q) = ix2 k q := by
  obtain ⟨e0, e1, e2, e3, e4, e5, e6, e7, e8, e9, e10, e11, e12, e13, e14⟩ := idx t
  funext a; apply Fin.ext
  match a with
  | ⟨0, _⟩ => show win3_3.index t (0 : Fin 2) * 128 + 1 * k.val = k.val; omega
  | ⟨1, _⟩ => show win3_3.index t (1 : Fin 2) * 128 + 1 * q.val = q.val; omega
theorem blk3 (c : Dev nD) (t : Fin cfg3.N) (k : Fin 128) (q : Fin 128) :
    iblk3 V c 3 t (ix2 k q) = V c main_arg11 (ix2 k q) := by
  show V c main_arg11 (((cfg3.win 3).blk t).view.emb (ix2 k q)) = _
  rw [emb3 t k q]

/-- Window 4's block at every point is its whole array. -/
theorem emb4 (t : Fin cfg3.N) (q : Fin 128) :
    ((cfg3.win 4).blk t).view.emb (ix1 q) = ix1 q := by
  obtain ⟨e0, e1, e2, e3, e4, e5, e6, e7, e8, e9, e10, e11, e12, e13, e14⟩ := idx t
  funext a; apply Fin.ext
  match a with
  | ⟨0, _⟩ => show win3_4.index t (0 : Fin 1) * 128 + 1 * q.val = q.val; omega
theorem blk4 (c : Dev nD) (t : Fin cfg3.N) (q : Fin 128) :
    iblk3 V c 4 t (ix1 q) = V c main_arg12 (ix1 q) := by
  show V c main_arg12 (((cfg3.win 4).blk t).view.emb (ix1 q)) = _
  rw [emb4 t q]

/-- Window 5's block at every point is its whole array. -/
theorem emb5 (t : Fin cfg3.N) (k : Fin 128) (q : Fin 128) :
    ((cfg3.win 5).blk t).view.emb (ix2 k q) = ix2 k q := by
  obtain ⟨e0, e1, e2, e3, e4, e5, e6, e7, e8, e9, e10, e11, e12, e13, e14⟩ := idx t
  funext a; apply Fin.ext
  match a with
  | ⟨0, _⟩ => show win3_5.index t (0 : Fin 2) * 128 + 1 * k.val = k.val; omega
  | ⟨1, _⟩ => show win3_5.index t (1 : Fin 2) * 128 + 1 * q.val = q.val; omega
theorem blk5 (c : Dev nD) (t : Fin cfg3.N) (k : Fin 128) (q : Fin 128) :
    iblk3 V c 5 t (ix2 k q) = V c main_arg13 (ix2 k q) := by
  show V c main_arg13 (((cfg3.win 5).blk t).view.emb (ix2 k q)) = _
  rw [emb5 t k q]

/-- Window 6's block at every point is its whole array. -/
theorem emb6 (t : Fin cfg3.N) (q : Fin 128) :
    ((cfg3.win 6).blk t).view.emb (ix1 q) = ix1 q := by
  obtain ⟨e0, e1, e2, e3, e4, e5, e6, e7, e8, e9, e10, e11, e12, e13, e14⟩ := idx t
  funext a; apply Fin.ext
  match a with
  | ⟨0, _⟩ => show win3_6.index t (0 : Fin 1) * 128 + 1 * q.val = q.val; omega
theorem blk6 (c : Dev nD) (t : Fin cfg3.N) (q : Fin 128) :
    iblk3 V c 6 t (ix1 q) = V c main_arg14 (ix1 q) := by
  show V c main_arg14 (((cfg3.win 6).blk t).view.emb (ix1 q)) = _
  rw [emb6 t q]

/-- Window 7's block at every point is its whole array. -/
theorem emb7 (t : Fin cfg3.N) (q : Fin 128) :
    ((cfg3.win 7).blk t).view.emb (ix1 q) = ix1 q := by
  obtain ⟨e0, e1, e2, e3, e4, e5, e6, e7, e8, e9, e10, e11, e12, e13, e14⟩ := idx t
  funext a; apply Fin.ext
  match a with
  | ⟨0, _⟩ => show win3_7.index t (0 : Fin 1) * 128 + 1 * q.val = q.val; omega
theorem blk7 (c : Dev nD) (t : Fin cfg3.N) (q : Fin 128) :
    iblk3 V c 7 t (ix1 q) = V c main_arg15 (ix1 q) := by
  show V c main_arg15 (((cfg3.win 7).blk t).view.emb (ix1 q)) = _
  rw [emb7 t q]

/-- Window 8's block at point t is rows 2000·t … 2000·t + 1999 of its array. -/
theorem emb8 (t : Fin cfg3.N) (p : Fin 2000) (k : Fin 128) :
    ((cfg3.win 8).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win3_8.index t (0 : Fin 2) * 2000 + 1 * p.val = t.val * 2000 + p.val; omega
  | ⟨1, _⟩ => show win3_8.index t (1 : Fin 2) * 128 + 1 * k.val = k.val; omega

/-- The array the region's output window writes, as one function of the arrays it reads. -/
abbrev G (c : Dev nD) : FVec Ideal S100000x128 .f32 := layerRelu 0x43000000#32 0x3727C5AC#32 (aggMul (V c main_v38) (V c main_v47)) (V c main_v0) (V c main_arg11) (V c main_arg13) (V c main_arg12) (V c main_arg14) (V c main_arg15)

/-- What point t writes back is block t of `G`. -/
theorem flushed (c : Dev nD) (t : Fin cfg3.N) :
    (dat3 V c).flushed 8 t = ((cfg3.win 8).blk t).view.read (Elt Ideal) (G V c) := by
  show (cfg3.win 8).cut (grid3.coords t) ((dat3 V c).after 8 t) = _
  rw [after3_8]
  unfold out3_8
  rw [View.canon_unit_zero hz2]
  simp only [View.ld_unit_zero (S := S2000x128) hz2, View.ld_unit_zero (S := S2000x1) hz2, View.ld_unit_zero (S := S128x128) hz2, View.ld_unit_zero (S := S128) hz1]
  rw [Body.pay3]
  funext j
  obtain ⟨p, q, rfl⟩ : ∃ (p : Fin 2000) (q : Fin 128), j = ix2 p q := ⟨j 0, j 1, eq_ix2 j⟩
  show layerRelu _ _ (aggMul (iblk3 V c 0 t) (iblk3 V c 1 t)) (iblk3 V c 2 t) (iblk3 V c 3 t) (iblk3 V c 5 t) (iblk3 V c 4 t) (iblk3 V c 6 t) (iblk3 V c 7 t) (ix2 p q)
    = G V c (((cfg3.win 8).blk t).view.emb (ix2 p q))
  rw [emb8 t p q]
  rw [layerRelu_ix2]
  show _ = layerRelu _ _ _ _ _ _ _ _ _ (ix2 (rowAt t p) q)
  rw [layerRelu_ix2]
  refine congrArg (fun z => max z (Ideal.ofBits .f32 0x00000000#32)) ?_
  refine layerAt_congr _ _ _ _ _ _ _ _ _ _ _ _ _ _ _ _ p (rowAt t p) q (fun k => ?_) (fun k => blk2 V c t p k)
    (fun k j => blk3 V c t k j) (fun k j => blk5 V c t k j) (fun j => blk4 V c t j) (fun j => blk6 V c t j) (fun j => blk7 V c t j)
  rw [aggMul_ix2, aggMul_ix2, blk0 V c t p k, blk1 V c t p (0 : Fin 1)]

/-- An index of the array is in point t's block iff each coordinate is in the block's range on its axis. -/
theorem mem_blk (t : Fin cfg3.N) (i : S100000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole main_v49).slice (win3_8.rect t)).set ↔ _
  rw [View.set_slice_whole, Rect.mem_set_unit]
  exact Iff.rfl

/-- Every index of the array lies in the block of the point its row falls in. -/
theorem cover (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  refine ⟨⟨(i 0).val / 2000, by show _ < 50; omega⟩, flush3_8 _, ?_⟩
  rw [mem_blk]
  obtain ⟨-, -, -, -, -, -, -, -, -, -, -, -, -, e13, e14⟩ := idx ⟨(i 0).val / 2000, by show _ < 50; omega⟩
  intro a
  match a with
  | ⟨0, _⟩ => show win3_8.index _ (0 : Fin 2) * 2000 ≤ (i 0).val ∧ (i 0).val < win3_8.index _ (0 : Fin 2) * 2000 + 2000; rw [e13]; show (i 0).val / 2000 * 2000 ≤ _ ∧ _ < (i 0).val / 2000 * 2000 + 2000; omega
  | ⟨1, _⟩ => show win3_8.index _ (1 : Fin 2) * 128 ≤ (i 1).val ∧ (i 1).val < win3_8.index _ (1 : Fin 2) * 128 + 128; rw [e14]; omega

/-- THE ARRAY the region leaves in its output: `G` of the arrays it found. -/
theorem final (c : Dev nD) : (dat3 V c).arrAt 8 cfg3.N = G V c :=
  (dat3 V c).arrAt_eq_of_cover 8 (G V c) (fun t _ => flushed V c t) cover

end Cert.KernelIdeal.Reg3

end
-- ==== Proof.KReg4.lean ====
/-
  Region 4 (one message-passing layer for one node type): the array its output window ends holding is the layer
  of the arrays its input windows read, because point t's tiles are rows 2000·t … 2000·t + 1999 of the sum array, of
  the column of reciprocal counts and of the node features, the weights, bias, gain and shift are staged whole at
  every point, each row of the layer depends on that row only, and the 50 tiles cover the 100000 rows.
-/
import proofs.«174023_j26113401160011_1_alg».proof.Proof.Gen.KernelIdeal.Frame
import proofs.«174023_j26113401160011_1_alg».proof.Proof.KBody

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Hetero

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid of 50 points: a row-tiled window's block index is (t, 0), a whole-array
    window's is zero. -/
theorem idx : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 1) = 0
    ∧ win4_5.index t (0 : Fin 2) = 0
    ∧ win4_5.index t (1 : Fin 2) = 0
    ∧ win4_6.index t (0 : Fin 1) = 0
    ∧ win4_7.index t (0 : Fin 1) = 0
    ∧ win4_8.index t (0 : Fin 2) = t.val
    ∧ win4_8.index t (1 : Fin 2) = 0 :=
  (by decide +kernel : ∀ t : Fin grid4.N, _)

/-- Row p of point t's tile is row 2000·t + p of the array. -/
def rowAt (t : Fin cfg4.N) (p : Fin 2000) : Fin 100000 :=
  ⟨t.val * 2000 + p.val, by have ht : t.val < 50 := t.isLt; have hp := p.isLt; omega⟩

/-- Window 0's block at point t is rows 2000·t … 2000·t + 1999 of its array. -/
theorem emb0 (t : Fin cfg4.N) (p : Fin 2000) (k : Fin 128) :
    ((cfg4.win 0).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win4_0.index t (0 : Fin 2) * 2000 + 1 * p.val = t.val * 2000 + p.val; omega
  | ⟨1, _⟩ => show win4_0.index t (1 : Fin 2) * 128 + 1 * k.val = k.val; omega
theorem blk0 (c : Dev nD) (t : Fin cfg4.N) (p : Fin 2000) (k : Fin 128) :
    iblk4 V c 0 t (ix2 p k) = V c main_v63 (ix2 (rowAt t p) k) := by
  show V c main_v63 (((cfg4.win 0).blk t).view.emb (ix2 p k)) = _
  rw [emb0 t p k]

/-- Window 1's block at point t is rows 2000·t … 2000·t + 1999 of its array. -/
theorem emb1 (t : Fin cfg4.N) (p : Fin 2000) (k : Fin 1) :
    ((cfg4.win 1).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win4_1.index t (0 : Fin 2) * 2000 + 1 * p.val = t.val * 2000 + p.val; omega
  | ⟨1, _⟩ => show win4_1.index t (1 : Fin 2) * 1 + 1 * k.val = k.val; omega
theorem blk1 (c : Dev nD) (t : Fin cfg4.N) (p : Fin 2000) (k : Fin 1) :
    iblk4 V c 1 t (ix2 p k) = V c main_v72 (ix2 (rowAt t p) k) := by
  show V c main_v72 (((cfg4.win 1).blk t).view.emb (ix2 p k)) = _
  rw [emb1 t p k]

/-- Window 2's block at point t is rows 2000·t … 2000·t + 1999 of its array. -/
theorem emb2 (t : Fin cfg4.N) (p : Fin 2000) (k : Fin 128) :
    ((cfg4.win 2).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win4_2.index t (0 : Fin 2) * 2000 + 1 * p.val = t.val * 2000 + p.val; omega
  | ⟨1, _⟩ => show win4_2.index t (1 : Fin 2) * 128 + 1 * k.val = k.val; omega
theorem blk2 (c : Dev nD) (t : Fin cfg4.N) (p : Fin 2000) (k : Fin 128) :
    iblk4 V c 2 t (ix2 p k) = V c main_v48 (ix2 (rowAt t p) k) := by
  show V c main_v48 (((cfg4.win 2).blk t).view.emb (ix2 p k)) = _
  rw [emb2 t p k]

/-- Window 3's block at every point is its whole array. -/
theorem emb3 (t : Fin cfg4.N) (k : Fin 128) (q : Fin 64) :
    ((cfg4.win 3).blk t).view.emb (ix2 k q) = ix2 k q := by
  obtain ⟨e0, e1, e2, e3, e4, e5, e6, e7, e8, e9, e10, e11, e12, e13, e14⟩ := idx t
  funext a; apply Fin.ext
  match a with
  | ⟨0, _⟩ => show win4_3.index t (0 : Fin 2) * 128 + 1 * k.val = k.val; omega
  | ⟨1, _⟩ => show win4_3.index t (1 : Fin 2) * 64 + 1 * q.val = q.val; omega
theorem blk3 (c : Dev nD) (t : Fin cfg4.N) (k : Fin 128) (q : Fin 64) :
    iblk4 V c 3 t (ix2 k q) = V c main_arg18 (ix2 k q) := by
  show V c main_arg18 (((cfg4.win 3).blk t).view.emb (ix2 k q)) = _
  rw [emb3 t k q]

/-- Window 4's block at every point is its whole array. -/
theorem emb4 (t : Fin cfg4.N) (q : Fin 64) :
    ((cfg4.win 4).blk t).view.emb (ix1 q) = ix1 q := by
  obtain ⟨e0, e1, e2, e3, e4, e5, e6, e7, e8, e9, e10, e11, e12, e13, e14⟩ := idx t
  funext a; apply Fin.ext
  match a with
  | ⟨0, _⟩ => show win4_4.index t (0 : Fin 1) * 64 + 1 * q.val = q.val; omega
theorem blk4 (c : Dev nD) (t : Fin cfg4.N) (q : Fin 64) :
    iblk4 V c 4 t (ix1 q) = V c main_arg19 (ix1 q) := by
  show V c main_arg19 (((cfg4.win 4).blk t).view.emb (ix1 q)) = _
  rw [emb4 t q]

/-- Window 5's block at every point is its whole array. -/
theorem emb5 (t : Fin cfg4.N) (k : Fin 128) (q : Fin 64) :
    ((cfg4.win 5).blk t).view.emb (ix2 k q) = ix2 k q := by
  obtain ⟨e0, e1, e2, e3, e4, e5, e6, e7, e8, e9, e10, e11, e12, e13, e14⟩ := idx t
  funext a; apply Fin.ext
  match a with
  | ⟨0, _⟩ => show win4_5.index t (0 : Fin 2) * 128 + 1 * k.val = k.val; omega
  | ⟨1, _⟩ => show win4_5.index t (1 : Fin 2) * 64 + 1 * q.val = q.val; omega
theorem blk5 (c : Dev nD) (t : Fin cfg4.N) (k : Fin 128) (q : Fin 64) :
    iblk4 V c 5 t (ix2 k q) = V c main_arg20 (ix2 k q) := by
  show V c main_arg20 (((cfg4.win 5).blk t).view.emb (ix2 k q)) = _
  rw [emb5 t k q]

/-- Window 6's block at every point is its whole array. -/
theorem emb6 (t : Fin cfg4.N) (q : Fin 64) :
    ((cfg4.win 6).blk t).view.emb (ix1 q) = ix1 q := by
  obtain ⟨e0, e1, e2, e3, e4, e5, e6, e7, e8, e9, e10, e11, e12, e13, e14⟩ := idx t
  funext a; apply Fin.ext
  match a with
  | ⟨0, _⟩ => show win4_6.index t (0 : Fin 1) * 64 + 1 * q.val = q.val; omega
theorem blk6 (c : Dev nD) (t : Fin cfg4.N) (q : Fin 64) :
    iblk4 V c 6 t (ix1 q) = V c main_arg26 (ix1 q) := by
  show V c main_arg26 (((cfg4.win 6).blk t).view.emb (ix1 q)) = _
  rw [emb6 t q]

/-- Window 7's block at every point is its whole array. -/
theorem emb7 (t : Fin cfg4.N) (q : Fin 64) :
    ((cfg4.win 7).blk t).view.emb (ix1 q) = ix1 q := by
  obtain ⟨e0, e1, e2, e3, e4, e5, e6, e7, e8, e9, e10, e11, e12, e13, e14⟩ := idx t
  funext a; apply Fin.ext
  match a with
  | ⟨0, _⟩ => show win4_7.index t (0 : Fin 1) * 64 + 1 * q.val = q.val; omega
theorem blk7 (c : Dev nD) (t : Fin cfg4.N) (q : Fin 64) :
    iblk4 V c 7 t (ix1 q) = V c main_arg27 (ix1 q) := by
  show V c main_arg27 (((cfg4.win 7).blk t).view.emb (ix1 q)) = _
  rw [emb7 t q]

/-- Window 8's block at point t is rows 2000·t … 2000·t + 1999 of its array. -/
theorem emb8 (t : Fin cfg4.N) (p : Fin 2000) (k : Fin 64) :
    ((cfg4.win 8).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win4_8.index t (0 : Fin 2) * 2000 + 1 * p.val = t.val * 2000 + p.val; omega
  | ⟨1, _⟩ => show win4_8.index t (1 : Fin 2) * 64 + 1 * k.val = k.val; omega

/-- The array the region's output window writes, as one function of the arrays it reads. -/
abbrev G (c : Dev nD) : FVec Ideal S100000x64 .f32 := layer 0x42800000#32 0x3727C5AC#32 (aggMul (V c main_v63) (V c main_v72)) (V c main_v48) (V c main_arg18) (V c main_arg20) (V c main_arg19) (V c main_arg26) (V c main_arg27)

/-- What point t writes back is block t of `G`. -/
theorem flushed (c : Dev nD) (t : Fin cfg4.N) :
    (dat4 V c).flushed 8 t = ((cfg4.win 8).blk t).view.read (Elt Ideal) (G V c) := by
  show (cfg4.win 8).cut (grid4.coords t) ((dat4 V c).after 8 t) = _
  rw [after4_8]
  unfold out4_8
  rw [View.canon_unit_zero hz2]
  simp only [View.ld_unit_zero (S := S2000x128) hz2, View.ld_unit_zero (S := S2000x1) hz2, View.ld_unit_zero (S := S128x64) hz2, View.ld_unit_zero (S := S64) hz1]
  rw [Body.pay4]
  funext j
  obtain ⟨p, q, rfl⟩ : ∃ (p : Fin 2000) (q : Fin 64), j = ix2 p q := ⟨j 0, j 1, eq_ix2 j⟩
  show layer _ _ (aggMul (iblk4 V c 0 t) (iblk4 V c 1 t)) (iblk4 V c 2 t) (iblk4 V c 3 t) (iblk4 V c 5 t) (iblk4 V c 4 t) (iblk4 V c 6 t) (iblk4 V c 7 t) (ix2 p q)
    = G V c (((cfg4.win 8).blk t).view.emb (ix2 p q))
  rw [emb8 t p q]
  rw [layer_ix2]
  show _ = layer _ _ _ _ _ _ _ _ _ (ix2 (rowAt t p) q)
  rw [layer_ix2]
  refine layerAt_congr _ _ _ _ _ _ _ _ _ _ _ _ _ _ _ _ p (rowAt t p) q (fun k => ?_) (fun k => blk2 V c t p k)
    (fun k j => blk3 V c t k j) (fun k j => blk5 V c t k j) (fun j => blk4 V c t j) (fun j => blk6 V c t j) (fun j => blk7 V c t j)
  rw [aggMul_ix2, aggMul_ix2, blk0 V c t p k, blk1 V c t p (0 : Fin 1)]

/-- An index of the array is in point t's block iff each coordinate is in the block's range on its axis. -/
theorem mem_blk (t : Fin cfg4.N) (i : S100000x64.Idx) :
    i ∈ ((cfg4.win 8).blk t).view.set ↔ ∀ a : Fin 2, win4_8.index t a * S2000x64.size a ≤ (i a).val ∧ (i a).val < win4_8.index t a * S2000x64.size a + S2000x64.size a := by
  show i ∈ ((View.whole main_v96).slice (win4_8.rect t)).set ↔ _
  rw [View.set_slice_whole, Rect.mem_set_unit]
  exact Iff.rfl

/-- Every index of the array lies in the block of the point its row falls in. -/
theorem cover (i : S100000x64.Idx) :
    ∃ t : Fin cfg4.N, (cfg4.win 8).flush t = true ∧ i ∈ ((cfg4.win 8).blk t).view.set := by
  have hi0 : (i 0).val < 100000 := (i 0).isLt
  have hi1 : (i 1).val < 64 := (i 1).isLt
  refine ⟨⟨(i 0).val / 2000, by show _ < 50; omega⟩, flush4_8 _, ?_⟩
  rw [mem_blk]
  obtain ⟨-, -, -, -, -, -, -, -, -, -, -, -, -, e13, e14⟩ := idx ⟨(i 0).val / 2000, by show _ < 50; omega⟩
  intro a
  match a with
  | ⟨0, _⟩ => show win4_8.index _ (0 : Fin 2) * 2000 ≤ (i 0).val ∧ (i 0).val < win4_8.index _ (0 : Fin 2) * 2000 + 2000; rw [e13]; show (i 0).val / 2000 * 2000 ≤ _ ∧ _ < (i 0).val / 2000 * 2000 + 2000; omega
  | ⟨1, _⟩ => show win4_8.index _ (1 : Fin 2) * 64 ≤ (i 1).val ∧ (i 1).val < win4_8.index _ (1 : Fin 2) * 64 + 64; rw [e14]; omega

/-- THE ARRAY the region leaves in its output: `G` of the arrays it found. -/
theorem final (c : Dev nD) : (dat4 V c).arrAt 8 cfg4.N = G V c :=
  (dat4 V c).arrAt_eq_of_cover 8 (G V c) (fun t _ => flushed V c t) cover

end Cert.KernelIdeal.Reg4

end
-- ==== Proof.KReg5.lean ====
/-
  Region 5 (one message-passing layer for one node type): the array its output window ends holding is the layer
  of the arrays its input windows read, because point t's tiles are rows 2000·t … 2000·t + 1999 of the sum array, of
  the column of reciprocal counts and of the node features, the weights, bias, gain and shift are staged whole at
  every point, each row of the layer depends on that row only, and the 50 tiles cover the 100000 rows.
-/
import proofs.«174023_j26113401160011_1_alg».proof.Proof.Gen.KernelIdeal.Frame
import proofs.«174023_j26113401160011_1_alg».proof.Proof.KBody

set_option maxRecDepth 16384

noncomputable section

namespace Cert.KernelIdeal.Reg5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Hetero

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid of 50 points: a row-tiled window's block index is (t, 0), a whole-array
    window's is zero. -/
theorem idx : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 1) = 0
    ∧ win5_5.index t (0 : Fin 2) = 0
    ∧ win5_5.index t (1 : Fin 2) = 0
    ∧ win5_6.index t (0 : Fin 1) = 0
    ∧ win5_7.index t (0 : Fin 1) = 0
    ∧ win5_8.index t (0 : Fin 2) = t.val
    ∧ win5_8.index t (1 : Fin 2) = 0 :=
  (by decide +kernel : ∀ t : Fin grid5.N, _)

/-- Row p of point t's tile is row 2000·t + p of the array. -/
def rowAt (t : Fin cfg5.N) (p : Fin 2000) : Fin 100000 :=
  ⟨t.val * 2000 + p.val, by have ht : t.val < 50 := t.isLt; have hp := p.isLt; omega⟩

/-- Window 0's block at point t is rows 2000·t … 2000·t + 1999 of its array. -/
theorem emb0 (t : Fin cfg5.N) (p : Fin 2000) (k : Fin 128) :
    ((cfg5.win 0).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win5_0.index t (0 : Fin 2) * 2000 + 1 * p.val = t.val * 2000 + p.val; omega
  | ⟨1, _⟩ => show win5_0.index t (1 : Fin 2) * 128 + 1 * k.val = k.val; omega
theorem blk0 (c : Dev nD) (t : Fin cfg5.N) (p : Fin 2000) (k : Fin 128) :
    iblk5 V c 0 t (ix2 p k) = V c main_v86 (ix2 (rowAt t p) k) := by
  show V c main_v86 (((cfg5.win 0).blk t).view.emb (ix2 p k)) = _
  rw [emb0 t p k]

/-- Window 1's block at point t is rows 2000·t … 2000·t + 1999 of its array. -/
theorem emb1 (t : Fin cfg5.N) (p : Fin 2000) (k : Fin 1) :
    ((cfg5.win 1).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win5_1.index t (0 : Fin 2) * 2000 + 1 * p.val = t.val * 2000 + p.val; omega
  | ⟨1, _⟩ => show win5_1.index t (1 : Fin 2) * 1 + 1 * k.val = k.val; omega
theorem blk1 (c : Dev nD) (t : Fin cfg5.N) (p : Fin 2000) (k : Fin 1) :
    iblk5 V c 1 t (ix2 p k) = V c main_v95 (ix2 (rowAt t p) k) := by
  show V c main_v95 (((cfg5.win 1).blk t).view.emb (ix2 p k)) = _
  rw [emb1 t p k]

/-- Window 2's block at point t is rows 2000·t … 2000·t + 1999 of its array. -/
theorem emb2 (t : Fin cfg5.N) (p : Fin 2000) (k : Fin 128) :
    ((cfg5.win 2).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win5_2.index t (0 : Fin 2) * 2000 + 1 * p.val = t.val * 2000 + p.val; omega
  | ⟨1, _⟩ => show win5_2.index t (1 : Fin 2) * 128 + 1 * k.val = k.val; omega
theorem blk2 (c : Dev nD) (t : Fin cfg5.N) (p : Fin 2000) (k : Fin 128) :
    iblk5 V c 2 t (ix2 p k) = V c main_v49 (ix2 (rowAt t p) k) := by
  show V c main_v49 (((cfg5.win 2).blk t).view.emb (ix2 p k)) = _
  rw [emb2 t p k]

/-- Window 3's block at every point is its whole array. -/
theorem emb3 (t : Fin cfg5.N) (k : Fin 128) (q : Fin 64) :
    ((cfg5.win 3).blk t).view.emb (ix2 k q) = ix2 k q := by
  obtain ⟨e0, e1, e2, e3, e4, e5, e6, e7, e8, e9, e10, e11, e12, e13, e14⟩ := idx t
  funext a; apply Fin.ext
  match a with
  | ⟨0, _⟩ => show win5_3.index t (0 : Fin 2) * 128 + 1 * k.val = k.val; omega
  | ⟨1, _⟩ => show win5_3.index t (1 : Fin 2) * 64 + 1 * q.val = q.val; omega
theorem blk3 (c : Dev nD) (t : Fin cfg5.N) (k : Fin 128) (q : Fin 64) :
    iblk5 V c 3 t (ix2 k q) = V c main_arg21 (ix2 k q) := by
  show V c main_arg21 (((cfg5.win 3).blk t).view.emb (ix2 k q)) = _
  rw [emb3 t k q]

/-- Window 4's block at every point is its whole array. -/
theorem emb4 (t : Fin cfg5.N) (q : Fin 64) :
    ((cfg5.win 4).blk t).view.emb (ix1 q) = ix1 q := by
  obtain ⟨e0, e1, e2, e3, e4, e5, e6, e7, e8, e9, e10, e11, e12, e13, e14⟩ := idx t
  funext a; apply Fin.ext
  match a with
  | ⟨0, _⟩ => show win5_4.index t (0 : Fin 1) * 64 + 1 * q.val = q.val; omega
theorem blk4 (c : Dev nD) (t : Fin cfg5.N) (q : Fin 64) :
    iblk5 V c 4 t (ix1 q) = V c main_arg22 (ix1 q) := by
  show V c main_arg22 (((cfg5.win 4).blk t).view.emb (ix1 q)) = _
  rw [emb4 t q]

/-- Window 5's block at every point is its whole array. -/
theorem emb5 (t : Fin cfg5.N) (k : Fin 128) (q : Fin 64) :
    ((cfg5.win 5).blk t).view.emb (ix2 k q) = ix2 k q := by
  obtain ⟨e0, e1, e2, e3, e4, e5, e6, e7, e8, e9, e10, e11, e12, e13, e14⟩ := idx t
  funext a; apply Fin.ext
  match a with
  | ⟨0, _⟩ => show win5_5.index t (0 : Fin 2) * 128 + 1 * k.val = k.val; omega
  | ⟨1, _⟩ => show win5_5.index t (1 : Fin 2) * 64 + 1 * q.val = q.val; omega
theorem blk5 (c : Dev nD) (t : Fin cfg5.N) (k : Fin 128) (q : Fin 64) :
    iblk5 V c 5 t (ix2 k q) = V c main_arg23 (ix2 k q) := by
  show V c main_arg23 (((cfg5.win 5).blk t).view.emb (ix2 k q)) = _
  rw [emb5 t k q]

/-- Window 6's block at every point is its whole array. -/
theorem emb6 (t : Fin cfg5.N) (q : Fin 64) :
    ((cfg5.win 6).blk t).view.emb (ix1 q) = ix1 q := by
  obtain ⟨e0, e1, e2, e3, e4, e5, e6, e7, e8, e9, e10, e11, e12, e13, e14⟩ := idx t
  funext a; apply Fin.ext
  match a with
  | ⟨0, _⟩ => show win5_6.index t (0 : Fin 1) * 64 + 1 * q.val = q.val; omega
theorem blk6 (c : Dev nD) (t : Fin cfg5.N) (q : Fin 64) :
    iblk5 V c 6 t (ix1 q) = V c main_arg24 (ix1 q) := by
  show V c main_arg24 (((cfg5.win 6).blk t).view.emb (ix1 q)) = _
  rw [emb6 t q]

/-- Window 7's block at every point is its whole array. -/
theorem emb7 (t : Fin cfg5.N) (q : Fin 64) :
    ((cfg5.win 7).blk t).view.emb (ix1 q) = ix1 q := by
  obtain ⟨e0, e1, e2, e3, e4, e5, e6, e7, e8, e9, e10, e11, e12, e13, e14⟩ := idx t
  funext a; apply Fin.ext
  match a with
  | ⟨0, _⟩ => show win5_7.index t (0 : Fin 1) * 64 + 1 * q.val = q.val; omega
theorem blk7 (c : Dev nD) (t : Fin cfg5.N) (q : Fin 64) :
    iblk5 V c 7 t (ix1 q) = V c main_arg25 (ix1 q) := by
  show V c main_arg25 (((cfg5.win 7).blk t).view.emb (ix1 q)) = _
  rw [emb7 t q]

/-- Window 8's block at point t is rows 2000·t … 2000·t + 1999 of its array. -/
theorem emb8 (t : Fin cfg5.N) (p : Fin 2000) (k : Fin 64) :
    ((cfg5.win 8).blk t).view.emb (ix2 p k) = ix2 (rowAt t p) k := by
  obtain ⟨e0, e1, e2, e3, e4, e5, e6, e7, e8, e9, e10, e11, e12, e13, e14⟩ := idx t
  funext a; apply Fin.ext
  match a with
  | ⟨0, _⟩ => show win5_8.index t (0 : Fin 2) * 2000 + 1 * p.val = t.val * 2000 + p.val; omega
  | ⟨1, _⟩ => show win5_8.index t (1 : Fin 2) * 64 + 1 * k.val = k.val; omega

/-- The array the region's output window writes, as one function of the arrays it reads. -/
abbrev G (c : Dev nD) : FVec Ideal S100000x64 .f32 := layer 0x42800000#32 0x3727C5AC#32 (aggMul (V c main_v86) (V c main_v95)) (V c main_v49) (V c main_arg21) (V c main_arg23) (V c main_arg22) (V c main_arg24) (V c main_arg25)

/-- What point t writes back is block t of `G`. -/
theorem flushed (c : Dev nD) (t : Fin cfg5.N) :
    (dat5 V c).flushed 8 t = ((cfg5.win 8).blk t).view.read (Elt Ideal) (G V c) := by
  show (cfg5.win 8).cut (grid5.coords t) ((dat5 V c).after 8 t) = _
  rw [after5_8]
  unfold out5_8
  rw [View.canon_unit_zero hz2]
  simp only [View.ld_unit_zero (S := S2000x128) hz2, View.ld_unit_zero (S := S2000x1) hz2, View.ld_unit_zero (S := S128x64) hz2, View.ld_unit_zero (S := S64) hz1]
  rw [Body.pay5]
  funext j
  obtain ⟨p, q, rfl⟩ : ∃ (p : Fin 2000) (q : Fin 64), j = ix2 p q := ⟨j 0, j 1, eq_ix2 j⟩
  show layer _ _ (aggMul (iblk5 V c 0 t) (iblk5 V c 1 t)) (iblk5 V c 2 t) (iblk5 V c 3 t) (iblk5 V c 5 t) (iblk5 V c 4 t) (iblk5 V c 6 t) (iblk5 V c 7 t) (ix2 p q)
    = G V c (((cfg5.win 8).blk t).view.emb (ix2 p q))
  rw [emb8 t p q]
  rw [layer_ix2]
  show _ = layer _ _ _ _ _ _ _ _ _ (ix2 (rowAt t p) q)
  rw [layer_ix2]
  refine layerAt_congr _ _ _ _ _ _ _ _ _ _ _ _ _ _ _ _ p (rowAt t p) q (fun k => ?_) (fun k => blk2 V c t p k)
    (fun k j => blk3 V c t k j) (fun k j => blk5 V c t k j) (fun j => blk4 V c t j) (fun j => blk6 V c t j) (fun j => blk7 V c t j)
  rw [aggMul_ix2, aggMul_ix2, blk0 V c t p k, blk1 V c t p (0 : Fin 1)]

/-- An index of the array is in point t's block iff each coordinate is in the block's range on its axis. -/
theorem mem_blk (t : Fin cfg5.N) (i : S100000x64.Idx) :
    i ∈ ((cfg5.win 8).blk t).view.set ↔ ∀ a : Fin 2, win5_8.index t a * S2000x64.size a ≤ (i a).val ∧ (i a).val < win5_8.index t a * S2000x64.size a + S2000x64.size a := by
  show i ∈ ((View.whole main_v97).slice (win5_8.rect t)).set ↔ _
  rw [View.set_slice_whole, Rect.mem_set_unit]
  exact Iff.rfl

/-- Every index of the array lies in the block of the point its row falls in. -/
theorem cover (i : S100000x64.Idx) :
    ∃ t : Fin cfg5.N, (cfg5.win 8).flush t = true ∧ i ∈ ((cfg5.win 8).blk t).view.set := by
  have hi0 : (i 0).val < 100000 := (i 0).isLt
  have hi1 : (i 1).val < 64 := (i 1).isLt
  refine ⟨⟨(i 0).val / 2000, by show _ < 50; omega⟩, flush5_8 _, ?_⟩
  rw [mem_blk]
  obtain ⟨-, -, -, -, -, -, -, -, -, -, -, -, -, e13, e14⟩ := idx ⟨(i 0).val / 2000, by show _ < 50; omega⟩
  intro a
  match a with
  | ⟨0, _⟩ => show win5_8.index _ (0 : Fin 2) * 2000 ≤ (i 0).val ∧ (i 0).val < win5_8.index _ (0 : Fin 2) * 2000 + 2000; rw [e13]; show (i 0).val / 2000 * 2000 ≤ _ ∧ _ < (i 0).val / 2000 * 2000 + 2000; omega
  | ⟨1, _⟩ => show win5_8.index _ (1 : Fin 2) * 64 ≤ (i 1).val ∧ (i 1).val < win5_8.index _ (1 : Fin 2) * 64 + 64; rw [e14]; omega

/-- THE ARRAY the region leaves in its output: `G` of the arrays it found. -/
theorem final (c : Dev nD) : (dat5 V c).arrAt 8 cfg5.N = G V c :=
  (dat5 V c).arrAt_eq_of_cover 8 (G V c) (fun t _ => flushed V c t) cover

end Cert.KernelIdeal.Reg5

end
-- ==== Proof.Net.lean ====
/-
  The whole network as one function of the argument arrays, on the extended reals.

  Two node types (users, items), 100000 nodes each, and two edge lists of 600000 edges (users → items, items → users),
  each a [2, 600000] array of index words: row 0 the sources, row 1 the destinations.  Every node's features are first
  projected to width 128 (`proj`).  A message-passing layer for one edge list takes the source type's features, sums
  for every destination the rows of the sources of the edges into it (`seg`: a gather of rows, then an accumulating
  scatter), divides each row by the number of edges into that destination or by one if there is none (`cmax`, kept
  as a column), and feeds that mean together with the destination type's own features through the layer of
  `Cert.Hetero` (`mid`: width 128 → 128 followed by the maximum with zero; `last`: width 128 → 64, no maximum).
  The network is two such layers for each node type; its results are the users' and the items' last layer.

  `seg` and `cmax` are spelled with the host operations themselves and are never opened: both programs apply the
  same gather and scatter to equal arrays.
-/
import proofs.«174023_j26113401160011_1_alg».proof.Proof.LibHeteroLayers
import proofs.«174023_j26113401160011_1_alg».proof.Proof.Gen.ReferenceIdeal.Read

noncomputable section

namespace Cert.Net

open Idealize.ShloMosaic Cert.ReferenceIdeal Cert.ReferenceIdeal.Read Cert.Hetero

/-- An edge list: the index words as the programs hold them. -/
abbrev Edges := (⟨S2x600000, .i32⟩ : BufTy).Contents (Elt Ideal)
/-- Node features of width 128, of width 64, and a column. -/
abbrev Feat := FVec Ideal S100000x128 .f32
abbrev Out := FVec Ideal S100000x64 .f32
abbrev Col := FVec Ideal S100000x1 .f32

/-- For every destination, the sum of the source rows of `h` over the edges of `e` into it. -/
def seg (h : Feat) (e : Edges) : Feat :=
  Host.scatterAdd scatter_S100000x128_S600000x1_S600000x128_1_0_0_1 (val_main_v21 (F := Ideal)) (val_main_v22 (F := Ideal) e)
    (Host.gather gather_S100000x128_S600000x1_S600000x128_1_0_n_n_0_1_1128 h (val_main_v19 (F := Ideal) e))

/-- For every destination, the number of edges of `e` into it, or one if there is none, as a column. -/
def cmax (e : Edges) : Col := val_main_v29 (F := Ideal) e

/-- A hidden layer: the mean of the neighbours `a` over the edges `e`, with the node's own features `x`. -/
def mid (a x : Feat) (e : Edges) (wl wr : FVec Ideal S128x128 .f32) (bl g b : FVec Ideal S128 .f32) : Feat :=
  layerRelu 0x43000000#32 0x3727C5AC#32 (aggDiv (seg a e) (cmax e)) x wl wr bl g b

/-- The last layer. -/
def last (a x : Feat) (e : Edges) (wl wr : FVec Ideal S128x64 .f32) (bl g b : FVec Ideal S64 .f32) : Out :=
  layer 0x42800000#32 0x3727C5AC#32 (aggDiv (seg a e) (cmax e)) x wl wr bl g b

/-- The users' and the items' features after the projection and after the hidden layer. -/
def hu (x0 : FVec Ideal S100000x96 .f32) (x4 : FVec Ideal S96x128 .f32) (x5 : FVec Ideal S128 .f32) : Feat := proj x0 x4 x5
def hi (x1 : FVec Ideal S100000x160 .f32) (x6 : FVec Ideal S160x128 .f32) (x7 : FVec Ideal S128 .f32) : Feat := proj x1 x6 x7

/-- The items after the hidden layer: neighbours are users, over the user → item edges `x2`. -/
def hi1 (x0 : FVec Ideal S100000x96 .f32) (x1 : FVec Ideal S100000x160 .f32) (x2 : Edges) (x4 : FVec Ideal S96x128 .f32)
    (x5 : FVec Ideal S128 .f32) (x6 : FVec Ideal S160x128 .f32) (x7 : FVec Ideal S128 .f32)
    (x8 : FVec Ideal S128x128 .f32) (x9 : FVec Ideal S128 .f32) (x10 : FVec Ideal S128x128 .f32)
    (x16 x17 : FVec Ideal S128 .f32) : Feat :=
  mid (hu x0 x4 x5) (hi x1 x6 x7) x2 x8 x10 x9 x16 x17

/-- The users after the hidden layer: neighbours are items, over the item → user edges `x3`. -/
def hu1 (x0 : FVec Ideal S100000x96 .f32) (x1 : FVec Ideal S100000x160 .f32) (x3 : Edges) (x4 : FVec Ideal S96x128 .f32)
    (x5 : FVec Ideal S128 .f32) (x6 : FVec Ideal S160x128 .f32) (x7 : FVec Ideal S128 .f32)
    (x11 : FVec Ideal S128x128 .f32) (x12 : FVec Ideal S128 .f32) (x13 : FVec Ideal S128x128 .f32)
    (x14 x15 : FVec Ideal S128 .f32) : Feat :=
  mid (hi x1 x6 x7) (hu x0 x4 x5) x3 x11 x13 x12 x14 x15

end Cert.Net

end
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.LibAdjacency.lean ====
/-
  A graph aggregation written two ways, over the extended reals.

  One program builds a dense adjacency matrix `A[i, k]` = the sum of the weights `w e` of the edges `e` with
  `(dst e, src e) = (i, k)` — one accumulating scatter of scalars through a two-column array of index words — and
  multiplies `A` by a feature matrix `M`. The other takes row `src e` of `M` for every edge, scales it by `w e` and adds
  it into row `dst e` by an accumulating scatter of rows. When every weight is nonnegative the two agree with no
  finiteness assumption: `(a + b) * c = a * c + b * c` holds on the extended reals for `0 ≤ a`, `0 ≤ b`
  (`sum_mul_of_nonneg`), so each entry `A[i, k] * M[k]` spreads over its edges, and regrouping the edges into `i` by
  their source gives the other sum (`aggregate_eq`).

  Then the two scatters read at an entry: the scalar scatter through two columns of index words
  (`pairs_scatterAdd_apply`) and the row scatter through one column (`addRows_scatterAdd_apply`), each the operand's
  entry plus the sum of the updates whose index words name it, when every word names a row of the operand. Last, a word
  that names a row is its own clamp (`clampRow_of_range`), and the nonnegativity facts that carry `0 ≤ w e` through a
  reciprocal square root, an accumulating scatter, a gather and a product.
-/
import Idealize.ShloMosaic.PureOps.Ideal
import Idealize.ShloMosaic.PureOps.Ideal.Laws
import Idealize.ShloMosaic.Lib.ValueIdx
import proofs.«174023_j26113401160011_1_alg».proof.Proof.LibIndexedRows

noncomputable section

open scoped BigOperators

namespace Cert.Lib

open Idealize.ShloMosaic Idealize.ShloMosaic.ValueIdx

/-! ## The algebra -/

/-- A sum of nonnegative extended reals times `m` is the sum of the products. -/
theorem sum_mul_of_nonneg {ι : Type*} (s : Finset ι) (a : ι → EReal) (ha : ∀ e ∈ s, 0 ≤ a e) (m : EReal) :
    (∑ e ∈ s, a e) * m = ∑ e ∈ s, a e * m := by
  classical
  induction s using Finset.induction_on with
  | empty => simp
  | insert x s hx ih =>
    rw [Finset.sum_insert hx, Finset.sum_insert hx,
      EReal.right_distrib_of_nonneg (ha x (Finset.mem_insert_self x s))
        (Finset.sum_nonneg fun e he => ha e (Finset.mem_insert_of_mem he)),
      ih fun e he => ha e (Finset.mem_insert_of_mem he)]

/-- Row `i` of (adjacency matrix) × (vector): the sum over the edges into `i` of the vector at the edge's source times
    the edge's weight. -/
theorem aggregate_eq {E N : ℕ} (D S : Fin E → Fin N) (a : Fin E → EReal) (ha : ∀ e, 0 ≤ a e) (M : Fin N → EReal)
    (i : Fin N) :
    ∑ k : Fin N, (∑ e ∈ Finset.univ.filter (fun e => D e = i ∧ S e = k), a e) * M k
      = ∑ e ∈ Finset.univ.filter (fun e => D e = i), M (S e) * a e := by
  have h1 : ∀ k : Fin N, (∑ e ∈ Finset.univ.filter (fun e => D e = i ∧ S e = k), a e) * M k
      = ∑ e ∈ (Finset.univ.filter (fun e => D e = i)).filter (fun e => S e = k), M (S e) * a e := by
    intro k
    rw [sum_mul_of_nonneg _ _ (fun e _ => ha e), Finset.filter_filter]
    refine Finset.sum_congr rfl fun e he => ?_
    rw [(Finset.mem_filter.mp he).2.2, mul_comm]
  rw [Finset.sum_congr rfl fun k _ => h1 k]
  exact Finset.sum_fiberwise _ S _

/-! ## Nonnegativity -/

/-- The reciprocal square root of a nonnegative extended real is nonnegative (`0 ↦ ⊤`, `⊤ ↦ 0`). -/
theorem rsqrt_nonneg (x : EReal) (h : 0 ≤ x) : 0 ≤ Ideal.rsqrt x := by
  induction x using EReal.rec with
  | bot => exact absurd h (by simp)
  | top => simp
  | coe r =>
    have hr : 0 ≤ r := by exact_mod_cast h
    rw [Ideal.rsqrt_coe, if_neg (not_lt.mpr hr)]
    split
    · exact le_top
    · exact_mod_cast inv_nonneg.mpr (Real.sqrt_nonneg r)

/-- An accumulating scatter of nonnegative updates into a nonnegative operand is nonnegative. -/
theorem scatterAdd_nonneg {s si su : Shape} {w : ℕ} (d : ScatterDims s si su) (Z : s.Idx → EReal) (idx : IVec si w)
    (U : su.Idx → EReal) (hZ : ∀ i, 0 ≤ Z i) (hU : ∀ j, 0 ≤ U j) (i : s.Idx) :
    0 ≤ Host.scatterAdd (F := Ideal) (φ := .f32) d Z idx U i :=
  add_nonneg (hZ i) (Finset.sum_nonneg fun j _ => hU j)

/-- A gather reads the operand at some index: what holds of every operand element holds of every result element. -/
theorem gather_forall {α : Type} {s si so : Shape} {w : ℕ} (d : GatherDims s si so) (x : s.Idx → α) (idx : IVec si w)
    (P : α → Prop) (hx : ∀ i, P (x i)) (j : so.Idx) : P (Host.gather d x idx j) :=
  hx _

/-- A product of nonnegative extended reals is nonnegative. -/
theorem mul_nonneg' (a b : EReal) (ha : 0 ≤ a) (hb : 0 ≤ b) : 0 ≤ a * b := EReal.mul_nonneg ha hb

/-! ## The scalar scatter through two columns of index words -/

/-- A sum over a rank-1 index set is the sum over its coordinate. -/
theorem sum_ix1 {M : Type*} [AddCommMonoid M] {n : Nat} (f : (⟨1, ![n]⟩ : Shape).Idx → M) :
    ∑ j, f j = ∑ e : Fin n, f (ix1 e) := by
  refine Fintype.sum_equiv ⟨fun j => j 0, fun e => ix1 e, fun j => (eq_ix1 j).symm, fun _ => rfl⟩ _ _ fun j => ?_
  exact congrArg f (eq_ix1 j)

/-- The dimension numbers of "add update `e` into the operand's entry `(idx[e, 0], idx[e, 1])`". -/
abbrev pairsDims (N E : Nat)
    (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ where
  updateWindowDims := []
  insertedWindowDims := [0, 1]
  scatterDimsToOperandDims := [0, 1]
  indexVectorDim := 1
  wf := wf

theorem pairs_window {N E : Nat}
    (wf : ScatterDims.WF ⟨2, ![N, N]⟩ ⟨2, ![E, 2]⟩ ⟨1, ![E]⟩ [] [0, 1] [0, 1] 1)
    (j : (⟨1, ![E]⟩ : Shape).Idx) (a : Fin 2) : (pairsDims N E wf).window j a = 0 := by
  unfold ScatterDims.window
  rw [dif_neg]
  match a with
  | ⟨0, _⟩ => simp [ScatterDims.sKept, Shape.kept]
  | ⟨1, _⟩ => simp [ScatterDims.sKept, Shape.kept]

theorem pairs_start0 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 0 = (idx (ix2 e 0)).toInt := by
  have hm : (0 : Fin 2) ∈ (pairsDims N E wf).scatterDimsToOperandDims := by simp
  unfold ScatterDims.start
  rw [dif_pos hm]
  have hsi : (pairsDims N E wf).siIdx (ix1 e) ⟨List.idxOf (0 : Fin 2) (pairsDims N E wf).scatterDimsToOperandDims,
      List.idxOf_lt_length_iff.2 hm⟩ = ix2 e 0 := by
    funext b; refine Fin.ext ?_
    match b with
    | ⟨0, _⟩ => rfl
    | ⟨1, _⟩ => rfl
  rw [hsi]

theorem pairs_start1 {N E w : Nat}
    (wf : ScatterDims.WF ⟨2, ![N, N]⟩ ⟨2, ![E, 2]⟩ ⟨1, ![E]⟩ [] [0, 1] [0, 1] 1)
    (idx : IVec ⟨2, ![E, 2]⟩ w) (e : Fin E) :
    (pairsDims N E wf).start (ix1 e) idx 1 = (idx (ix2 e 1)).toInt := by
  have hm : (1 : Fin 2) ∈ (pairsDims N E wf).scatterDimsToOperandDims := by simp
  unfold ScatterDims.start
  rw [dif_pos hm]
  have hsi : (pairsDims N E wf).siIdx (ix1 e) ⟨List.idxOf (1 : Fin 2) (pairsDims N E wf).scatterDimsToOperandDims,
      List.idxOf_lt_length_iff.2 hm⟩ = ix2 e 1 := by
    funext b; refine Fin.ext ?_
    match b with
    | ⟨0, _⟩ => rfl
    | ⟨1, _⟩ => rfl
  rw [hsi]

/-- Update `e` lands at the entry its two index words name, when both name a row of the matrix. -/
theorem pairs_resultIdx {N E w : Nat}
    (wf : ScatterDims.WF ⟨2, ![N, N]⟩ ⟨2, ![E, 2]⟩ ⟨1, ![E]⟩ [] [0, 1] [0, 1] 1)
    (idx : IVec ⟨2, ![E, 2]⟩ w) (D S : Fin E → Fin N)
    (hD : ∀ e, (idx (ix2 e 0)).toInt = ((D e).val : Int)) (hS : ∀ e, (idx (ix2 e 1)).toInt = ((S e).val : Int))
    (e : Fin E) : (pairsDims N E wf).resultIdx? (ix1 e) idx = some (ix2 (D e) (S e)) := by
  have h0 : (pairsDims N E wf).start (ix1 e) idx 0 + (pairsDims N E wf).window (ix1 e) 0 = ((D e).val : Int) := by
    rw [pairs_start0, pairs_window, hD]; simp
  have h1 : (pairsDims N E wf).start (ix1 e) idx 1 + (pairsDims N E wf).window (ix1 e) 1 = ((S e).val : Int) := by
    rw [pairs_start1, pairs_window, hS]; simp
  have key : ∀ a : Fin 2, (pairsDims N E wf).start (ix1 e) idx a + ((pairsDims N E wf).window (ix1 e) a : Nat)
      = ((ix2 (D e) (S e) a).val : Int) := by
    intro a
    match a with
    | ⟨0, _⟩ => exact h0
    | ⟨1, _⟩ => exact h1
  unfold ScatterDims.resultIdx?
  rw [dif_pos]
  · congr 1
    funext a; refine Fin.ext ?_
    show ((pairsDims N E wf).start (ix1 e) idx a + ((pairsDims N E wf).window (ix1 e) a : Nat)).toNat
      = (ix2 (D e) (S e) a).val
    rw [key a, Int.toNat_natCast]
  · intro a
    rw [key a]
    exact ⟨Int.natCast_nonneg _, by exact_mod_cast (ix2 (D e) (S e) a).isLt⟩

/-- The scatter at `(i, k)`: the operand's entry plus the sum of the updates whose two index words are `i` and `k`. -/
theorem pairs_scatterAdd_apply {N E w : Nat}
    (wf : ScatterDims.WF ⟨2, ![N, N]⟩ ⟨2, ![E, 2]⟩ ⟨1, ![E]⟩ [] [0, 1] [0, 1] 1)
    (Z : (⟨2, ![N, N]⟩ : Shape).Idx → EReal) (idx : IVec ⟨2, ![E, 2]⟩ w) (u : (⟨1, ![E]⟩ : Shape).Idx → EReal)
    (D S : Fin E → Fin N)
    (hD : ∀ e, (idx (ix2 e 0)).toInt = ((D e).val : Int)) (hS : ∀ e, (idx (ix2 e 1)).toInt = ((S e).val : Int))
    (i k : Fin N) :
    Host.scatterAdd (F := Ideal) (φ := .f32) (pairsDims N E wf) Z idx u (ix2 i k)
      = Z (ix2 i k) + ∑ e ∈ Finset.univ.filter (fun e : Fin E => D e = i ∧ S e = k), u (ix1 e) := by
  show Z (ix2 i k) + ∑ j ∈ Finset.univ.filter (fun j => (pairsDims N E wf).resultIdx? j idx = some (ix2 i k)), u j = _
  congr 1
  rw [Finset.sum_filter, sum_ix1, Finset.sum_filter]
  refine Finset.sum_congr rfl fun e _ => ?_
  rw [pairs_resultIdx wf idx D S hD hS e]
  have hiff : (some (ix2 (D e) (S e)) = some (ix2 i k)) ↔ (D e = i ∧ S e = k) := by
    constructor
    · intro h
      have h' := Option.some.inj h
      exact ⟨congrFun h' 0, congrFun h' 1⟩
    · rintro ⟨rfl, rfl⟩; rfl
  simp only [hiff]

/-! ## The row scatter through one column of index words -/

theorem addRows_window0 {N E C : Nat}
    (wf : ScatterDims.WF ⟨2, ![N, C]⟩ ⟨2, ![E, 1]⟩ ⟨2, ![E, C]⟩ [1] [0] [0] 1)
    (j : (⟨2, ![E, C]⟩ : Shape).Idx) : (addRowsDims N E C wf).window j 0 = 0 := by
  unfold ScatterDims.window
  rw [dif_neg]
  simp [ScatterDims.sKept, Shape.kept]

theorem addRows_window1 {N E C : Nat}
    (wf : ScatterDims.WF ⟨2, ![N, C]⟩ ⟨2, ![E, 1]⟩ ⟨2, ![E, C]⟩ [1] [0] [0] 1)
    (e : Fin E) (c : Fin C) : (addRowsDims N E C wf).window (ix2 e c) 1 = c.val := by
  have hk : (1 : Fin 2) ∈ (addRowsDims N E C wf).sKept := by simp [ScatterDims.sKept, Shape.kept]
  unfold ScatterDims.window
  rw [dif_pos hk]
  rfl

theorem addRows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e 0)).toInt := by
  have hm : (0 : Fin 2) ∈ (addRowsDims N E C wf).scatterDimsToOperandDims := by simp
  unfold ScatterDims.start
  rw [dif_pos hm]
  have hsi : (addRowsDims N E C wf).siIdx (ix2 e c) ⟨List.idxOf (0 : Fin 2) (addRowsDims N E C wf).scatterDimsToOperandDims,
      List.idxOf_lt_length_iff.2 hm⟩ = ix2 e 0 := by
    funext b; refine Fin.ext ?_
    match b with
    | ⟨0, _⟩ => rfl
    | ⟨1, _⟩ => rfl
  rw [hsi]

theorem addRows_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRowsDims N E C wf).start j idx 1 = 0 := by
  unfold ScatterDims.start
  rw [dif_neg]
  simp

/-- Update `(e, c)` lands at row `idx[e, 0]`, column `c`, when the word names a row of the matrix. -/
theorem addRows_resultIdx {N E C w : Nat}
    (wf : ScatterDims.WF ⟨2, ![N, C]⟩ ⟨2, ![E, 1]⟩ ⟨2, ![E, C]⟩ [1] [0] [0] 1)
    (idx : IVec ⟨2, ![E, 1]⟩ w) (D : Fin E → Fin N)
    (hD : ∀ e, (idx (ix2 e 0)).toInt = ((D e).val : Int)) (e : Fin E) (c : Fin C) :
    (addRowsDims N E C wf).resultIdx? (ix2 e c) idx = some (ix2 (D e) c) := by
  have key : ∀ a : Fin 2, (addRowsDims N E C wf).start (ix2 e c) idx a + ((addRowsDims N E C wf).window (ix2 e c) a : Nat)
      = ((ix2 (D e) c a).val : Int) := by
    intro a
    match a with
    | ⟨0, _⟩ =>
      show (addRowsDims N E C wf).start (ix2 e c) idx 0 + ((addRowsDims N E C wf).window (ix2 e c) 0 : Nat) = ((D e).val : Int)
      rw [addRows_start0, addRows_window0, hD]; simp
    | ⟨1, _⟩ =>
      show (addRowsDims N E C wf).start (ix2 e c) idx 1 + ((addRowsDims N E C wf).window (ix2 e c) 1 : Nat) = (c.val : Int)
      rw [addRows_start1, addRows_window1]; simp
  unfold ScatterDims.resultIdx?
  rw [dif_pos]
  · congr 1
    funext a; refine Fin.ext ?_
    show ((addRowsDims N E C wf).start (ix2 e c) idx a + ((addRowsDims N E C wf).window (ix2 e c) a : Nat)).toNat
      = (ix2 (D e) c a).val
    rw [key a, Int.toNat_natCast]
  · intro a
    rw [key a]
    exact ⟨Int.natCast_nonneg _, by exact_mod_cast (ix2 (D e) c a).isLt⟩

/-- The scatter at `(i, c)`: the operand's entry plus the sum over the update rows whose index word is `i` of their
    entry in column `c`. -/
theorem addRows_scatterAdd_apply {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w) (U : (⟨2, ![E, C]⟩ : Shape).Idx → EReal)
    (D : Fin E → Fin N) (hD : ∀ e, (idx (ix2 e 0)).toInt = ((D e).val : Int)) (i : Fin N) (c : Fin C) :
    Host.scatterAdd (F := Ideal) (φ := .f32) (addRowsDims N E C wf) Z idx U (ix2 i c)
      = Z (ix2 i c) + ∑ e ∈ Finset.univ.filter (fun e : Fin E => D e = i), U (ix2 e c) := by
  show Z (ix2 i c) + ∑ j ∈ Finset.univ.filter (fun j => (addRowsDims N E C wf).resultIdx? j idx = some (ix2 i c)), U j = _
  congr 1
  rw [Finset.sum_filter, sum_idx2, Finset.sum_filter]
  refine Finset.sum_congr rfl fun e _ => ?_
  have hiff : ∀ c' : Fin C, (some (ix2 (D e) c') = some (ix2 i c)) ↔ (D e = i ∧ c' = c) := by
    intro c'
    constructor
    · intro h
      have h' := Option.some.inj h
      exact ⟨congrFun h' 0, congrFun h' 1⟩
    · rintro ⟨rfl, rfl⟩; rfl
  simp only [addRows_resultIdx wf idx D hD e, hiff]
  by_cases hi : D e = i
  · simp [hi]
  · simp [hi]

/-- A word that names a row is its own clamp. -/
theorem clampRow_of_range (N : ℕ) (hN : 0 < N) {w : ℕ} (b : BitVec w) (r : Fin N) (h : b.toInt = (r.val : Int)) :
    clampRow N hN b = r := by
  refine Fin.ext ?_
  show min b.toInt.toNat (N - 1) = r.val
  rw [h, Int.toNat_natCast]
  have := r.isLt
  omega

end Cert.Lib

end
-- ==== Proof.LibCountColumn.lean ====
/-
  Counting through a column of index words, as a vector and as a one-column matrix.

  The accumulating scatter adds update `j` into the operand element at `start j + window j`, where the start is
  the index word read as a SIGNED integer and NOT clamped, and an update that lands outside the operand is dropped.
  So update `j` lands on the element `i` exactly when `start j a + window j a = i a` on every axis `a`
  (`resultIdx?_eq_some_iff`), with no assumption on the index words.

  Two scatters read the same `[E, 1]` column of index words. One adds a vector of `E` updates into a vector of
  `N` entries: update `e` lands on entry `p` iff the word `idx[e, 0]`, read signed, is `p`
  (`addEntries_resultIdx_iff`). The other adds an `[E, C]` matrix of update rows into an `[N, C]` matrix: update
  `(e, c')` lands on `(p, c)` iff the word `idx[e, 0]` is `p` and `c' = c` (`addRows_resultIdx_iff`).
  Hence each scatter, at an entry, is the operand's entry plus the sum of the updates whose index word is that entry's
  row (`addEntries_scatterAdd_apply'`, `addRows_scatterAdd_apply'`) — words outside `[0, N)` name no row and their
  updates are dropped by both — and for `C = 1` the vector scatter at `p` is the column scatter at `(p, 0)` when
  the operands and the updates agree entry by entry (`scatterAdd_entries_eq_column`).
-/
import Idealize.ShloMosaic.PureOps.Ideal
import Idealize.ShloMosaic.PureOps.Ideal.Laws
import Idealize.ShloMosaic.Lib.ValueIdx
import proofs.«174023_j26113401160011_1_alg».proof.Proof.LibAdjacency

noncomputable section

open scoped BigOperators

namespace Cert.Lib

open Idealize.ShloMosaic Idealize.ShloMosaic.ValueIdx

/-! ## Where an update lands, for any dimension numbers -/

/-- Update `j` lands on the operand element `i` exactly when, on every operand axis, its signed unclamped start
    plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + ((d.window j a : Nat) : Int) = ((i a).val : Int) := by
  unfold ScatterDims.resultIdx?
  constructor
  · intro h
    split at h
    · rename_i hb
      intro a
      have hi := congrFun (Option.some.inj h) a
      have hv : (d.start j idx a + ((d.window j a : Nat) : Int)).toNat = (i a).val := congrArg Fin.val hi
      have hpos := (hb a).1
      omega
    · exact absurd h (by simp)
  · intro h
    rw [dif_pos]
    · congr 1
      funext a; refine Fin.ext ?_
      show (d.start j idx a + ((d.window j a : Nat) : Int)).toNat = (i a).val
      rw [h a, Int.toNat_natCast]
    · intro a
      rw [h a]
      exact ⟨Int.natCast_nonneg _, by exact_mod_cast (i a).isLt⟩

/-! ## The vector scatter through one column of index words -/

/-- The accumulating scatter of a vector of E updates into a vector of N entries through an [E,1] column of index words. -/
abbrev addEntriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The operand's one axis is inserted: the window coordinate on it is `0`. -/
theorem addEntries_window {N E : Nat}
    (wf : ScatterDims.WF ⟨1, ![N]⟩ ⟨2, ![E, 1]⟩ ⟨1, ![E]⟩ [] [0] [0] 1)
    (j : (⟨1, ![E]⟩ : Shape).Idx) (a : Fin 1) : (addEntriesDims N E wf).window j a = 0 := by
  obtain rfl : a = 0 := Subsingleton.elim _ _
  unfold ScatterDims.window
  rw [dif_neg]
  simp [ScatterDims.sKept, Shape.kept]

/-- The start of update `e` on the operand's one axis is the word `idx[e, 0]`, read signed. -/
theorem addEntries_start {N E w : Nat}
    (wf : ScatterDims.WF ⟨1, ![N]⟩ ⟨2, ![E, 1]⟩ ⟨1, ![E]⟩ [] [0] [0] 1)
    (idx : IVec ⟨2, ![E, 1]⟩ w) (e : Fin E) :
    (addEntriesDims N E wf).start (ix1 e) idx 0 = (idx (ix2 e 0)).toInt := by
  have hm : (0 : Fin 1) ∈ (addEntriesDims N E wf).scatterDimsToOperandDims := List.mem_singleton.mpr rfl
  unfold ScatterDims.start
  rw [dif_pos hm]
  have hsi : (addEntriesDims N E wf).siIdx (ix1 e) ⟨List.idxOf (0 : Fin 1) (addEntriesDims N E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Update `e` lands on entry `p` exactly when its index word, read signed, is `p`. -/
theorem addEntries_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (p : Fin N) :
    (addEntriesDims N E wf).resultIdx? (ix1 e) idx = some (ix1 p) ↔ (idx (ix2 e 0)).toInt = ((p.val : Nat) : Int) := by
  rw [resultIdx?_eq_some_iff]
  constructor
  · intro h
    have h0 : (addEntriesDims N E wf).start (ix1 e) idx 0 + (((addEntriesDims N E wf).window (ix1 e) 0 : Nat) : Int)
        = ((p.val : Nat) : Int) := h 0
    rw [addEntries_start, addEntries_window] at h0
    simpa using h0
  · intro h a
    obtain rfl : a = 0 := Subsingleton.elim _ _
    show (addEntriesDims N E wf).start (ix1 e) idx 0 + (((addEntriesDims N E wf).window (ix1 e) 0 : Nat) : Int)
      = ((p.val : Nat) : Int)
    rw [addEntries_start, addEntries_window, h]
    simp

/-- The vector scatter at `p`: the operand's entry plus the sum of the updates whose index word, read signed, is
    `p`. A word outside `[0, N)` is no `p`: its update is dropped. -/
theorem addEntries_scatterAdd_apply' {N E w : Nat}
    (wf : ScatterDims.WF ⟨1, ![N]⟩ ⟨2, ![E, 1]⟩ ⟨1, ![E]⟩ [] [0] [0] 1)
    (Z : (⟨1, ![N]⟩ : Shape).Idx → EReal) (idx : IVec ⟨2, ![E, 1]⟩ w) (U : (⟨1, ![E]⟩ : Shape).Idx → EReal)
    (p : Fin N) :
    Host.scatterAdd (F := Ideal) (φ := .f32) (addEntriesDims N E wf) Z idx U (ix1 p)
      = Z (ix1 p) + ∑ e ∈ Finset.univ.filter (fun e : Fin E => (idx (ix2 e 0)).toInt = ((p.val : Nat) : Int)),
          U (ix1 e) := by
  show Z (ix1 p) + ∑ j ∈ Finset.univ.filter (fun j => (addEntriesDims N E wf).resultIdx? j idx = some (ix1 p)), U j = _
  congr 1
  rw [Finset.sum_filter, sum_ix1, Finset.sum_filter]
  refine Finset.sum_congr rfl fun e _ => ?_
  simp only [addEntries_resultIdx_iff wf idx e p]

/-! ## The row scatter through one column of index words, with no assumption on the words -/

/-- Update `(e, c')` lands on `(p, c)` exactly when its index word, read signed, is `p` and `c' = c`. -/
theorem addRows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (addRowsDims N E C wf).resultIdx? (ix2 e c') idx = some (ix2 p c)
      ↔ (idx (ix2 e 0)).toInt = ((p.val : Nat) : Int) ∧ c' = c := by
  rw [resultIdx?_eq_some_iff]
  constructor
  · intro h
    have h0 : (addRowsDims N E C wf).start (ix2 e c') idx 0 + (((addRowsDims N E C wf).window (ix2 e c') 0 : Nat) : Int)
        = ((p.val : Nat) : Int) := h 0
    have h1 : (addRowsDims N E C wf).start (ix2 e c') idx 1 + (((addRowsDims N E C wf).window (ix2 e c') 1 : Nat) : Int)
        = ((c.val : Nat) : Int) := h 1
    rw [addRows_start0, addRows_window0] at h0
    rw [addRows_start1, addRows_window1] at h1
    refine ⟨by simpa using h0, Fin.ext ?_⟩
    have h1' : ((c'.val : Nat) : Int) = ((c.val : Nat) : Int) := by simpa using h1
    exact_mod_cast h1'
  · rintro ⟨h, rfl⟩ a
    match a with
    | ⟨0, _⟩ =>
      show (addRowsDims N E C wf).start (ix2 e c') idx 0 + (((addRowsDims N E C wf).window (ix2 e c') 0 : Nat) : Int)
        = ((p.val : Nat) : Int)
      rw [addRows_start0, addRows_window0, h]; simp
    | ⟨1, _⟩ =>
      show (addRowsDims N E C wf).start (ix2 e c') idx 1 + (((addRowsDims N E C wf).window (ix2 e c') 1 : Nat) : Int)
        = ((c'.val : Nat) : Int)
      rw [addRows_start1, addRows_window1]; simp

/-- The row scatter at `(p, c)`: the operand's entry plus the sum over the update rows whose index word, read
    signed, is `p` of their entry in column `c`. A word outside `[0, N)` is no `p`: its row is dropped. -/
theorem addRows_scatterAdd_apply' {N E C w : Nat}
    (wf : ScatterDims.WF ⟨2, ![N, C]⟩ ⟨2, ![E, 1]⟩ ⟨2, ![E, C]⟩ [1] [0] [0] 1)
    (Z : (⟨2, ![N, C]⟩ : Shape).Idx → EReal) (idx : IVec ⟨2, ![E, 1]⟩ w) (U : (⟨2, ![E, C]⟩ : Shape).Idx → EReal)
    (p : Fin N) (c : Fin C) :
    Host.scatterAdd (F := Ideal) (φ := .f32) (addRowsDims N E C wf) Z idx U (ix2 p c)
      = Z (ix2 p c) + ∑ e ∈ Finset.univ.filter (fun e : Fin E => (idx (ix2 e 0)).toInt = ((p.val : Nat) : Int)),
          U (ix2 e c) := by
  show Z (ix2 p c) + ∑ j ∈ Finset.univ.filter (fun j => (addRowsDims N E C wf).resultIdx? j idx = some (ix2 p c)), U j = _
  congr 1
  rw [Finset.sum_filter, sum_idx2, Finset.sum_filter]
  refine Finset.sum_congr rfl fun e _ => ?_
  simp only [addRows_resultIdx_iff wf idx e _ p c]
  by_cases hi : (idx (ix2 e 0)).toInt = ((p.val : Nat) : Int)
  · simp [hi]
  · simp [hi]

/-! ## The two agree -/

/-- Entry `p` of the vector scatter is entry `(p, 0)` of the one-column scatter through the same index words, when
    the operands agree and the updates agree entry by entry: both are the operand's entry plus the sum of the updates
    whose index word, read signed, is `p`. -/
theorem scatterAdd_entries_eq_column {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (ZK : (⟨1, ![N]⟩ : Shape).Idx → EReal) (ZR : (⟨2, ![N, 1]⟩ : Shape).Idx → EReal) (idx : IVec ⟨2, ![E, 1]⟩ w)
    (UK : (⟨1, ![E]⟩ : Shape).Idx → EReal) (UR : (⟨2, ![E, 1]⟩ : Shape).Idx → EReal)
    (hZ : ∀ p : Fin N, ZK (ix1 p) = ZR (ix2 p (0 : Fin 1))) (hU : ∀ e : Fin E, UK (ix1 e) = UR (ix2 e (0 : Fin 1)))
    (p : Fin N) :
    Host.scatterAdd (F := Ideal) (φ := .f32) (addEntriesDims N E wfK) ZK idx UK (ix1 p)
      = Host.scatterAdd (F := Ideal) (φ := .f32) (addRowsDims N E 1 wfR) ZR idx UR (ix2 p (0 : Fin 1)) := by
  rw [addEntries_scatterAdd_apply', addRows_scatterAdd_apply', hZ p]
  congr 1
  exact Finset.sum_congr rfl fun e _ => hU e

end Cert.Lib

end
-- ==== Proof.KHost.lean ====
/-
  What the two stretches of host operations between the kernel regions leave.  Each stretch computes, for both edge
  lists, the segment sum of the source type's features (a gather of rows by the source words, wrapped if negative, and
  an accumulating scatter to the destination words into zeros) — the very operations of the reference, so the buffer
  holds `Net.seg` of the features and the edge list — and the column of reciprocal counts: one over the maximum
  with one of the number of edges into each destination, counted by scattering a vector of ones into a vector of
  zeros.  The reference counts by scattering a column of ones into a column of zeros; entry p of the one is entry
  (p, 0) of the other, so the kernel's column at (p, 0) is the reciprocal of the reference's count column there, and
  that count is at least one, hence not zero.
-/
import proofs.«174023_j26113401160011_1_alg».proof.Proof.Gen.KernelIdeal.Frame
import proofs.«174023_j26113401160011_1_alg».proof.Proof.Net
import proofs.«174023_j26113401160011_1_alg».proof.Proof.LibCountColumn
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen Cert.Hetero

/-- The word 0x3F800000 is the number one. -/
theorem ofBits_one : Ideal.ofBits .f32 0x3F800000#32 = 1 := by
  simp [Ideal.ofBits, Ideal.ieee]
  rw [← EReal.coe_mul]
  norm_num

/-- A count column's entry is at least one, so it is not zero. -/
theorem cmax_ne (e : Net.Edges) (p : Fin 100000) : Net.cmax e (ix2 p (0 : Fin 1)) ≠ 0 := by
  unfold Net.cmax
  rw [Cert.ReferenceIdeal.Read.val_main_v29_apply]
  show max _ (Cert.ReferenceIdeal.Read.val_main_v28 (F := Ideal) (ix2 p (0 : Fin 1))) ≠ 0
  unfold Cert.ReferenceIdeal.Read.val_main_v28 Cert.ReferenceIdeal.Read.val_main_cst_3
  rw [Cert.Lib.bcast_scalar_apply, ofBits_one]
  exact (lt_of_lt_of_le zero_lt_one (le_max_right _ _)).ne'

/-- The kernel's reciprocal-count column at (p, 0), computed from a vector count, is one over the reference's count
    column at (p, 0). -/
theorem recip_col (e : Net.Edges) (p : Fin 100000) :
    broadcastInDim S100000x1 ![0] bcast_S100000_S100000x1_0
      (Host.divf (broadcastInDim S100000 ![] bcast_S_S100000 (constant (F := Ideal) S_ .f32 0x3F800000#32))
        (maximumf (Host.scatterAdd scatter_S100000_S600000x1_S600000_n_0_0_1
            (broadcastInDim S100000 ![] bcast_S_S100000 (constant (F := Ideal) S_ .f32 0x00000000#32))
            (broadcastInDim S600000x1 ![0] bcast_S600000_S600000x1_0
              (fun i => shapeCast S600000 (extractStridedSlice S1x600000 ![1, 0] e slices_S2x600000_S1x600000_1_0) shapeCasts_S1x600000_S600000 i))
            (broadcastInDim S600000 ![] bcast_S_S600000 (constant (F := Ideal) S_ .f32 0x3F800000#32)))
          (broadcastInDim S100000 ![] bcast_S_S100000 (constant (F := Ideal) S_ .f32 0x3F800000#32)))) (ix2 p (0 : Fin 1))
      = Ideal.div 1 (Net.cmax e (ix2 p (0 : Fin 1))) := by
  rw [Cert.Lib.bcast_col_apply _ bcast_S100000_S100000x1_0 p (0 : Fin 1), host_divf_apply, maximumf_apply,
    Cert.Lib.bcast_scalar_apply, ofBits_one]
  unfold Net.cmax
  rw [Cert.ReferenceIdeal.Read.val_main_v29_apply]
  show Ideal.div 1 (max _ 1) = Ideal.div 1 (max (Cert.ReferenceIdeal.Read.val_main_v27 (F := Ideal) e (ix2 p (0 : Fin 1)))
    (Cert.ReferenceIdeal.Read.val_main_v28 (F := Ideal) (ix2 p (0 : Fin 1))))
  have h28 : Cert.ReferenceIdeal.Read.val_main_v28 (F := Ideal) (ix2 p (0 : Fin 1)) = 1 := by
    unfold Cert.ReferenceIdeal.Read.val_main_v28 Cert.ReferenceIdeal.Read.val_main_cst_3
    rw [Cert.Lib.bcast_scalar_apply, ofBits_one]
  rw [h28]
  refine congrArg (fun t => Ideal.div 1 (max t 1)) ?_
  unfold Cert.ReferenceIdeal.Read.val_main_v27
  exact Cert.Lib.scatterAdd_entries_eq_column scatter_S100000_S600000x1_S600000_n_0_0_1.wf
    Cert.ReferenceIdeal.scatter_S100000x1_S600000x1_S600000x1_1_0_0_1.wf _ _ _ _ _
    (fun p => by
      unfold Cert.ReferenceIdeal.Read.val_main_v25 Cert.ReferenceIdeal.Read.val_main_cst_2
      rw [Cert.Lib.bcast_scalar_apply, Cert.Lib.bcast_scalar_apply])
    (fun e => by
      unfold Cert.ReferenceIdeal.Read.val_main_v24 Cert.ReferenceIdeal.Read.val_main_cst_1
      rw [Cert.Lib.bcast_scalar_apply, Cert.Lib.bcast_scalar_apply]) p

theorem seg_hostOps2_v15 (W : Valuation τ sig (Elt Ideal)) :
    StableHlo.after (hostOps2 (F := Ideal)) W (Proc.devRef .tc main_v15) = Net.seg (W (Proc.devRef .tc main_v0)) (W (Proc.devRef .tc main_arg2)) := by
  after_results
  rfl
set_option maxHeartbeats 2000000 in
theorem seg_hostOps2_v38 (W : Valuation τ sig (Elt Ideal)) :
    StableHlo.after (hostOps2 (F := Ideal)) W (Proc.devRef .tc main_v38) = Net.seg (W (Proc.devRef .tc main_v1)) (W (Proc.devRef .tc main_arg3)) := by
  after_results
  rfl
theorem seg_hostOps4_v63 (W : Valuation τ sig (Elt Ideal)) :
    StableHlo.after (hostOps4 (F := Ideal)) W (Proc.devRef .tc main_v63) = Net.seg (W (Proc.devRef .tc main_v49)) (W (Proc.devRef .tc main_arg2)) := by
  after_results
  rfl
set_option maxHeartbeats 2000000 in
theorem seg_hostOps4_v86 (W : Valuation τ sig (Elt Ideal)) :
    StableHlo.after (hostOps4 (F := Ideal)) W (Proc.devRef .tc main_v86) = Net.seg (W (Proc.devRef .tc main_v48)) (W (Proc.devRef .tc main_arg3)) := by
  after_results
  rfl

theorem recip_hostOps2_v24 (W : Valuation τ sig (Elt Ideal)) (p : Fin 100000) :
    StableHlo.after (hostOps2 (F := Ideal)) W (Proc.devRef .tc main_v24) (ix2 p (0 : Fin 1))
      = Ideal.div 1 (Net.cmax (W (Proc.devRef .tc main_arg2)) (ix2 p (0 : Fin 1))) := by
  after_results
  exact recip_col _ p
theorem recip_hostOps2_v47 (W : Valuation τ sig (Elt Ideal)) (p : Fin 100000) :
    StableHlo.after (hostOps2 (F := Ideal)) W (Proc.devRef .tc main_v47) (ix2 p (0 : Fin 1))
      = Ideal.div 1 (Net.cmax (W (Proc.devRef .tc main_arg3)) (ix2 p (0 : Fin 1))) := by
  after_results
  exact recip_col _ p
theorem recip_hostOps4_v72 (W : Valuation τ sig (Elt Ideal)) (p : Fin 100000) :
    StableHlo.after (hostOps4 (F := Ideal)) W (Proc.devRef .tc main_v72) (ix2 p (0 : Fin 1))
      = Ideal.div 1 (Net.cmax (W (Proc.devRef .tc main_arg2)) (ix2 p (0 : Fin 1))) := by
  after_results
  exact recip_col _ p
theorem recip_hostOps4_v95 (W : Valuation τ sig (Elt Ideal)) (p : Fin 100000) :
    StableHlo.after (hostOps4 (F := Ideal)) W (Proc.devRef .tc main_v95) (ix2 p (0 : Fin 1))
      = Ideal.div 1 (Net.cmax (W (Proc.devRef .tc main_arg3)) (ix2 p (0 : Fin 1))) := by
  after_results
  exact recip_col _ p

end Cert.KernelIdeal.Host

end
-- ==== Proof.KValue.lean ====
/-
  The contents of the idealized kernel's buffers at each boundary of its program, as the network's functions of the
  launch arguments.  The boundaries are: the launch (0), after each projection region (1, 2), after the first
  stretch of host operations (3), after each hidden-layer region (4, 5), after the second stretch (6), after each
  last-layer region (7, 8).  A buffer that a step does not write keeps its contents through it — a region writes
  only its output array, a stretch only its operations' results — so an argument array holds its launch contents at
  every boundary, and each computed array holds from its step on what that step left: a projection region the
  projection of its operands, a stretch the segment sums and the columns of reciprocal counts, a layer region the
  layer of its operands, where the product with the column of reciprocals is rewritten as the division by the column
  of counts (no count is zero).  The last boundary's contents of the two result buffers are the network's two
  results.
-/
import proofs.«174023_j26113401160011_1_alg».proof.Proof.Gen.KernelIdeal.Frame
import proofs.«174023_j26113401160011_1_alg».proof.Proof.KReg0
import proofs.«174023_j26113401160011_1_alg».proof.Proof.KReg1
import proofs.«174023_j26113401160011_1_alg».proof.Proof.KReg2
import proofs.«174023_j26113401160011_1_alg».proof.Proof.KReg3
import proofs.«174023_j26113401160011_1_alg».proof.Proof.KReg4
import proofs.«174023_j26113401160011_1_alg».proof.Proof.KReg5
import proofs.«174023_j26113401160011_1_alg».proof.Proof.KHost

set_option maxRecDepth 16384

noncomputable section

namespace Cert.KernelIdeal.Value

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Hetero Cert.KernelIdeal.Host

variable (m : (ℓ : Loc nD τ sig) → Buf (Elt Ideal) ℓ) (ρ : Dev nD → PrngReg)

/-- No operation of the named stretch writes the buffer: each operation's result buffer is another one. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem at0_arg0 (c : Dev nD) : W0 m ρ c (Proc.devRef .tc main_arg0) = (m ((c : Thread nD τ).loc main_arg0)) := rfl
/-- Region 0 leaves the users' projection in its output array. -/
theorem at1_v0 (c : Dev nD) : W1 m ρ c (Proc.devRef .tc main_v0) = (Net.hu (m ((c : Thread nD τ).loc main_arg0)) (m ((c : Thread nD τ).loc main_arg4)) (m ((c : Thread nD τ).loc main_arg5))) :=
  (W1_arr m ρ c 3).trans (Reg0.final (V0 m ρ) c)
theorem at0_arg1 (c : Dev nD) : W0 m ρ c (Proc.devRef .tc main_arg1) = (m ((c : Thread nD τ).loc main_arg1)) := rfl
theorem s1_arg1 (c : Dev nD) : W1 m ρ c (Proc.devRef .tc main_arg1) = W0 m ρ c (Proc.devRef .tc main_arg1) := W1_of_ne m ρ c main_arg1 (by decide)
theorem at1_arg1 (c : Dev nD) : W1 m ρ c (Proc.devRef .tc main_arg1) = (m ((c : Thread nD τ).loc main_arg1)) := (s1_arg1 m ρ c).trans (at0_arg1 m ρ c)
theorem at0_arg6 (c : Dev nD) : W0 m ρ c (Proc.devRef .tc main_arg6) = (m ((c : Thread nD τ).loc main_arg6)) := rfl
theorem s1_arg6 (c : Dev nD) : W1 m ρ c (Proc.devRef .tc main_arg6) = W0 m ρ c (Proc.devRef .tc main_arg6) := W1_of_ne m ρ c main_arg6 (by decide)
theorem at1_arg6 (c : Dev nD) : W1 m ρ c (Proc.devRef .tc main_arg6) = (m ((c : Thread nD τ).loc main_arg6)) := (s1_arg6 m ρ c).trans (at0_arg6 m ρ c)
theorem at0_arg7 (c : Dev nD) : W0 m ρ c (Proc.devRef .tc main_arg7) = (m ((c : Thread nD τ).loc main_arg7)) := rfl
theorem s1_arg7 (c : Dev nD) : W1 m ρ c (Proc.devRef .tc main_arg7) = W0 m ρ c (Proc.devRef .tc main_arg7) := W1_of_ne m ρ c main_arg7 (by decide)
theorem at1_arg7 (c : Dev nD) : W1 m ρ c (Proc.devRef .tc main_arg7) = (m ((c : Thread nD τ).loc main_arg7)) := (s1_arg7 m ρ c).trans (at0_arg7 m ρ c)
/-- Region 1 leaves the items' projection in its output array. -/
theorem at2_v1 (c : Dev nD) : W2 m ρ c (Proc.devRef .tc main_v1) = (Net.hi (m ((c : Thread nD τ).loc main_arg1)) (m ((c : Thread nD τ).loc main_arg6)) (m ((c : Thread nD τ).loc main_arg7))) := by
  refine (W2_arr m ρ c 3).trans ((Reg1.final (V1 m ρ) c).trans ?_)
  show proj (W1 m ρ c (Proc.devRef .tc main_arg1)) (W1 m ρ c (Proc.devRef .tc main_arg6)) (W1 m ρ c (Proc.devRef .tc main_arg7)) = _
  rw [at1_arg1 m ρ c, at1_arg6 m ρ c, at1_arg7 m ρ c]
  rfl
theorem s2_v0 (c : Dev nD) : W2 m ρ c (Proc.devRef .tc main_v0) = W1 m ρ c (Proc.devRef .tc main_v0) := W2_of_ne m ρ c main_v0 (by decide)
theorem at2_v0 (c : Dev nD) : W2 m ρ c (Proc.devRef .tc main_v0) = (Net.hu (m ((c : Thread nD τ).loc main_arg0)) (m ((c : Thread nD τ).loc main_arg4)) (m ((c : Thread nD τ).loc main_arg5))) := (s2_v0 m ρ c).trans (at1_v0 m ρ c)
theorem at0_arg2 (c : Dev nD) : W0 m ρ c (Proc.devRef .tc main_arg2) = (m ((c : Thread nD τ).loc main_arg2)) := rfl
theorem s1_arg2 (c : Dev nD) : W1 m ρ c (Proc.devRef .tc main_arg2) = W0 m ρ c (Proc.devRef .tc main_arg2) := W1_of_ne m ρ c main_arg2 (by decide)
theorem at1_arg2 (c : Dev nD) : W1 m ρ c (Proc.devRef .tc main_arg2) = (m ((c : Thread nD τ).loc main_arg2)) := (s1_arg2 m ρ c).trans (at0_arg2 m ρ c)
theorem s2_arg2 (c : Dev nD) : W2 m ρ c (Proc.devRef .tc main_arg2) = W1 m ρ c (Proc.devRef .tc main_arg2) := W2_of_ne m ρ c main_arg2 (by decide)
theorem at2_arg2 (c : Dev nD) : W2 m ρ c (Proc.devRef .tc main_arg2) = (m ((c : Thread nD τ).loc main_arg2)) := (s2_arg2 m ρ c).trans (at1_arg2 m ρ c)
theorem at3_v15 (c : Dev nD) : W3 m ρ c (Proc.devRef .tc main_v15) = (Net.seg (Net.hu (m ((c : Thread nD τ).loc main_arg0)) (m ((c : Thread nD τ).loc main_arg4)) (m ((c : Thread nD τ).loc main_arg5))) (m ((c : Thread nD τ).loc main_arg2))) := by
  refine (seg_hostOps2_v15 (W2 m ρ c)).trans ?_
  rw [at2_v0 m ρ c, at2_arg2 m ρ c]
theorem pw3_v24 (c : Dev nD) (p : Fin 100000) :
    W3 m ρ c (Proc.devRef .tc main_v24) (ix2 p (0 : Fin 1)) = Ideal.div 1 (Net.cmax (m ((c : Thread nD τ).loc main_arg2)) (ix2 p (0 : Fin 1))) := by
  refine (recip_hostOps2_v24 (W2 m ρ c) p).trans ?_
  rw [at2_arg2 m ρ c]
theorem at0_arg3 (c : Dev nD) : W0 m ρ c (Proc.devRef .tc main_arg3) = (m ((c : Thread nD τ).loc main_arg3)) := rfl
theorem s1_arg3 (c : Dev nD) : W1 m ρ c (Proc.devRef .tc main_arg3) = W0 m ρ c (Proc.devRef .tc main_arg3) := W1_of_ne m ρ c main_arg3 (by decide)
theorem at1_arg3 (c : Dev nD) : W1 m ρ c (Proc.devRef .tc main_arg3) = (m ((c : Thread nD τ).loc main_arg3)) := (s1_arg3 m ρ c).trans (at0_arg3 m ρ c)
theorem s2_arg3 (c : Dev nD) : W2 m ρ c (Proc.devRef .tc main_arg3) = W1 m ρ c (Proc.devRef .tc main_arg3) := W2_of_ne m ρ c main_arg3 (by decide)
theorem at2_arg3 (c : Dev nD) : W2 m ρ c (Proc.devRef .tc main_arg3) = (m ((c : Thread nD τ).loc main_arg3)) := (s2_arg3 m ρ c).trans (at1_arg3 m ρ c)
theorem at3_v38 (c : Dev nD) : W3 m ρ c (Proc.devRef .tc main_v38) = (Net.seg (Net.hi (m ((c : Thread nD τ).loc main_arg1)) (m ((c : Thread nD τ).loc main_arg6)) (m ((c : Thread nD τ).loc main_arg7))) (m ((c : Thread nD τ).loc main_arg3))) := by
  refine (seg_hostOps2_v38 (W2 m ρ c)).trans ?_
  rw [at2_v1 m ρ c, at2_arg3 m ρ c]
theorem pw3_v47 (c : Dev nD) (p : Fin 100000) :
    W3 m ρ c (Proc.devRef .tc main_v47) (ix2 p (0 : Fin 1)) = Ideal.div 1 (Net.cmax (m ((c : Thread nD τ).loc main_arg3)) (ix2 p (0 : Fin 1))) := by
  refine (recip_hostOps2_v47 (W2 m ρ c) p).trans ?_
  rw [at2_arg3 m ρ c]
theorem s3_v1 (c : Dev nD) : W3 m ρ c (Proc.devRef .tc main_v1) = W2 m ρ c (Proc.devRef .tc main_v1) := by keeps hostOps2
theorem at3_v1 (c : Dev nD) : W3 m ρ c (Proc.devRef .tc main_v1) = (Net.hi (m ((c : Thread nD τ).loc main_arg1)) (m ((c : Thread nD τ).loc main_arg6)) (m ((c : Thread nD τ).loc main_arg7))) := (s3_v1 m ρ c).trans (at2_v1 m ρ c)
theorem at0_arg8 (c : Dev nD) : W0 m ρ c (Proc.devRef .tc main_arg8) = (m ((c : Thread nD τ).loc main_arg8)) := rfl
theorem s1_arg8 (c : Dev nD) : W1 m ρ c (Proc.devRef .tc main_arg8) = W0 m ρ c (Proc.devRef .tc main_arg8) := W1_of_ne m ρ c main_arg8 (by decide)
theorem at1_arg8 (c : Dev nD) : W1 m ρ c (Proc.devRef .tc main_arg8) = (m ((c : Thread nD τ).loc main_arg8)) := (s1_arg8 m ρ c).trans (at0_arg8 m ρ c)
theorem s2_arg8 (c : Dev nD) : W2 m ρ c (Proc.devRef .tc main_arg8) = W1 m ρ c (Proc.devRef .tc main_arg8) := W2_of_ne m ρ c main_arg8 (by decide)
theorem at2_arg8 (c : Dev nD) : W2 m ρ c (Proc.devRef .tc main_arg8) = (m ((c : Thread nD τ).loc main_arg8)) := (s2_arg8 m ρ c).trans (at1_arg8 m ρ c)
theorem s3_arg8 (c : Dev nD) : W3 m ρ c (Proc.devRef .tc main_arg8) = W2 m ρ c (Proc.devRef .tc main_arg8) := by keeps hostOps2
theorem at3_arg8 (c : Dev nD) : W3 m ρ c (Proc.devRef .tc main_arg8) = (m ((c : Thread nD τ).loc main_arg8)) := (s3_arg8 m ρ c).trans (at2_arg8 m ρ c)
theorem at0_arg10 (c : Dev nD) : W0 m ρ c (Proc.devRef .tc main_arg10) = (m ((c : Thread nD τ).loc main_arg10)) := rfl
theorem s1_arg10 (c : Dev nD) : W1 m ρ c (Proc.devRef .tc main_arg10) = W0 m ρ c (Proc.devRef .tc main_arg10) := W1_of_ne m ρ c main_arg10 (by decide)
theorem at1_arg10 (c : Dev nD) : W1 m ρ c (Proc.devRef .tc main_arg10) = (m ((c : Thread nD τ).loc main_arg10)) := (s1_arg10 m ρ c).trans (at0_arg10 m ρ c)
theorem s2_arg10 (c : Dev nD) : W2 m ρ c (Proc.devRef .tc main_arg10) = W1 m ρ c (Proc.devRef .tc main_arg10) := W2_of_ne m ρ c main_arg10 (by decide)
theorem at2_arg10 (c : Dev nD) : W2 m ρ c (Proc.devRef .tc main_arg10) = (m ((c : Thread nD τ).loc main_arg10)) := (s2_arg10 m ρ c).trans (at1_arg10 m ρ c)
theorem s3_arg10 (c : Dev nD) : W3 m ρ c (Proc.devRef .tc main_arg10) = W2 m ρ c (Proc.devRef .tc main_arg10) := by keeps hostOps2
theorem at3_arg10 (c : Dev nD) : W3 m ρ c (Proc.devRef .tc main_arg10) = (m ((c : Thread nD τ).loc main_arg10)) := (s3_arg10 m ρ c).trans (at2_arg10 m ρ c)
theorem at0_arg9 (c : Dev nD) : W0 m ρ c (Proc.devRef .tc main_arg9) = (m ((c : Thread nD τ).loc main_arg9)) := rfl
theorem s1_arg9 (c : Dev nD) : W1 m ρ c (Proc.devRef .tc main_arg9) = W0 m ρ c (Proc.devRef .tc main_arg9) := W1_of_ne m ρ c main_arg9 (by decide)
theorem at1_arg9 (c : Dev nD) : W1 m ρ c (Proc.devRef .tc main_arg9) = (m ((c : Thread nD τ).loc main_arg9)) := (s1_arg9 m ρ c).trans (at0_arg9 m ρ c)
theorem s2_arg9 (c : Dev nD) : W2 m ρ c (Proc.devRef .tc main_arg9) = W1 m ρ c (Proc.devRef .tc main_arg9) := W2_of_ne m ρ c main_arg9 (by decide)
theorem at2_arg9 (c : Dev nD) : W2 m ρ c (Proc.devRef .tc main_arg9) = (m ((c : Thread nD τ).loc main_arg9)) := (s2_arg9 m ρ c).trans (at1_arg9 m ρ c)
theorem s3_arg9 (c : Dev nD) : W3 m ρ c (Proc.devRef .tc main_arg9) = W2 m ρ c (Proc.devRef .tc main_arg9) := by keeps hostOps2
theorem at3_arg9 (c : Dev nD) : W3 m ρ c (Proc.devRef .tc main_arg9) = (m ((c : Thread nD τ).loc main_arg9)) := (s3_arg9 m ρ c).trans (at2_arg9 m ρ c)
theorem at0_arg16 (c : Dev nD) : W0 m ρ c (Proc.devRef .tc main_arg16) = (m ((c : Thread nD τ).loc main_arg16)) := rfl
theorem s1_arg16 (c : Dev nD) : W1 m ρ c (Proc.devRef .tc main_arg16) = W0 m ρ c (Proc.devRef .tc main_arg16) := W1_of_ne m ρ c main_arg16 (by decide)
theorem at1_arg16 (c : Dev nD) : W1 m ρ c (Proc.devRef .tc main_arg16) = (m ((c : Thread nD τ).loc main_arg16)) := (s1_arg16 m ρ c).trans (at0_arg16 m ρ c)
theorem s2_arg16 (c : Dev nD) : W2 m ρ c (Proc.devRef .tc main_arg16) = W1 m ρ c (Proc.devRef .tc main_arg16) := W2_of_ne m ρ c main_arg16 (by decide)
theorem at2_arg16 (c : Dev nD) : W2 m ρ c (Proc.devRef .tc main_arg16) = (m ((c : Thread nD τ).loc main_arg16)) := (s2_arg16 m ρ c).trans (at1_arg16 m ρ c)
theorem s3_arg16 (c : Dev nD) : W3 m ρ c (Proc.devRef .tc main_arg16) = W2 m ρ c (Proc.devRef .tc main_arg16) := by keeps hostOps2
theorem at3_arg16 (c : Dev nD) : W3 m ρ c (Proc.devRef .tc main_arg16) = (m ((c : Thread nD τ).loc main_arg16)) := (s3_arg16 m ρ c).trans (at2_arg16 m ρ c)
theorem at0_arg17 (c : Dev nD) : W0 m ρ c (Proc.devRef .tc main_arg17) = (m ((c : Thread nD τ).loc main_arg17)) := rfl
theorem s1_arg17 (c : Dev nD) : W1 m ρ c (Proc.devRef .tc main_arg17) = W0 m ρ c (Proc.devRef .tc main_arg17) := W1_of_ne m ρ c main_arg17 (by decide)
theorem at1_arg17 (c : Dev nD) : W1 m ρ c (Proc.devRef .tc main_arg17) = (m ((c : Thread nD τ).loc main_arg17)) := (s1_arg17 m ρ c).trans (at0_arg17 m ρ c)
theorem s2_arg17 (c : Dev nD) : W2 m ρ c (Proc.devRef .tc main_arg17) = W1 m ρ c (Proc.devRef .tc main_arg17) := W2_of_ne m ρ c main_arg17 (by decide)
theorem at2_arg17 (c : Dev nD) : W2 m ρ c (Proc.devRef .tc main_arg17) = (m ((c : Thread nD τ).loc main_arg17)) := (s2_arg17 m ρ c).trans (at1_arg17 m ρ c)
theorem s3_arg17 (c : Dev nD) : W3 m ρ c (Proc.devRef .tc main_arg17) = W2 m ρ c (Proc.devRef .tc main_arg17) := by keeps hostOps2
theorem at3_arg17 (c : Dev nD) : W3 m ρ c (Proc.devRef .tc main_arg17) = (m ((c : Thread nD τ).loc main_arg17)) := (s3_arg17 m ρ c).trans (at2_arg17 m ρ c)
/-- Region 2 leaves its layer in its output array: the kernel's product with the column of reciprocals is the
    division by the column of counts, no count being zero. -/
theorem at4_v48 (c : Dev nD) : W4 m ρ c (Proc.devRef .tc main_v48) = (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) := by
  refine (W4_arr m ρ c 8).trans ((Reg2.final (V3 m ρ) c).trans ?_)
  show layerRelu _ _ (aggMul (W3 m ρ c (Proc.devRef .tc main_v15)) (W3 m ρ c (Proc.devRef .tc main_v24))) (W3 m ρ c (Proc.devRef .tc main_v1)) (W3 m ρ c (Proc.devRef .tc main_arg8)) (W3 m ρ c (Proc.devRef .tc main_arg10)) (W3 m ρ c (Proc.devRef .tc main_arg9)) (W3 m ρ c (Proc.devRef .tc main_arg16)) (W3 m ρ c (Proc.devRef .tc main_arg17)) = _
  rw [aggMul_eq_aggDiv _ _ (Net.cmax (m ((c : Thread nD τ).loc main_arg2))) (fun p => ⟨pw3_v24 m ρ c p, cmax_ne _ p⟩),
    at3_v15 m ρ c, at3_v1 m ρ c, at3_arg8 m ρ c, at3_arg10 m ρ c, at3_arg9 m ρ c, at3_arg16 m ρ c, at3_arg17 m ρ c]
  rfl
theorem s4_v38 (c : Dev nD) : W4 m ρ c (Proc.devRef .tc main_v38) = W3 m ρ c (Proc.devRef .tc main_v38) := W4_of_ne m ρ c main_v38 (by decide)
theorem at4_v38 (c : Dev nD) : W4 m ρ c (Proc.devRef .tc main_v38) = (Net.seg (Net.hi (m ((c : Thread nD τ).loc main_arg1)) (m ((c : Thread nD τ).loc main_arg6)) (m ((c : Thread nD τ).loc main_arg7))) (m ((c : Thread nD τ).loc main_arg3))) := (s4_v38 m ρ c).trans (at3_v38 m ρ c)
theorem s3_v0 (c : Dev nD) : W3 m ρ c (Proc.devRef .tc main_v0) = W2 m ρ c (Proc.devRef .tc main_v0) := by keeps hostOps2
theorem at3_v0 (c : Dev nD) : W3 m ρ c (Proc.devRef .tc main_v0) = (Net.hu (m ((c : Thread nD τ).loc main_arg0)) (m ((c : Thread nD τ).loc main_arg4)) (m ((c : Thread nD τ).loc main_arg5))) := (s3_v0 m ρ c).trans (at2_v0 m ρ c)
theorem s4_v0 (c : Dev nD) : W4 m ρ c (Proc.devRef .tc main_v0) = W3 m ρ c (Proc.devRef .tc main_v0) := W4_of_ne m ρ c main_v0 (by decide)
theorem at4_v0 (c : Dev nD) : W4 m ρ c (Proc.devRef .tc main_v0) = (Net.hu (m ((c : Thread nD τ).loc main_arg0)) (m ((c : Thread nD τ).loc main_arg4)) (m ((c : Thread nD τ).loc main_arg5))) := (s4_v0 m ρ c).trans (at3_v0 m ρ c)
theorem at0_arg11 (c : Dev nD) : W0 m ρ c (Proc.devRef .tc main_arg11) = (m ((c : Thread nD τ).loc main_arg11)) := rfl
theorem s1_arg11 (c : Dev nD) : W1 m ρ c (Proc.devRef .tc main_arg11) = W0 m ρ c (Proc.devRef .tc main_arg11) := W1_of_ne m ρ c main_arg11 (by decide)
theorem at1_arg11 (c : Dev nD) : W1 m ρ c (Proc.devRef .tc main_arg11) = (m ((c : Thread nD τ).loc main_arg11)) := (s1_arg11 m ρ c).trans (at0_arg11 m ρ c)
theorem s2_arg11 (c : Dev nD) : W2 m ρ c (Proc.devRef .tc main_arg11) = W1 m ρ c (Proc.devRef .tc main_arg11) := W2_of_ne m ρ c main_arg11 (by decide)
theorem at2_arg11 (c : Dev nD) : W2 m ρ c (Proc.devRef .tc main_arg11) = (m ((c : Thread nD τ).loc main_arg11)) := (s2_arg11 m ρ c).trans (at1_arg11 m ρ c)
theorem s3_arg11 (c : Dev nD) : W3 m ρ c (Proc.devRef .tc main_arg11) = W2 m ρ c (Proc.devRef .tc main_arg11) := by keeps hostOps2
theorem at3_arg11 (c : Dev nD) : W3 m ρ c (Proc.devRef .tc main_arg11) = (m ((c : Thread nD τ).loc main_arg11)) := (s3_arg11 m ρ c).trans (at2_arg11 m ρ c)
theorem s4_arg11 (c : Dev nD) : W4 m ρ c (Proc.devRef .tc main_arg11) = W3 m ρ c (Proc.devRef .tc main_arg11) := W4_of_ne m ρ c main_arg11 (by decide)
theorem at4_arg11 (c : Dev nD) : W4 m ρ c (Proc.devRef .tc main_arg11) = (m ((c : Thread nD τ).loc main_arg11)) := (s4_arg11 m ρ c).trans (at3_arg11 m ρ c)
theorem at0_arg13 (c : Dev nD) : W0 m ρ c (Proc.devRef .tc main_arg13) = (m ((c : Thread nD τ).loc main_arg13)) := rfl
theorem s1_arg13 (c : Dev nD) : W1 m ρ c (Proc.devRef .tc main_arg13) = W0 m ρ c (Proc.devRef .tc main_arg13) := W1_of_ne m ρ c main_arg13 (by decide)
theorem at1_arg13 (c : Dev nD) : W1 m ρ c (Proc.devRef .tc main_arg13) = (m ((c : Thread nD τ).loc main_arg13)) := (s1_arg13 m ρ c).trans (at0_arg13 m ρ c)
theorem s2_arg13 (c : Dev nD) : W2 m ρ c (Proc.devRef .tc main_arg13) = W1 m ρ c (Proc.devRef .tc main_arg13) := W2_of_ne m ρ c main_arg13 (by decide)
theorem at2_arg13 (c : Dev nD) : W2 m ρ c (Proc.devRef .tc main_arg13) = (m ((c : Thread nD τ).loc main_arg13)) := (s2_arg13 m ρ c).trans (at1_arg13 m ρ c)
theorem s3_arg13 (c : Dev nD) : W3 m ρ c (Proc.devRef .tc main_arg13) = W2 m ρ c (Proc.devRef .tc main_arg13) := by keeps hostOps2
theorem at3_arg13 (c : Dev nD) : W3 m ρ c (Proc.devRef .tc main_arg13) = (m ((c : Thread nD τ).loc main_arg13)) := (s3_arg13 m ρ c).trans (at2_arg13 m ρ c)
theorem s4_arg13 (c : Dev nD) : W4 m ρ c (Proc.devRef .tc main_arg13) = W3 m ρ c (Proc.devRef .tc main_arg13) := W4_of_ne m ρ c main_arg13 (by decide)
theorem at4_arg13 (c : Dev nD) : W4 m ρ c (Proc.devRef .tc main_arg13) = (m ((c : Thread nD τ).loc main_arg13)) := (s4_arg13 m ρ c).trans (at3_arg13 m ρ c)
theorem at0_arg12 (c : Dev nD) : W0 m ρ c (Proc.devRef .tc main_arg12) = (m ((c : Thread nD τ).loc main_arg12)) := rfl
theorem s1_arg12 (c : Dev nD) : W1 m ρ c (Proc.devRef .tc main_arg12) = W0 m ρ c (Proc.devRef .tc main_arg12) := W1_of_ne m ρ c main_arg12 (by decide)
theorem at1_arg12 (c : Dev nD) : W1 m ρ c (Proc.devRef .tc main_arg12) = (m ((c : Thread nD τ).loc main_arg12)) := (s1_arg12 m ρ c).trans (at0_arg12 m ρ c)
theorem s2_arg12 (c : Dev nD) : W2 m ρ c (Proc.devRef .tc main_arg12) = W1 m ρ c (Proc.devRef .tc main_arg12) := W2_of_ne m ρ c main_arg12 (by decide)
theorem at2_arg12 (c : Dev nD) : W2 m ρ c (Proc.devRef .tc main_arg12) = (m ((c : Thread nD τ).loc main_arg12)) := (s2_arg12 m ρ c).trans (at1_arg12 m ρ c)
theorem s3_arg12 (c : Dev nD) : W3 m ρ c (Proc.devRef .tc main_arg12) = W2 m ρ c (Proc.devRef .tc main_arg12) := by keeps hostOps2
theorem at3_arg12 (c : Dev nD) : W3 m ρ c (Proc.devRef .tc main_arg12) = (m ((c : Thread nD τ).loc main_arg12)) := (s3_arg12 m ρ c).trans (at2_arg12 m ρ c)
theorem s4_arg12 (c : Dev nD) : W4 m ρ c (Proc.devRef .tc main_arg12) = W3 m ρ c (Proc.devRef .tc main_arg12) := W4_of_ne m ρ c main_arg12 (by decide)
theorem at4_arg12 (c : Dev nD) : W4 m ρ c (Proc.devRef .tc main_arg12) = (m ((c : Thread nD τ).loc main_arg12)) := (s4_arg12 m ρ c).trans (at3_arg12 m ρ c)
theorem at0_arg14 (c : Dev nD) : W0 m ρ c (Proc.devRef .tc main_arg14) = (m ((c : Thread nD τ).loc main_arg14)) := rfl
theorem s1_arg14 (c : Dev nD) : W1 m ρ c (Proc.devRef .tc main_arg14) = W0 m ρ c (Proc.devRef .tc main_arg14) := W1_of_ne m ρ c main_arg14 (by decide)
theorem at1_arg14 (c : Dev nD) : W1 m ρ c (Proc.devRef .tc main_arg14) = (m ((c : Thread nD τ).loc main_arg14)) := (s1_arg14 m ρ c).trans (at0_arg14 m ρ c)
theorem s2_arg14 (c : Dev nD) : W2 m ρ c (Proc.devRef .tc main_arg14) = W1 m ρ c (Proc.devRef .tc main_arg14) := W2_of_ne m ρ c main_arg14 (by decide)
theorem at2_arg14 (c : Dev nD) : W2 m ρ c (Proc.devRef .tc main_arg14) = (m ((c : Thread nD τ).loc main_arg14)) := (s2_arg14 m ρ c).trans (at1_arg14 m ρ c)
theorem s3_arg14 (c : Dev nD) : W3 m ρ c (Proc.devRef .tc main_arg14) = W2 m ρ c (Proc.devRef .tc main_arg14) := by keeps hostOps2
theorem at3_arg14 (c : Dev nD) : W3 m ρ c (Proc.devRef .tc main_arg14) = (m ((c : Thread nD τ).loc main_arg14)) := (s3_arg14 m ρ c).trans (at2_arg14 m ρ c)
theorem s4_arg14 (c : Dev nD) : W4 m ρ c (Proc.devRef .tc main_arg14) = W3 m ρ c (Proc.devRef .tc main_arg14) := W4_of_ne m ρ c main_arg14 (by decide)
theorem at4_arg14 (c : Dev nD) : W4 m ρ c (Proc.devRef .tc main_arg14) = (m ((c : Thread nD τ).loc main_arg14)) := (s4_arg14 m ρ c).trans (at3_arg14 m ρ c)
theorem at0_arg15 (c : Dev nD) : W0 m ρ c (Proc.devRef .tc main_arg15) = (m ((c : Thread nD τ).loc main_arg15)) := rfl
theorem s1_arg15 (c : Dev nD) : W1 m ρ c (Proc.devRef .tc main_arg15) = W0 m ρ c (Proc.devRef .tc main_arg15) := W1_of_ne m ρ c main_arg15 (by decide)
theorem at1_arg15 (c : Dev nD) : W1 m ρ c (Proc.devRef .tc main_arg15) = (m ((c : Thread nD τ).loc main_arg15)) := (s1_arg15 m ρ c).trans (at0_arg15 m ρ c)
theorem s2_arg15 (c : Dev nD) : W2 m ρ c (Proc.devRef .tc main_arg15) = W1 m ρ c (Proc.devRef .tc main_arg15) := W2_of_ne m ρ c main_arg15 (by decide)
theorem at2_arg15 (c : Dev nD) : W2 m ρ c (Proc.devRef .tc main_arg15) = (m ((c : Thread nD τ).loc main_arg15)) := (s2_arg15 m ρ c).trans (at1_arg15 m ρ c)
theorem s3_arg15 (c : Dev nD) : W3 m ρ c (Proc.devRef .tc main_arg15) = W2 m ρ c (Proc.devRef .tc main_arg15) := by keeps hostOps2
theorem at3_arg15 (c : Dev nD) : W3 m ρ c (Proc.devRef .tc main_arg15) = (m ((c : Thread nD τ).loc main_arg15)) := (s3_arg15 m ρ c).trans (at2_arg15 m ρ c)
theorem s4_arg15 (c : Dev nD) : W4 m ρ c (Proc.devRef .tc main_arg15) = W3 m ρ c (Proc.devRef .tc main_arg15) := W4_of_ne m ρ c main_arg15 (by decide)
theorem at4_arg15 (c : Dev nD) : W4 m ρ c (Proc.devRef .tc main_arg15) = (m ((c : Thread nD τ).loc main_arg15)) := (s4_arg15 m ρ c).trans (at3_arg15 m ρ c)
theorem s4_v47 (c : Dev nD) : W4 m ρ c (Proc.devRef .tc main_v47) = W3 m ρ c (Proc.devRef .tc main_v47) := W4_of_ne m ρ c main_v47 (by decide)
theorem pw4_v47 (c : Dev nD) (p : Fin 100000) : W4 m ρ c (Proc.devRef .tc main_v47) (ix2 p (0 : Fin 1)) = Ideal.div 1 (Net.cmax (m ((c : Thread nD τ).loc main_arg3)) (ix2 p (0 : Fin 1))) :=
  (congrFun (s4_v47 m ρ c) _).trans (pw3_v47 m ρ c p)
/-- Region 3 leaves its layer in its output array: the kernel's product with the column of reciprocals is the
    division by the column of counts, no count being zero. -/
theorem at5_v49 (c : Dev nD) : W5 m ρ c (Proc.devRef .tc main_v49) = (Net.hu1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W5_arr m ρ c 8).trans ((Reg3.final (V4 m ρ) c).trans ?_)
  show layerRelu _ _ (aggMul (W4 m ρ c (Proc.devRef .tc main_v38)) (W4 m ρ c (Proc.devRef .tc main_v47))) (W4 m ρ c (Proc.devRef .tc main_v0)) (W4 m ρ c (Proc.devRef .tc main_arg11)) (W4 m ρ c (Proc.devRef .tc main_arg13)) (W4 m ρ c (Proc.devRef .tc main_arg12)) (W4 m ρ c (Proc.devRef .tc main_arg14)) (W4 m ρ c (Proc.devRef .tc main_arg15)) = _
  rw [aggMul_eq_aggDiv _ _ (Net.cmax (m ((c : Thread nD τ).loc main_arg3))) (fun p => ⟨pw4_v47 m ρ c p, cmax_ne _ p⟩),
    at4_v38 m ρ c, at4_v0 m ρ c, at4_arg11 m ρ c, at4_arg13 m ρ c, at4_arg12 m ρ c, at4_arg14 m ρ c, at4_arg15 m ρ c]
  rfl
theorem s3_arg2 (c : Dev nD) : W3 m ρ c (Proc.devRef .tc main_arg2) = W2 m ρ c (Proc.devRef .tc main_arg2) := by keeps hostOps2
theorem at3_arg2 (c : Dev nD) : W3 m ρ c (Proc.devRef .tc main_arg2) = (m ((c : Thread nD τ).loc main_arg2)) := (s3_arg2 m ρ c).trans (at2_arg2 m ρ c)
theorem s4_arg2 (c : Dev nD) : W4 m ρ c (Proc.devRef .tc main_arg2) = W3 m ρ c (Proc.devRef .tc main_arg2) := W4_of_ne m ρ c main_arg2 (by decide)
theorem at4_arg2 (c : Dev nD) : W4 m ρ c (Proc.devRef .tc main_arg2) = (m ((c : Thread nD τ).loc main_arg2)) := (s4_arg2 m ρ c).trans (at3_arg2 m ρ c)
theorem s5_arg2 (c : Dev nD) : W5 m ρ c (Proc.devRef .tc main_arg2) = W4 m ρ c (Proc.devRef .tc main_arg2) := W5_of_ne m ρ c main_arg2 (by decide)
theorem at5_arg2 (c : Dev nD) : W5 m ρ c (Proc.devRef .tc main_arg2) = (m ((c : Thread nD τ).loc main_arg2)) := (s5_arg2 m ρ c).trans (at4_arg2 m ρ c)
theorem at6_v63 (c : Dev nD) : W6 m ρ c (Proc.devRef .tc main_v63) = (Net.seg (Net.hu1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg2))) := by
  refine (seg_hostOps4_v63 (W5 m ρ c)).trans ?_
  rw [at5_v49 m ρ c, at5_arg2 m ρ c]
theorem pw6_v72 (c : Dev nD) (p : Fin 100000) :
    W6 m ρ c (Proc.devRef .tc main_v72) (ix2 p (0 : Fin 1)) = Ideal.div 1 (Net.cmax (m ((c : Thread nD τ).loc main_arg2)) (ix2 p (0 : Fin 1))) := by
  refine (recip_hostOps4_v72 (W5 m ρ c) p).trans ?_
  rw [at5_arg2 m ρ c]
theorem s5_v48 (c : Dev nD) : W5 m ρ c (Proc.devRef .tc main_v48) = W4 m ρ c (Proc.devRef .tc main_v48) := W5_of_ne m ρ c main_v48 (by decide)
theorem at5_v48 (c : Dev nD) : W5 m ρ c (Proc.devRef .tc main_v48) = (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) := (s5_v48 m ρ c).trans (at4_v48 m ρ c)
theorem s3_arg3 (c : Dev nD) : W3 m ρ c (Proc.devRef .tc main_arg3) = W2 m ρ c (Proc.devRef .tc main_arg3) := by keeps hostOps2
theorem at3_arg3 (c : Dev nD) : W3 m ρ c (Proc.devRef .tc main_arg3) = (m ((c : Thread nD τ).loc main_arg3)) := (s3_arg3 m ρ c).trans (at2_arg3 m ρ c)
theorem s4_arg3 (c : Dev nD) : W4 m ρ c (Proc.devRef .tc main_arg3) = W3 m ρ c (Proc.devRef .tc main_arg3) := W4_of_ne m ρ c main_arg3 (by decide)
theorem at4_arg3 (c : Dev nD) : W4 m ρ c (Proc.devRef .tc main_arg3) = (m ((c : Thread nD τ).loc main_arg3)) := (s4_arg3 m ρ c).trans (at3_arg3 m ρ c)
theorem s5_arg3 (c : Dev nD) : W5 m ρ c (Proc.devRef .tc main_arg3) = W4 m ρ c (Proc.devRef .tc main_arg3) := W5_of_ne m ρ c main_arg3 (by decide)
theorem at5_arg3 (c : Dev nD) : W5 m ρ c (Proc.devRef .tc main_arg3) = (m ((c : Thread nD τ).loc main_arg3)) := (s5_arg3 m ρ c).trans (at4_arg3 m ρ c)
theorem at6_v86 (c : Dev nD) : W6 m ρ c (Proc.devRef .tc main_v86) = (Net.seg (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) (m ((c : Thread nD τ).loc main_arg3))) := by
  refine (seg_hostOps4_v86 (W5 m ρ c)).trans ?_
  rw [at5_v48 m ρ c, at5_arg3 m ρ c]
theorem pw6_v95 (c : Dev nD) (p : Fin 100000) :
    W6 m ρ c (Proc.devRef .tc main_v95) (ix2 p (0 : Fin 1)) = Ideal.div 1 (Net.cmax (m ((c : Thread nD τ).loc main_arg3)) (ix2 p (0 : Fin 1))) := by
  refine (recip_hostOps4_v95 (W5 m ρ c) p).trans ?_
  rw [at5_arg3 m ρ c]
theorem s6_v48 (c : Dev nD) : W6 m ρ c (Proc.devRef .tc main_v48) = W5 m ρ c (Proc.devRef .tc main_v48) := by keeps hostOps4
theorem at6_v48 (c : Dev nD) : W6 m ρ c (Proc.devRef .tc main_v48) = (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) := (s6_v48 m ρ c).trans (at5_v48 m ρ c)
theorem at0_arg18 (c : Dev nD) : W0 m ρ c (Proc.devRef .tc main_arg18) = (m ((c : Thread nD τ).loc main_arg18)) := rfl
theorem s1_arg18 (c : Dev nD) : W1 m ρ c (Proc.devRef .tc main_arg18) = W0 m ρ c (Proc.devRef .tc main_arg18) := W1_of_ne m ρ c main_arg18 (by decide)
theorem at1_arg18 (c : Dev nD) : W1 m ρ c (Proc.devRef .tc main_arg18) = (m ((c : Thread nD τ).loc main_arg18)) := (s1_arg18 m ρ c).trans (at0_arg18 m ρ c)
theorem s2_arg18 (c : Dev nD) : W2 m ρ c (Proc.devRef .tc main_arg18) = W1 m ρ c (Proc.devRef .tc main_arg18) := W2_of_ne m ρ c main_arg18 (by decide)
theorem at2_arg18 (c : Dev nD) : W2 m ρ c (Proc.devRef .tc main_arg18) = (m ((c : Thread nD τ).loc main_arg18)) := (s2_arg18 m ρ c).trans (at1_arg18 m ρ c)
theorem s3_arg18 (c : Dev nD) : W3 m ρ c (Proc.devRef .tc main_arg18) = W2 m ρ c (Proc.devRef .tc main_arg18) := by keeps hostOps2
theorem at3_arg18 (c : Dev nD) : W3 m ρ c (Proc.devRef .tc main_arg18) = (m ((c : Thread nD τ).loc main_arg18)) := (s3_arg18 m ρ c).trans (at2_arg18 m ρ c)
theorem s4_arg18 (c : Dev nD) : W4 m ρ c (Proc.devRef .tc main_arg18) = W3 m ρ c (Proc.devRef .tc main_arg18) := W4_of_ne m ρ c main_arg18 (by decide)
theorem at4_arg18 (c : Dev nD) : W4 m ρ c (Proc.devRef .tc main_arg18) = (m ((c : Thread nD τ).loc main_arg18)) := (s4_arg18 m ρ c).trans (at3_arg18 m ρ c)
theorem s5_arg18 (c : Dev nD) : W5 m ρ c (Proc.devRef .tc main_arg18) = W4 m ρ c (Proc.devRef .tc main_arg18) := W5_of_ne m ρ c main_arg18 (by decide)
theorem at5_arg18 (c : Dev nD) : W5 m ρ c (Proc.devRef .tc main_arg18) = (m ((c : Thread nD τ).loc main_arg18)) := (s5_arg18 m ρ c).trans (at4_arg18 m ρ c)
theorem s6_arg18 (c : Dev nD) : W6 m ρ c (Proc.devRef .tc main_arg18) = W5 m ρ c (Proc.devRef .tc main_arg18) := by keeps hostOps4
theorem at6_arg18 (c : Dev nD) : W6 m ρ c (Proc.devRef .tc main_arg18) = (m ((c : Thread nD τ).loc main_arg18)) := (s6_arg18 m ρ c).trans (at5_arg18 m ρ c)
theorem at0_arg20 (c : Dev nD) : W0 m ρ c (Proc.devRef .tc main_arg20) = (m ((c : Thread nD τ).loc main_arg20)) := rfl
theorem s1_arg20 (c : Dev nD) : W1 m ρ c (Proc.devRef .tc main_arg20) = W0 m ρ c (Proc.devRef .tc main_arg20) := W1_of_ne m ρ c main_arg20 (by decide)
theorem at1_arg20 (c : Dev nD) : W1 m ρ c (Proc.devRef .tc main_arg20) = (m ((c : Thread nD τ).loc main_arg20)) := (s1_arg20 m ρ c).trans (at0_arg20 m ρ c)
theorem s2_arg20 (c : Dev nD) : W2 m ρ c (Proc.devRef .tc main_arg20) = W1 m ρ c (Proc.devRef .tc main_arg20) := W2_of_ne m ρ c main_arg20 (by decide)
theorem at2_arg20 (c : Dev nD) : W2 m ρ c (Proc.devRef .tc main_arg20) = (m ((c : Thread nD τ).loc main_arg20)) := (s2_arg20 m ρ c).trans (at1_arg20 m ρ c)
theorem s3_arg20 (c : Dev nD) : W3 m ρ c (Proc.devRef .tc main_arg20) = W2 m ρ c (Proc.devRef .tc main_arg20) := by keeps hostOps2
theorem at3_arg20 (c : Dev nD) : W3 m ρ c (Proc.devRef .tc main_arg20) = (m ((c : Thread nD τ).loc main_arg20)) := (s3_arg20 m ρ c).trans (at2_arg20 m ρ c)
theorem s4_arg20 (c : Dev nD) : W4 m ρ c (Proc.devRef .tc main_arg20) = W3 m ρ c (Proc.devRef .tc main_arg20) := W4_of_ne m ρ c main_arg20 (by decide)
theorem at4_arg20 (c : Dev nD) : W4 m ρ c (Proc.devRef .tc main_arg20) = (m ((c : Thread nD τ).loc main_arg20)) := (s4_arg20 m ρ c).trans (at3_arg20 m ρ c)
theorem s5_arg20 (c : Dev nD) : W5 m ρ c (Proc.devRef .tc main_arg20) = W4 m ρ c (Proc.devRef .tc main_arg20) := W5_of_ne m ρ c main_arg20 (by decide)
theorem at5_arg20 (c : Dev nD) : W5 m ρ c (Proc.devRef .tc main_arg20) = (m ((c : Thread nD τ).loc main_arg20)) := (s5_arg20 m ρ c).trans (at4_arg20 m ρ c)
theorem s6_arg20 (c : Dev nD) : W6 m ρ c (Proc.devRef .tc main_arg20) = W5 m ρ c (Proc.devRef .tc main_arg20) := by keeps hostOps4
theorem at6_arg20 (c : Dev nD) : W6 m ρ c (Proc.devRef .tc main_arg20) = (m ((c : Thread nD τ).loc main_arg20)) := (s6_arg20 m ρ c).trans (at5_arg20 m ρ c)
theorem at0_arg19 (c : Dev nD) : W0 m ρ c (Proc.devRef .tc main_arg19) = (m ((c : Thread nD τ).loc main_arg19)) := rfl
theorem s1_arg19 (c : Dev nD) : W1 m ρ c (Proc.devRef .tc main_arg19) = W0 m ρ c (Proc.devRef .tc main_arg19) := W1_of_ne m ρ c main_arg19 (by decide)
theorem at1_arg19 (c : Dev nD) : W1 m ρ c (Proc.devRef .tc main_arg19) = (m ((c : Thread nD τ).loc main_arg19)) := (s1_arg19 m ρ c).trans (at0_arg19 m ρ c)
theorem s2_arg19 (c : Dev nD) : W2 m ρ c (Proc.devRef .tc main_arg19) = W1 m ρ c (Proc.devRef .tc main_arg19) := W2_of_ne m ρ c main_arg19 (by decide)
theorem at2_arg19 (c : Dev nD) : W2 m ρ c (Proc.devRef .tc main_arg19) = (m ((c : Thread nD τ).loc main_arg19)) := (s2_arg19 m ρ c).trans (at1_arg19 m ρ c)
theorem s3_arg19 (c : Dev nD) : W3 m ρ c (Proc.devRef .tc main_arg19) = W2 m ρ c (Proc.devRef .tc main_arg19) := by keeps hostOps2
theorem at3_arg19 (c : Dev nD) : W3 m ρ c (Proc.devRef .tc main_arg19) = (m ((c : Thread nD τ).loc main_arg19)) := (s3_arg19 m ρ c).trans (at2_arg19 m ρ c)
theorem s4_arg19 (c : Dev nD) : W4 m ρ c (Proc.devRef .tc main_arg19) = W3 m ρ c (Proc.devRef .tc main_arg19) := W4_of_ne m ρ c main_arg19 (by decide)
theorem at4_arg19 (c : Dev nD) : W4 m ρ c (Proc.devRef .tc main_arg19) = (m ((c : Thread nD τ).loc main_arg19)) := (s4_arg19 m ρ c).trans (at3_arg19 m ρ c)
theorem s5_arg19 (c : Dev nD) : W5 m ρ c (Proc.devRef .tc main_arg19) = W4 m ρ c (Proc.devRef .tc main_arg19) := W5_of_ne m ρ c main_arg19 (by decide)
theorem at5_arg19 (c : Dev nD) : W5 m ρ c (Proc.devRef .tc main_arg19) = (m ((c : Thread nD τ).loc main_arg19)) := (s5_arg19 m ρ c).trans (at4_arg19 m ρ c)
theorem s6_arg19 (c : Dev nD) : W6 m ρ c (Proc.devRef .tc main_arg19) = W5 m ρ c (Proc.devRef .tc main_arg19) := by keeps hostOps4
theorem at6_arg19 (c : Dev nD) : W6 m ρ c (Proc.devRef .tc main_arg19) = (m ((c : Thread nD τ).loc main_arg19)) := (s6_arg19 m ρ c).trans (at5_arg19 m ρ c)
theorem at0_arg26 (c : Dev nD) : W0 m ρ c (Proc.devRef .tc main_arg26) = (m ((c : Thread nD τ).loc main_arg26)) := rfl
theorem s1_arg26 (c : Dev nD) : W1 m ρ c (Proc.devRef .tc main_arg26) = W0 m ρ c (Proc.devRef .tc main_arg26) := W1_of_ne m ρ c main_arg26 (by decide)
theorem at1_arg26 (c : Dev nD) : W1 m ρ c (Proc.devRef .tc main_arg26) = (m ((c : Thread nD τ).loc main_arg26)) := (s1_arg26 m ρ c).trans (at0_arg26 m ρ c)
theorem s2_arg26 (c : Dev nD) : W2 m ρ c (Proc.devRef .tc main_arg26) = W1 m ρ c (Proc.devRef .tc main_arg26) := W2_of_ne m ρ c main_arg26 (by decide)
theorem at2_arg26 (c : Dev nD) : W2 m ρ c (Proc.devRef .tc main_arg26) = (m ((c : Thread nD τ).loc main_arg26)) := (s2_arg26 m ρ c).trans (at1_arg26 m ρ c)
theorem s3_arg26 (c : Dev nD) : W3 m ρ c (Proc.devRef .tc main_arg26) = W2 m ρ c (Proc.devRef .tc main_arg26) := by keeps hostOps2
theorem at3_arg26 (c : Dev nD) : W3 m ρ c (Proc.devRef .tc main_arg26) = (m ((c : Thread nD τ).loc main_arg26)) := (s3_arg26 m ρ c).trans (at2_arg26 m ρ c)
theorem s4_arg26 (c : Dev nD) : W4 m ρ c (Proc.devRef .tc main_arg26) = W3 m ρ c (Proc.devRef .tc main_arg26) := W4_of_ne m ρ c main_arg26 (by decide)
theorem at4_arg26 (c : Dev nD) : W4 m ρ c (Proc.devRef .tc main_arg26) = (m ((c : Thread nD τ).loc main_arg26)) := (s4_arg26 m ρ c).trans (at3_arg26 m ρ c)
theorem s5_arg26 (c : Dev nD) : W5 m ρ c (Proc.devRef .tc main_arg26) = W4 m ρ c (Proc.devRef .tc main_arg26) := W5_of_ne m ρ c main_arg26 (by decide)
theorem at5_arg26 (c : Dev nD) : W5 m ρ c (Proc.devRef .tc main_arg26) = (m ((c : Thread nD τ).loc main_arg26)) := (s5_arg26 m ρ c).trans (at4_arg26 m ρ c)
theorem s6_arg26 (c : Dev nD) : W6 m ρ c (Proc.devRef .tc main_arg26) = W5 m ρ c (Proc.devRef .tc main_arg26) := by keeps hostOps4
theorem at6_arg26 (c : Dev nD) : W6 m ρ c (Proc.devRef .tc main_arg26) = (m ((c : Thread nD τ).loc main_arg26)) := (s6_arg26 m ρ c).trans (at5_arg26 m ρ c)
theorem at0_arg27 (c : Dev nD) : W0 m ρ c (Proc.devRef .tc main_arg27) = (m ((c : Thread nD τ).loc main_arg27)) := rfl
theorem s1_arg27 (c : Dev nD) : W1 m ρ c (Proc.devRef .tc main_arg27) = W0 m ρ c (Proc.devRef .tc main_arg27) := W1_of_ne m ρ c main_arg27 (by decide)
theorem at1_arg27 (c : Dev nD) : W1 m ρ c (Proc.devRef .tc main_arg27) = (m ((c : Thread nD τ).loc main_arg27)) := (s1_arg27 m ρ c).trans (at0_arg27 m ρ c)
theorem s2_arg27 (c : Dev nD) : W2 m ρ c (Proc.devRef .tc main_arg27) = W1 m ρ c (Proc.devRef .tc main_arg27) := W2_of_ne m ρ c main_arg27 (by decide)
theorem at2_arg27 (c : Dev nD) : W2 m ρ c (Proc.devRef .tc main_arg27) = (m ((c : Thread nD τ).loc main_arg27)) := (s2_arg27 m ρ c).trans (at1_arg27 m ρ c)
theorem s3_arg27 (c : Dev nD) : W3 m ρ c (Proc.devRef .tc main_arg27) = W2 m ρ c (Proc.devRef .tc main_arg27) := by keeps hostOps2
theorem at3_arg27 (c : Dev nD) : W3 m ρ c (Proc.devRef .tc main_arg27) = (m ((c : Thread nD τ).loc main_arg27)) := (s3_arg27 m ρ c).trans (at2_arg27 m ρ c)
theorem s4_arg27 (c : Dev nD) : W4 m ρ c (Proc.devRef .tc main_arg27) = W3 m ρ c (Proc.devRef .tc main_arg27) := W4_of_ne m ρ c main_arg27 (by decide)
theorem at4_arg27 (c : Dev nD) : W4 m ρ c (Proc.devRef .tc main_arg27) = (m ((c : Thread nD τ).loc main_arg27)) := (s4_arg27 m ρ c).trans (at3_arg27 m ρ c)
theorem s5_arg27 (c : Dev nD) : W5 m ρ c (Proc.devRef .tc main_arg27) = W4 m ρ c (Proc.devRef .tc main_arg27) := W5_of_ne m ρ c main_arg27 (by decide)
theorem at5_arg27 (c : Dev nD) : W5 m ρ c (Proc.devRef .tc main_arg27) = (m ((c : Thread nD τ).loc main_arg27)) := (s5_arg27 m ρ c).trans (at4_arg27 m ρ c)
theorem s6_arg27 (c : Dev nD) : W6 m ρ c (Proc.devRef .tc main_arg27) = W5 m ρ c (Proc.devRef .tc main_arg27) := by keeps hostOps4
theorem at6_arg27 (c : Dev nD) : W6 m ρ c (Proc.devRef .tc main_arg27) = (m ((c : Thread nD τ).loc main_arg27)) := (s6_arg27 m ρ c).trans (at5_arg27 m ρ c)
/-- Region 4 leaves its layer in its output array: the kernel's product with the column of reciprocals is the
    division by the column of counts, no count being zero. -/
theorem at7_v96 (c : Dev nD) : W7 m ρ c (Proc.devRef .tc main_v96) = (Net.last (Net.hu1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))) (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) (m ((c : Thread nD τ).loc main_arg2)) (m ((c : Thread nD τ).loc main_arg18)) (m ((c : Thread nD τ).loc main_arg20)) (m ((c : Thread nD τ).loc main_arg19)) (m ((c : Thread nD τ).loc main_arg26)) (m ((c : Thread nD τ).loc main_arg27))) := by
  refine (W7_arr m ρ c 8).trans ((Reg4.final (V6 m ρ) c).trans ?_)
  show layer _ _ (aggMul (W6 m ρ c (Proc.devRef .tc main_v63)) (W6 m ρ c (Proc.devRef .tc main_v72))) (W6 m ρ c (Proc.devRef .tc main_v48)) (W6 m ρ c (Proc.devRef .tc main_arg18)) (W6 m ρ c (Proc.devRef .tc main_arg20)) (W6 m ρ c (Proc.devRef .tc main_arg19)) (W6 m ρ c (Proc.devRef .tc main_arg26)) (W6 m ρ c (Proc.devRef .tc main_arg27)) = _
  rw [aggMul_eq_aggDiv _ _ (Net.cmax (m ((c : Thread nD τ).loc main_arg2))) (fun p => ⟨pw6_v72 m ρ c p, cmax_ne _ p⟩),
    at6_v63 m ρ c, at6_v48 m ρ c, at6_arg18 m ρ c, at6_arg20 m ρ c, at6_arg19 m ρ c, at6_arg26 m ρ c, at6_arg27 m ρ c]
  rfl
theorem s7_v86 (c : Dev nD) : W7 m ρ c (Proc.devRef .tc main_v86) = W6 m ρ c (Proc.devRef .tc main_v86) := W7_of_ne m ρ c main_v86 (by decide)
theorem at7_v86 (c : Dev nD) : W7 m ρ c (Proc.devRef .tc main_v86) = (Net.seg (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) (m ((c : Thread nD τ).loc main_arg3))) := (s7_v86 m ρ c).trans (at6_v86 m ρ c)
theorem s6_v49 (c : Dev nD) : W6 m ρ c (Proc.devRef .tc main_v49) = W5 m ρ c (Proc.devRef .tc main_v49) := by keeps hostOps4
theorem at6_v49 (c : Dev nD) : W6 m ρ c (Proc.devRef .tc main_v49) = (Net.hu1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))) := (s6_v49 m ρ c).trans (at5_v49 m ρ c)
theorem s7_v49 (c : Dev nD) : W7 m ρ c (Proc.devRef .tc main_v49) = W6 m ρ c (Proc.devRef .tc main_v49) := W7_of_ne m ρ c main_v49 (by decide)
theorem at7_v49 (c : Dev nD) : W7 m ρ c (Proc.devRef .tc main_v49) = (Net.hu1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))) := (s7_v49 m ρ c).trans (at6_v49 m ρ c)
theorem at0_arg21 (c : Dev nD) : W0 m ρ c (Proc.devRef .tc main_arg21) = (m ((c : Thread nD τ).loc main_arg21)) := rfl
theorem s1_arg21 (c : Dev nD) : W1 m ρ c (Proc.devRef .tc main_arg21) = W0 m ρ c (Proc.devRef .tc main_arg21) := W1_of_ne m ρ c main_arg21 (by decide)
theorem at1_arg21 (c : Dev nD) : W1 m ρ c (Proc.devRef .tc main_arg21) = (m ((c : Thread nD τ).loc main_arg21)) := (s1_arg21 m ρ c).trans (at0_arg21 m ρ c)
theorem s2_arg21 (c : Dev nD) : W2 m ρ c (Proc.devRef .tc main_arg21) = W1 m ρ c (Proc.devRef .tc main_arg21) := W2_of_ne m ρ c main_arg21 (by decide)
theorem at2_arg21 (c : Dev nD) : W2 m ρ c (Proc.devRef .tc main_arg21) = (m ((c : Thread nD τ).loc main_arg21)) := (s2_arg21 m ρ c).trans (at1_arg21 m ρ c)
theorem s3_arg21 (c : Dev nD) : W3 m ρ c (Proc.devRef .tc main_arg21) = W2 m ρ c (Proc.devRef .tc main_arg21) := by keeps hostOps2
theorem at3_arg21 (c : Dev nD) : W3 m ρ c (Proc.devRef .tc main_arg21) = (m ((c : Thread nD τ).loc main_arg21)) := (s3_arg21 m ρ c).trans (at2_arg21 m ρ c)
theorem s4_arg21 (c : Dev nD) : W4 m ρ c (Proc.devRef .tc main_arg21) = W3 m ρ c (Proc.devRef .tc main_arg21) := W4_of_ne m ρ c main_arg21 (by decide)
theorem at4_arg21 (c : Dev nD) : W4 m ρ c (Proc.devRef .tc main_arg21) = (m ((c : Thread nD τ).loc main_arg21)) := (s4_arg21 m ρ c).trans (at3_arg21 m ρ c)
theorem s5_arg21 (c : Dev nD) : W5 m ρ c (Proc.devRef .tc main_arg21) = W4 m ρ c (Proc.devRef .tc main_arg21) := W5_of_ne m ρ c main_arg21 (by decide)
theorem at5_arg21 (c : Dev nD) : W5 m ρ c (Proc.devRef .tc main_arg21) = (m ((c : Thread nD τ).loc main_arg21)) := (s5_arg21 m ρ c).trans (at4_arg21 m ρ c)
theorem s6_arg21 (c : Dev nD) : W6 m ρ c (Proc.devRef .tc main_arg21) = W5 m ρ c (Proc.devRef .tc main_arg21) := by keeps hostOps4
theorem at6_arg21 (c : Dev nD) : W6 m ρ c (Proc.devRef .tc main_arg21) = (m ((c : Thread nD τ).loc main_arg21)) := (s6_arg21 m ρ c).trans (at5_arg21 m ρ c)
theorem s7_arg21 (c : Dev nD) : W7 m ρ c (Proc.devRef .tc main_arg21) = W6 m ρ c (Proc.devRef .tc main_arg21) := W7_of_ne m ρ c main_arg21 (by decide)
theorem at7_arg21 (c : Dev nD) : W7 m ρ c (Proc.devRef .tc main_arg21) = (m ((c : Thread nD τ).loc main_arg21)) := (s7_arg21 m ρ c).trans (at6_arg21 m ρ c)
theorem at0_arg23 (c : Dev nD) : W0 m ρ c (Proc.devRef .tc main_arg23) = (m ((c : Thread nD τ).loc main_arg23)) := rfl
theorem s1_arg23 (c : Dev nD) : W1 m ρ c (Proc.devRef .tc main_arg23) = W0 m ρ c (Proc.devRef .tc main_arg23) := W1_of_ne m ρ c main_arg23 (by decide)
theorem at1_arg23 (c : Dev nD) : W1 m ρ c (Proc.devRef .tc main_arg23) = (m ((c : Thread nD τ).loc main_arg23)) := (s1_arg23 m ρ c).trans (at0_arg23 m ρ c)
theorem s2_arg23 (c : Dev nD) : W2 m ρ c (Proc.devRef .tc main_arg23) = W1 m ρ c (Proc.devRef .tc main_arg23) := W2_of_ne m ρ c main_arg23 (by decide)
theorem at2_arg23 (c : Dev nD) : W2 m ρ c (Proc.devRef .tc main_arg23) = (m ((c : Thread nD τ).loc main_arg23)) := (s2_arg23 m ρ c).trans (at1_arg23 m ρ c)
theorem s3_arg23 (c : Dev nD) : W3 m ρ c (Proc.devRef .tc main_arg23) = W2 m ρ c (Proc.devRef .tc main_arg23) := by keeps hostOps2
theorem at3_arg23 (c : Dev nD) : W3 m ρ c (Proc.devRef .tc main_arg23) = (m ((c : Thread nD τ).loc main_arg23)) := (s3_arg23 m ρ c).trans (at2_arg23 m ρ c)
theorem s4_arg23 (c : Dev nD) : W4 m ρ c (Proc.devRef .tc main_arg23) = W3 m ρ c (Proc.devRef .tc main_arg23) := W4_of_ne m ρ c main_arg23 (by decide)
theorem at4_arg23 (c : Dev nD) : W4 m ρ c (Proc.devRef .tc main_arg23) = (m ((c : Thread nD τ).loc main_arg23)) := (s4_arg23 m ρ c).trans (at3_arg23 m ρ c)
theorem s5_arg23 (c : Dev nD) : W5 m ρ c (Proc.devRef .tc main_arg23) = W4 m ρ c (Proc.devRef .tc main_arg23) := W5_of_ne m ρ c main_arg23 (by decide)
theorem at5_arg23 (c : Dev nD) : W5 m ρ c (Proc.devRef .tc main_arg23) = (m ((c : Thread nD τ).loc main_arg23)) := (s5_arg23 m ρ c).trans (at4_arg23 m ρ c)
theorem s6_arg23 (c : Dev nD) : W6 m ρ c (Proc.devRef .tc main_arg23) = W5 m ρ c (Proc.devRef .tc main_arg23) := by keeps hostOps4
theorem at6_arg23 (c : Dev nD) : W6 m ρ c (Proc.devRef .tc main_arg23) = (m ((c : Thread nD τ).loc main_arg23)) := (s6_arg23 m ρ c).trans (at5_arg23 m ρ c)
theorem s7_arg23 (c : Dev nD) : W7 m ρ c (Proc.devRef .tc main_arg23) = W6 m ρ c (Proc.devRef .tc main_arg23) := W7_of_ne m ρ c main_arg23 (by decide)
theorem at7_arg23 (c : Dev nD) : W7 m ρ c (Proc.devRef .tc main_arg23) = (m ((c : Thread nD τ).loc main_arg23)) := (s7_arg23 m ρ c).trans (at6_arg23 m ρ c)
theorem at0_arg22 (c : Dev nD) : W0 m ρ c (Proc.devRef .tc main_arg22) = (m ((c : Thread nD τ).loc main_arg22)) := rfl
theorem s1_arg22 (c : Dev nD) : W1 m ρ c (Proc.devRef .tc main_arg22) = W0 m ρ c (Proc.devRef .tc main_arg22) := W1_of_ne m ρ c main_arg22 (by decide)
theorem at1_arg22 (c : Dev nD) : W1 m ρ c (Proc.devRef .tc main_arg22) = (m ((c : Thread nD τ).loc main_arg22)) := (s1_arg22 m ρ c).trans (at0_arg22 m ρ c)
theorem s2_arg22 (c : Dev nD) : W2 m ρ c (Proc.devRef .tc main_arg22) = W1 m ρ c (Proc.devRef .tc main_arg22) := W2_of_ne m ρ c main_arg22 (by decide)
theorem at2_arg22 (c : Dev nD) : W2 m ρ c (Proc.devRef .tc main_arg22) = (m ((c : Thread nD τ).loc main_arg22)) := (s2_arg22 m ρ c).trans (at1_arg22 m ρ c)
theorem s3_arg22 (c : Dev nD) : W3 m ρ c (Proc.devRef .tc main_arg22) = W2 m ρ c (Proc.devRef .tc main_arg22) := by keeps hostOps2
theorem at3_arg22 (c : Dev nD) : W3 m ρ c (Proc.devRef .tc main_arg22) = (m ((c : Thread nD τ).loc main_arg22)) := (s3_arg22 m ρ c).trans (at2_arg22 m ρ c)
theorem s4_arg22 (c : Dev nD) : W4 m ρ c (Proc.devRef .tc main_arg22) = W3 m ρ c (Proc.devRef .tc main_arg22) := W4_of_ne m ρ c main_arg22 (by decide)
theorem at4_arg22 (c : Dev nD) : W4 m ρ c (Proc.devRef .tc main_arg22) = (m ((c : Thread nD τ).loc main_arg22)) := (s4_arg22 m ρ c).trans (at3_arg22 m ρ c)
theorem s5_arg22 (c : Dev nD) : W5 m ρ c (Proc.devRef .tc main_arg22) = W4 m ρ c (Proc.devRef .tc main_arg22) := W5_of_ne m ρ c main_arg22 (by decide)
theorem at5_arg22 (c : Dev nD) : W5 m ρ c (Proc.devRef .tc main_arg22) = (m ((c : Thread nD τ).loc main_arg22)) := (s5_arg22 m ρ c).trans (at4_arg22 m ρ c)
theorem s6_arg22 (c : Dev nD) : W6 m ρ c (Proc.devRef .tc main_arg22) = W5 m ρ c (Proc.devRef .tc main_arg22) := by keeps hostOps4
theorem at6_arg22 (c : Dev nD) : W6 m ρ c (Proc.devRef .tc main_arg22) = (m ((c : Thread nD τ).loc main_arg22)) := (s6_arg22 m ρ c).trans (at5_arg22 m ρ c)
theorem s7_arg22 (c : Dev nD) : W7 m ρ c (Proc.devRef .tc main_arg22) = W6 m ρ c (Proc.devRef .tc main_arg22) := W7_of_ne m ρ c main_arg22 (by decide)
theorem at7_arg22 (c : Dev nD) : W7 m ρ c (Proc.devRef .tc main_arg22) = (m ((c : Thread nD τ).loc main_arg22)) := (s7_arg22 m ρ c).trans (at6_arg22 m ρ c)
theorem at0_arg24 (c : Dev nD) : W0 m ρ c (Proc.devRef .tc main_arg24) = (m ((c : Thread nD τ).loc main_arg24)) := rfl
theorem s1_arg24 (c : Dev nD) : W1 m ρ c (Proc.devRef .tc main_arg24) = W0 m ρ c (Proc.devRef .tc main_arg24) := W1_of_ne m ρ c main_arg24 (by decide)
theorem at1_arg24 (c : Dev nD) : W1 m ρ c (Proc.devRef .tc main_arg24) = (m ((c : Thread nD τ).loc main_arg24)) := (s1_arg24 m ρ c).trans (at0_arg24 m ρ c)
theorem s2_arg24 (c : Dev nD) : W2 m ρ c (Proc.devRef .tc main_arg24) = W1 m ρ c (Proc.devRef .tc main_arg24) := W2_of_ne m ρ c main_arg24 (by decide)
theorem at2_arg24 (c : Dev nD) : W2 m ρ c (Proc.devRef .tc main_arg24) = (m ((c : Thread nD τ).loc main_arg24)) := (s2_arg24 m ρ c).trans (at1_arg24 m ρ c)
theorem s3_arg24 (c : Dev nD) : W3 m ρ c (Proc.devRef .tc main_arg24) = W2 m ρ c (Proc.devRef .tc main_arg24) := by keeps hostOps2
theorem at3_arg24 (c : Dev nD) : W3 m ρ c (Proc.devRef .tc main_arg24) = (m ((c : Thread nD τ).loc main_arg24)) := (s3_arg24 m ρ c).trans (at2_arg24 m ρ c)
theorem s4_arg24 (c : Dev nD) : W4 m ρ c (Proc.devRef .tc main_arg24) = W3 m ρ c (Proc.devRef .tc main_arg24) := W4_of_ne m ρ c main_arg24 (by decide)
theorem at4_arg24 (c : Dev nD) : W4 m ρ c (Proc.devRef .tc main_arg24) = (m ((c : Thread nD τ).loc main_arg24)) := (s4_arg24 m ρ c).trans (at3_arg24 m ρ c)
theorem s5_arg24 (c : Dev nD) : W5 m ρ c (Proc.devRef .tc main_arg24) = W4 m ρ c (Proc.devRef .tc main_arg24) := W5_of_ne m ρ c main_arg24 (by decide)
theorem at5_arg24 (c : Dev nD) : W5 m ρ c (Proc.devRef .tc main_arg24) = (m ((c : Thread nD τ).loc main_arg24)) := (s5_arg24 m ρ c).trans (at4_arg24 m ρ c)
theorem s6_arg24 (c : Dev nD) : W6 m ρ c (Proc.devRef .tc main_arg24) = W5 m ρ c (Proc.devRef .tc main_arg24) := by keeps hostOps4
theorem at6_arg24 (c : Dev nD) : W6 m ρ c (Proc.devRef .tc main_arg24) = (m ((c : Thread nD τ).loc main_arg24)) := (s6_arg24 m ρ c).trans (at5_arg24 m ρ c)
theorem s7_arg24 (c : Dev nD) : W7 m ρ c (Proc.devRef .tc main_arg24) = W6 m ρ c (Proc.devRef .tc main_arg24) := W7_of_ne m ρ c main_arg24 (by decide)
theorem at7_arg24 (c : Dev nD) : W7 m ρ c (Proc.devRef .tc main_arg24) = (m ((c : Thread nD τ).loc main_arg24)) := (s7_arg24 m ρ c).trans (at6_arg24 m ρ c)
theorem at0_arg25 (c : Dev nD) : W0 m ρ c (Proc.devRef .tc main_arg25) = (m ((c : Thread nD τ).loc main_arg25)) := rfl
theorem s1_arg25 (c : Dev nD) : W1 m ρ c (Proc.devRef .tc main_arg25) = W0 m ρ c (Proc.devRef .tc main_arg25) := W1_of_ne m ρ c main_arg25 (by decide)
theorem at1_arg25 (c : Dev nD) : W1 m ρ c (Proc.devRef .tc main_arg25) = (m ((c : Thread nD τ).loc main_arg25)) := (s1_arg25 m ρ c).trans (at0_arg25 m ρ c)
theorem s2_arg25 (c : Dev nD) : W2 m ρ c (Proc.devRef .tc main_arg25) = W1 m ρ c (Proc.devRef .tc main_arg25) := W2_of_ne m ρ c main_arg25 (by decide)
theorem at2_arg25 (c : Dev nD) : W2 m ρ c (Proc.devRef .tc main_arg25) = (m ((c : Thread nD τ).loc main_arg25)) := (s2_arg25 m ρ c).trans (at1_arg25 m ρ c)
theorem s3_arg25 (c : Dev nD) : W3 m ρ c (Proc.devRef .tc main_arg25) = W2 m ρ c (Proc.devRef .tc main_arg25) := by keeps hostOps2
theorem at3_arg25 (c : Dev nD) : W3 m ρ c (Proc.devRef .tc main_arg25) = (m ((c : Thread nD τ).loc main_arg25)) := (s3_arg25 m ρ c).trans (at2_arg25 m ρ c)
theorem s4_arg25 (c : Dev nD) : W4 m ρ c (Proc.devRef .tc main_arg25) = W3 m ρ c (Proc.devRef .tc main_arg25) := W4_of_ne m ρ c main_arg25 (by decide)
theorem at4_arg25 (c : Dev nD) : W4 m ρ c (Proc.devRef .tc main_arg25) = (m ((c : Thread nD τ).loc main_arg25)) := (s4_arg25 m ρ c).trans (at3_arg25 m ρ c)
theorem s5_arg25 (c : Dev nD) : W5 m ρ c (Proc.devRef .tc main_arg25) = W4 m ρ c (Proc.devRef .tc main_arg25) := W5_of_ne m ρ c main_arg25 (by decide)
theorem at5_arg25 (c : Dev nD) : W5 m ρ c (Proc.devRef .tc main_arg25) = (m ((c : Thread nD τ).loc main_arg25)) := (s5_arg25 m ρ c).trans (at4_arg25 m ρ c)
theorem s6_arg25 (c : Dev nD) : W6 m ρ c (Proc.devRef .tc main_arg25) = W5 m ρ c (Proc.devRef .tc main_arg25) := by keeps hostOps4
theorem at6_arg25 (c : Dev nD) : W6 m ρ c (Proc.devRef .tc main_arg25) = (m ((c : Thread nD τ).loc main_arg25)) := (s6_arg25 m ρ c).trans (at5_arg25 m ρ c)
theorem s7_arg25 (c : Dev nD) : W7 m ρ c (Proc.devRef .tc main_arg25) = W6 m ρ c (Proc.devRef .tc main_arg25) := W7_of_ne m ρ c main_arg25 (by decide)
theorem at7_arg25 (c : Dev nD) : W7 m ρ c (Proc.devRef .tc main_arg25) = (m ((c : Thread nD τ).loc main_arg25)) := (s7_arg25 m ρ c).trans (at6_arg25 m ρ c)
theorem s7_v95 (c : Dev nD) : W7 m ρ c (Proc.devRef .tc main_v95) = W6 m ρ c (Proc.devRef .tc main_v95) := W7_of_ne m ρ c main_v95 (by decide)
theorem pw7_v95 (c : Dev nD) (p : Fin 100000) : W7 m ρ c (Proc.devRef .tc main_v95) (ix2 p (0 : Fin 1)) = Ideal.div 1 (Net.cmax (m ((c : Thread nD τ).loc main_arg3)) (ix2 p (0 : Fin 1))) :=
  (congrFun (s7_v95 m ρ c) _).trans (pw6_v95 m ρ c p)
/-- Region 5 leaves its layer in its output array: the kernel's product with the column of reciprocals is the
    division by the column of counts, no count being zero. -/
theorem at8_v97 (c : Dev nD) : W8 m ρ c (Proc.devRef .tc main_v97) = (Net.last (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) (Net.hu1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg3)) (m ((c : Thread nD τ).loc main_arg21)) (m ((c : Thread nD τ).loc main_arg23)) (m ((c : Thread nD τ).loc main_arg22)) (m ((c : Thread nD τ).loc main_arg24)) (m ((c : Thread nD τ).loc main_arg25))) := by
  refine (W8_arr m ρ c 8).trans ((Reg5.final (V7 m ρ) c).trans ?_)
  show layer _ _ (aggMul (W7 m ρ c (Proc.devRef .tc main_v86)) (W7 m ρ c (Proc.devRef .tc main_v95))) (W7 m ρ c (Proc.devRef .tc main_v49)) (W7 m ρ c (Proc.devRef .tc main_arg21)) (W7 m ρ c (Proc.devRef .tc main_arg23)) (W7 m ρ c (Proc.devRef .tc main_arg22)) (W7 m ρ c (Proc.devRef .tc main_arg24)) (W7 m ρ c (Proc.devRef .tc main_arg25)) = _
  rw [aggMul_eq_aggDiv _ _ (Net.cmax (m ((c : Thread nD τ).loc main_arg3))) (fun p => ⟨pw7_v95 m ρ c p, cmax_ne _ p⟩),
    at7_v86 m ρ c, at7_v49 m ρ c, at7_arg21 m ρ c, at7_arg23 m ρ c, at7_arg22 m ρ c, at7_arg24 m ρ c, at7_arg25 m ρ c]
  rfl
theorem s8_v96 (c : Dev nD) : W8 m ρ c (Proc.devRef .tc main_v96) = W7 m ρ c (Proc.devRef .tc main_v96) := W8_of_ne m ρ c main_v96 (by decide)
theorem at8_v96 (c : Dev nD) : W8 m ρ c (Proc.devRef .tc main_v96) = (Net.last (Net.hu1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15))) (Net.hi1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17))) (m ((c : Thread nD τ).loc main_arg2)) (m ((c : Thread nD τ).loc main_arg18)) (m ((c : Thread nD τ).loc main_arg20)) (m ((c : Thread nD τ).loc main_arg19)) (m ((c : Thread nD τ).loc main_arg26)) (m ((c : Thread nD τ).loc main_arg27))) := (s8_v96 m ρ c).trans (at7_v96 m ρ c)

end Cert.KernelIdeal.Value

end
-- ==== Proof.RefValue.lean ====
/-
  The reference program computes the network function.

  The reference is a straight line of whole-array operations.  Read one operation at a time it is: the two input
  projections (a product, a bias repeated along the rows, the maximum with a repeated zero); for each edge list the
  gather of the source rows and the accumulating scatter to the destinations from a zero array, the count of edges
  per destination kept as a column with the maximum with one, and the division of the sums by that column repeated
  along the rows; the linear part of a layer (the mean's product with one weight matrix, a bias, the node's own
  features' product with another); and the normalisation of every row (row sums kept as a column over the width,
  the deviations, their squares summed the same way, ε, the reciprocal square root, a gain and a shift), followed
  in the hidden layer by the maximum with zero.

  Each of these is one of the entry-by-entry readings of `Cert.Hetero`, so every stage of the reference is the
  corresponding function of `Cert.Net` of the earlier stages.  The second edge list and the second layer repeat the
  index arithmetic, the zero array and the count column as separate operations; those repeats are the same
  functions of the edge list as the first ones, being the same operations applied in the same order.  Nothing of
  the arithmetic of the extended reals is used.
-/
import proofs.«174023_j26113401160011_1_alg».proof.Proof.Net

noncomputable section

namespace Cert.RefValue

open Idealize.ShloMosaic Idealize.ShloMosaic.ValueIdx Cert.ReferenceIdeal Cert.ReferenceIdeal.Read Cert.Hetero Cert.Net

variable (x0 : FVec Ideal S100000x96 .f32) (x1 : FVec Ideal S100000x160 .f32) (x2 x3 : Edges)
  (x4 : FVec Ideal S96x128 .f32) (x5 : FVec Ideal S128 .f32) (x6 : FVec Ideal S160x128 .f32) (x7 : FVec Ideal S128 .f32)
  (x8 : FVec Ideal S128x128 .f32) (x9 : FVec Ideal S128 .f32) (x10 x11 : FVec Ideal S128x128 .f32)
  (x12 : FVec Ideal S128 .f32) (x13 : FVec Ideal S128x128 .f32) (x14 x15 x16 x17 : FVec Ideal S128 .f32)
  (x18 : FVec Ideal S128x64 .f32) (x19 : FVec Ideal S64 .f32) (x20 x21 : FVec Ideal S128x64 .f32)
  (x22 : FVec Ideal S64 .f32) (x23 : FVec Ideal S128x64 .f32) (x24 x25 x26 x27 : FVec Ideal S64 .f32)

/-! ## The repeated index arithmetic, zero arrays and count columns

  The source indices of an edge list are its row 0 with a negative index wrapped by the number of nodes, as a
  column; the destination indices are its row 1 as a column; the count column is the scatter of ones to the
  destinations from zeros, then the maximum with one.  The program spells each once per use; all uses are the same
  function of the edge list. -/

/-- The source column of the second edge list in the first layer. -/
theorem src_v47 (e : Edges) : val_main_v47 (F := Ideal) e = val_main_v19 (F := Ideal) e := by
  unfold val_main_v47 val_main_v46 val_main_v45 val_main_v44 val_main_c_5 val_main_v43 val_main_v42 val_main_c_4
    val_main_v39 val_main_v38 val_main_v19 val_main_v18 val_main_v17 val_main_v16 val_main_c_0 val_main_v15
    val_main_v14 val_main_c val_main_v11 val_main_v10
  rfl

/-- The source column of the first edge list in the second layer. -/
theorem src_v125 (e : Edges) : val_main_v125 (F := Ideal) e = val_main_v19 (F := Ideal) e := by
  unfold val_main_v125 val_main_v124 val_main_v123 val_main_v122 val_main_c_21 val_main_v121 val_main_v120 val_main_c_20
    val_main_v117 val_main_v116 val_main_v19 val_main_v18 val_main_v17 val_main_v16 val_main_c_0 val_main_v15
    val_main_v14 val_main_c val_main_v11 val_main_v10
  rfl

/-- The source column of the second edge list in the second layer. -/
theorem src_v153 (e : Edges) : val_main_v153 (F := Ideal) e = val_main_v19 (F := Ideal) e := by
  unfold val_main_v153 val_main_v152 val_main_v151 val_main_v150 val_main_c_27 val_main_v149 val_main_v148 val_main_c_26
    val_main_v145 val_main_v144 val_main_v19 val_main_v18 val_main_v17 val_main_v16 val_main_c_0 val_main_v15
    val_main_v14 val_main_c val_main_v11 val_main_v10
  rfl

/-- The destination columns. -/
theorem dst_v50 (e : Edges) : val_main_v50 (F := Ideal) e = val_main_v22 (F := Ideal) e := by
  unfold val_main_v50 val_main_v41 val_main_v40 val_main_v22 val_main_v13 val_main_v12
  rfl

theorem dst_v128 (e : Edges) : val_main_v128 (F := Ideal) e = val_main_v22 (F := Ideal) e := by
  unfold val_main_v128 val_main_v119 val_main_v118 val_main_v22 val_main_v13 val_main_v12
  rfl

theorem dst_v156 (e : Edges) : val_main_v156 (F := Ideal) e = val_main_v22 (F := Ideal) e := by
  unfold val_main_v156 val_main_v147 val_main_v146 val_main_v22 val_main_v13 val_main_v12
  rfl

/-- The zero arrays the scatters accumulate into. -/
theorem zero_v49 : val_main_v49 (F := Ideal) = val_main_v21 (F := Ideal) := by
  unfold val_main_v49 val_main_cst_6 val_main_v21 val_main_cst
  rfl

theorem zero_v127 : val_main_v127 (F := Ideal) = val_main_v21 (F := Ideal) := by
  unfold val_main_v127 val_main_cst_22 val_main_v21 val_main_cst
  rfl

theorem zero_v155 : val_main_v155 (F := Ideal) = val_main_v21 (F := Ideal) := by
  unfold val_main_v155 val_main_cst_28 val_main_v21 val_main_cst
  rfl

/-- The count columns. -/
theorem cnt_v57 (e : Edges) : val_main_v57 (F := Ideal) e = cmax e := by
  unfold cmax
  unfold val_main_v57 val_main_v56 val_main_cst_9 val_main_v55 val_main_v54 val_main_v53 val_main_cst_8 val_main_v52
    val_main_cst_7 val_main_v41 val_main_v40 val_main_v29 val_main_v28 val_main_cst_3 val_main_v27 val_main_v26
    val_main_v25 val_main_cst_2 val_main_v24 val_main_cst_1 val_main_v13 val_main_v12
  rfl

theorem cnt_v135 (e : Edges) : val_main_v135 (F := Ideal) e = cmax e := by
  unfold cmax
  unfold val_main_v135 val_main_v134 val_main_cst_25 val_main_v133 val_main_v132 val_main_v131 val_main_cst_24
    val_main_v130 val_main_cst_23 val_main_v119 val_main_v118 val_main_v29 val_main_v28 val_main_cst_3 val_main_v27
    val_main_v26 val_main_v25 val_main_cst_2 val_main_v24 val_main_cst_1 val_main_v13 val_main_v12
  rfl

theorem cnt_v163 (e : Edges) : val_main_v163 (F := Ideal) e = cmax e := by
  unfold cmax
  unfold val_main_v163 val_main_v162 val_main_cst_31 val_main_v161 val_main_v160 val_main_v159 val_main_cst_30
    val_main_v158 val_main_cst_29 val_main_v147 val_main_v146 val_main_v29 val_main_v28 val_main_cst_3 val_main_v27
    val_main_v26 val_main_v25 val_main_cst_2 val_main_v24 val_main_cst_1 val_main_v13 val_main_v12
  rfl

/-! ## The input projections -/
theorem proj_v4 : val_main_v4 (F := Ideal) x0 x4 x5 = hu x0 x4 x5 := by
  unfold val_main_v4 val_main_v3 val_main_v2 val_main_v1 val_main_v0 val_main_call0_v0 val_main_call0_cst
  exact host_proj dot_S100000x96_S96x128_S100000x128_1_0_0_1_n_n dot_S100000x96_S96x128_S100000x128_1_0_0_1_n_n.wf rfl
    x0 x4 x5 _ _ _
theorem proj_v9 : val_main_v9 (F := Ideal) x1 x6 x7 = hi x1 x6 x7 := by
  unfold val_main_v9 val_main_v8 val_main_v7 val_main_v6 val_main_v5 val_main_call1_v0 val_main_call1_cst
  exact host_proj dot_S100000x160_S160x128_S100000x128_1_0_0_1_n_n dot_S100000x160_S160x128_S100000x128_1_0_0_1_n_n.wf rfl
    x1 x6 x7 _ _ _

/-! ## The first layer: sums over the edges, means, linear parts, normalisation -/
theorem seg_v23 : val_main_v23 (F := Ideal) x0 x2 x4 x5 = seg (hu x0 x4 x5) x2 := by
  unfold val_main_v23 val_main_v20
  rw [proj_v4]
  rfl
theorem seg_v51 : val_main_v51 (F := Ideal) x1 x3 x6 x7 = seg (hi x1 x6 x7) x3 := by
  unfold val_main_v51 val_main_v48
  rw [proj_v9, zero_v49, dst_v50, src_v47]
  rfl
theorem agg_v31 : val_main_v31 (F := Ideal) x0 x2 x4 x5 = aggDiv (seg (hu x0 x4 x5) x2) (cmax x2) := by
  unfold val_main_v31 val_main_v30
  rw [seg_v23]
  exact host_aggDiv _ _ _
theorem agg_v59 : val_main_v59 (F := Ideal) x1 x3 x6 x7 = aggDiv (seg (hi x1 x6 x7) x3) (cmax x3) := by
  unfold val_main_v59 val_main_v58
  rw [seg_v51, cnt_v57]
  exact host_aggDiv _ _ _
theorem lin_v37 (p : Fin 100000) (k : Fin 128) :
    val_main_v37 (F := Ideal) x0 x1 x2 x4 x5 x6 x7 x8 x9 x10 (ix2 p k)
      = lin (aggDiv (seg (hu x0 x4 x5) x2) (cmax x2)) (hi x1 x6 x7) x8 x10 x9 p k := by
  unfold val_main_v37 val_main_v36 val_main_v35 val_main_v34 val_main_v33 val_main_v32
  rw [agg_v31, proj_v9]
  exact host_lin dot_S100000x128_S128x128_S100000x128_1_0_0_1_n_n dot_S100000x128_S128x128_S100000x128_1_0_0_1_n_n.wf rfl _ _ x8 x10 x9 _ _ p k
theorem lin_v65 (p : Fin 100000) (k : Fin 128) :
    val_main_v65 (F := Ideal) x0 x1 x3 x4 x5 x6 x7 x11 x12 x13 (ix2 p k)
      = lin (aggDiv (seg (hi x1 x6 x7) x3) (cmax x3)) (hu x0 x4 x5) x11 x13 x12 p k := by
  unfold val_main_v65 val_main_v64 val_main_v63 val_main_v62 val_main_v61 val_main_v60
  rw [agg_v59, proj_v4]
  exact host_lin dot_S100000x128_S128x128_S100000x128_1_0_0_1_n_n dot_S100000x128_S128x128_S100000x128_1_0_0_1_n_n.wf rfl _ _ x11 x13 x12 _ _ p k

/-- The items after the hidden layer. -/
theorem mid_v115 : val_main_v115 (F := Ideal) x0 x1 x2 x4 x5 x6 x7 x8 x9 x10 x16 x17 = hi1 x0 x1 x2 x4 x5 x6 x7 x8 x9 x10 x16 x17 := by
  funext i
  obtain ⟨p, q, rfl⟩ : ∃ (p : Fin 100000) (q : Fin 128), i = ix2 p q := ⟨i 0, i 1, eq_ix2 i⟩
  refine Eq.trans ?_ (layerRelu_ix2 0x43000000#32 0x3727C5AC#32 (aggDiv (seg (hu x0 x4 x5) x2) (cmax x2)) (hi x1 x6 x7) x8 x10 x9 x16 x17 p q).symm
  unfold val_main_v115 val_main_call3_v0 val_main_call3_cst
  refine (maximumf_apply _ _ _).trans ?_
  rw [Cert.Lib.bcast_scalar_apply]
  refine congrArg (fun t => max t (Ideal.ofBits .f32 0x00000000#32)) ?_
  unfold val_main_v114 val_main_v113 val_main_v112 val_main_v111 val_main_v110 val_main_v109 val_main_v108 val_main_v107
    val_main_v106 val_main_v105 val_main_v104 val_main_cst_19 val_main_v103 val_main_v102 val_main_v101 val_main_v100
    val_main_cst_18 val_main_v99 val_main_v98 val_main_cst_17 val_main_v97 val_main_v96 val_main_v95 val_main_v94
    val_main_v93 val_main_cst_16 val_main_v92 val_main_v91 val_main_cst_15
  refine (host_norm (val_main_v37 (F := Ideal) x0 x1 x2 x4 x5 x6 x7 x8 x9 x10) 0x43000000#32 0x3727C5AC#32 x16 x17 (by decide) _ _ _ _ _ _ _ p q).trans ?_
  unfold layerAt
  exact congrArg (fun f => normAt _ _ f x16 x17 q) (funext fun k => lin_v37 x0 x1 x2 x4 x5 x6 x7 x8 x9 x10 p k)

/-- The users after the hidden layer. -/
theorem mid_v90 : val_main_v90 (F := Ideal) x0 x1 x3 x4 x5 x6 x7 x11 x12 x13 x14 x15 = hu1 x0 x1 x3 x4 x5 x6 x7 x11 x12 x13 x14 x15 := by
  funext i
  obtain ⟨p, q, rfl⟩ : ∃ (p : Fin 100000) (q : Fin 128), i = ix2 p q := ⟨i 0, i 1, eq_ix2 i⟩
  refine Eq.trans ?_ (layerRelu_ix2 0x43000000#32 0x3727C5AC#32 (aggDiv (seg (hi x1 x6 x7) x3) (cmax x3)) (hu x0 x4 x5) x11 x13 x12 x14 x15 p q).symm
  unfold val_main_v90 val_main_call2_v0 val_main_call2_cst
  refine (maximumf_apply _ _ _).trans ?_
  rw [Cert.Lib.bcast_scalar_apply]
  refine congrArg (fun t => max t (Ideal.ofBits .f32 0x00000000#32)) ?_
  unfold val_main_v89 val_main_v88 val_main_v87 val_main_v86 val_main_v85 val_main_v84 val_main_v83 val_main_v82
    val_main_v81 val_main_v80 val_main_v79 val_main_cst_14 val_main_v78 val_main_v77 val_main_v76 val_main_v75
    val_main_cst_13 val_main_v74 val_main_v73 val_main_cst_12 val_main_v72 val_main_v71 val_main_v70 val_main_v69
    val_main_v68 val_main_cst_11 val_main_v67 val_main_v66 val_main_cst_10
  refine (host_norm (val_main_v65 (F := Ideal) x0 x1 x3 x4 x5 x6 x7 x11 x12 x13) 0x43000000#32 0x3727C5AC#32 x14 x15 (by decide) _ _ _ _ _ _ _ p q).trans ?_
  unfold layerAt
  exact congrArg (fun f => normAt _ _ f x14 x15 q) (funext fun k => lin_v65 x0 x1 x3 x4 x5 x6 x7 x11 x12 x13 p k)

/-! ## The second layer -/
theorem seg_v129 : val_main_v129 (F := Ideal) x0 x1 x2 x3 x4 x5 x6 x7 x11 x12 x13 x14 x15 = seg (hu1 x0 x1 x3 x4 x5 x6 x7 x11 x12 x13 x14 x15) x2 := by
  unfold val_main_v129 val_main_v126
  rw [mid_v90, zero_v127, dst_v128, src_v125]
  rfl
theorem seg_v157 : val_main_v157 (F := Ideal) x0 x1 x2 x3 x4 x5 x6 x7 x8 x9 x10 x16 x17 = seg (hi1 x0 x1 x2 x4 x5 x6 x7 x8 x9 x10 x16 x17) x3 := by
  unfold val_main_v157 val_main_v154
  rw [mid_v115, zero_v155, dst_v156, src_v153]
  rfl
theorem agg_v137 : val_main_v137 (F := Ideal) x0 x1 x2 x3 x4 x5 x6 x7 x11 x12 x13 x14 x15 = aggDiv (seg (hu1 x0 x1 x3 x4 x5 x6 x7 x11 x12 x13 x14 x15) x2) (cmax x2) := by
  unfold val_main_v137 val_main_v136
  rw [seg_v129, cnt_v135]
  exact host_aggDiv _ _ _
theorem agg_v165 : val_main_v165 (F := Ideal) x0 x1 x2 x3 x4 x5 x6 x7 x8 x9 x10 x16 x17 = aggDiv (seg (hi1 x0 x1 x2 x4 x5 x6 x7 x8 x9 x10 x16 x17) x3) (cmax x3) := by
  unfold val_main_v165 val_main_v164
  rw [seg_v157, cnt_v163]
  exact host_aggDiv _ _ _
theorem lin_v143 (p : Fin 100000) (k : Fin 64) :
    val_main_v143 (F := Ideal) x0 x1 x2 x3 x4 x5 x6 x7 x8 x9 x10 x11 x12 x13 x14 x15 x16 x17 x18 x19 x20 (ix2 p k)
      = lin (aggDiv (seg (hu1 x0 x1 x3 x4 x5 x6 x7 x11 x12 x13 x14 x15) x2) (cmax x2)) (hi1 x0 x1 x2 x4 x5 x6 x7 x8 x9 x10 x16 x17) x18 x20 x19 p k := by
  unfold val_main_v143 val_main_v142 val_main_v141 val_main_v140 val_main_v139 val_main_v138
  rw [agg_v137, mid_v115]
  exact host_lin dot_S100000x128_S128x64_S100000x64_1_0_0_1_n_n dot_S100000x128_S128x64_S100000x64_1_0_0_1_n_n.wf rfl _ _ x18 x20 x19 _ _ p k
theorem lin_v171 (p : Fin 100000) (k : Fin 64) :
    val_main_v171 (F := Ideal) x0 x1 x2 x3 x4 x5 x6 x7 x8 x9 x10 x11 x12 x13 x14 x15 x16 x17 x21 x22 x23 (ix2 p k)
      = lin (aggDiv (seg (hi1 x0 x1 x2 x4 x5 x6 x7 x8 x9 x10 x16 x17) x3) (cmax x3)) (hu1 x0 x1 x3 x4 x5 x6 x7 x11 x12 x13 x14 x15) x21 x23 x22 p k := by
  unfold val_main_v171 val_main_v170 val_main_v169 val_main_v168 val_main_v167 val_main_v166
  rw [agg_v165, mid_v90]
  exact host_lin dot_S100000x128_S128x64_S100000x64_1_0_0_1_n_n dot_S100000x128_S128x64_S100000x64_1_0_0_1_n_n.wf rfl _ _ x21 x23 x22 _ _ p k

/-- The users' result. -/
theorem ref_users : val_main_v195 (F := Ideal) x0 x1 x2 x3 x4 x5 x6 x7 x8 x9 x10 x11 x12 x13 x14 x15 x16 x17 x21 x22 x23 x24 x25 = Cert.Net.last (hi1 x0 x1 x2 x4 x5 x6 x7 x8 x9 x10 x16 x17) (hu1 x0 x1 x3 x4 x5 x6 x7 x11 x12 x13 x14 x15) x3 x21 x23 x22 x24 x25 := by
  funext i
  obtain ⟨p, q, rfl⟩ : ∃ (p : Fin 100000) (q : Fin 64), i = ix2 p q := ⟨i 0, i 1, eq_ix2 i⟩
  refine Eq.trans ?_ (layer_ix2 0x42800000#32 0x3727C5AC#32 (aggDiv (seg (hi1 x0 x1 x2 x4 x5 x6 x7 x8 x9 x10 x16 x17) x3) (cmax x3)) (hu1 x0 x1 x3 x4 x5 x6 x7 x11 x12 x13 x14 x15) x21 x23 x22 x24 x25 p q).symm
  unfold val_main_v195 val_main_v194 val_main_v193 val_main_v192 val_main_v191 val_main_v190 val_main_v189 val_main_v188
    val_main_v187 val_main_v186 val_main_v185 val_main_cst_36 val_main_v184 val_main_v183 val_main_v182 val_main_v181
    val_main_cst_35 val_main_v180 val_main_v179 val_main_cst_34 val_main_v178 val_main_v177 val_main_v176
    val_main_v175 val_main_v174 val_main_cst_33 val_main_v173 val_main_v172 val_main_cst_32
  refine (host_norm (val_main_v171 (F := Ideal) x0 x1 x2 x3 x4 x5 x6 x7 x8 x9 x10 x11 x12 x13 x14 x15 x16 x17 x21 x22 x23) 0x42800000#32 0x3727C5AC#32 x24 x25 (by decide) _ _ _ _ _ _ _ p q).trans ?_
  unfold layerAt
  exact congrArg (fun f => normAt _ _ f x24 x25 q) (funext fun k => lin_v171 x0 x1 x2 x3 x4 x5 x6 x7 x8 x9 x10 x11 x12 x13 x14 x15 x16 x17 x21 x22 x23 p k)

/-- The items' result. -/
theorem ref_items : val_main_v219 (F := Ideal) x0 x1 x2 x3 x4 x5 x6 x7 x8 x9 x10 x11 x12 x13 x14 x15 x16 x17 x18 x19 x20 x26 x27 = Cert.Net.last (hu1 x0 x1 x3 x4 x5 x6 x7 x11 x12 x13 x14 x15) (hi1 x0 x1 x2 x4 x5 x6 x7 x8 x9 x10 x16 x17) x2 x18 x20 x19 x26 x27 := by
  funext i
  obtain ⟨p, q, rfl⟩ : ∃ (p : Fin 100000) (q : Fin 64), i = ix2 p q := ⟨i 0, i 1, eq_ix2 i⟩
  refine Eq.trans ?_ (layer_ix2 0x42800000#32 0x3727C5AC#32 (aggDiv (seg (hu1 x0 x1 x3 x4 x5 x6 x7 x11 x12 x13 x14 x15) x2) (cmax x2)) (hi1 x0 x1 x2 x4 x5 x6 x7 x8 x9 x10 x16 x17) x18 x20 x19 x26 x27 p q).symm
  unfold val_main_v219 val_main_v218 val_main_v217 val_main_v216 val_main_v215 val_main_v214 val_main_v213 val_main_v212
    val_main_v211 val_main_v210 val_main_v209 val_main_cst_41 val_main_v208 val_main_v207 val_main_v206 val_main_v205
    val_main_cst_40 val_main_v204 val_main_v203 val_main_cst_39 val_main_v202 val_main_v201 val_main_v200
    val_main_v199 val_main_v198 val_main_cst_38 val_main_v197 val_main_v196 val_main_cst_37
  refine (host_norm (val_main_v143 (F := Ideal) x0 x1 x2 x3 x4 x5 x6 x7 x8 x9 x10 x11 x12 x13 x14 x15 x16 x17 x18 x19 x20) 0x42800000#32 0x3727C5AC#32 x26 x27 (by decide) _ _ _ _ _ _ _ p q).trans ?_
  unfold layerAt
  exact congrArg (fun f => normAt _ _ f x26 x27 q) (funext fun k => lin_v143 x0 x1 x2 x3 x4 x5 x6 x7 x8 x9 x10 x11 x12 x13 x14 x15 x16 x17 x18 x19 x20 p k)

end Cert.RefValue

end
-- ==== Proof.lean ====
/-
  The certificate of a kernel program for a two-type message-passing network against its reference.

  The network (`Cert.Net`): two node types, users and items; every node's features are projected to width 128;
  then two message-passing layers per node type, each taking for every node the mean of its neighbours' features
  over one edge list (the sum over the edges into the node, divided by their number or by one if there is none)
  together with the node's own features through a linear map, a normalisation of every row, and in the hidden
  layer the maximum with zero.  Its two results are the users' and the items' last layer, as functions of the 28
  argument arrays.

  The claims.  The kernel program and its idealization run to completion, nothing faulting, with the argument
  arrays unchanged: the generated frame certificates.  The reference program does so too: its generated run,
  which also names its two results.  The idealization rewrote no operation of the kernel program, so that it
  preserves the program asks nothing.  At the ideal values, from memories that agree on the arguments, the
  idealized kernel program and the reference end with equal results: the kernel program's two result buffers
  end at the network's two results of its arguments (its run through the six kernel regions and the two stretches of
  host operations between them, and the contents the regions and stretches leave, region by region), the
  reference's two results are the same two functions of its own arguments (operation by operation), and the
  arguments agree.
-/
import proofs.«174023_j26113401160011_1_alg».proof.Defs
import proofs.«174023_j26113401160011_1_alg».proof.Proof.Gen.Kernel
import proofs.«174023_j26113401160011_1_alg».proof.Proof.Gen.Kernel.Skeleton
import proofs.«174023_j26113401160011_1_alg».proof.Proof.Gen.Kernel.Launch
import proofs.«174023_j26113401160011_1_alg».proof.Proof.Gen.Kernel.Points
import proofs.«174023_j26113401160011_1_alg».proof.Proof.Gen.Kernel.Frame
import proofs.«174023_j26113401160011_1_alg».proof.Proof.Gen.KernelIdeal
import proofs.«174023_j26113401160011_1_alg».proof.Proof.Gen.KernelIdeal.Skeleton
import proofs.«174023_j26113401160011_1_alg».proof.Proof.Gen.KernelIdeal.Launch
import proofs.«174023_j26113401160011_1_alg».proof.Proof.Gen.KernelIdeal.Points
import proofs.«174023_j26113401160011_1_alg».proof.Proof.Gen.KernelIdeal.Frame
import proofs.«174023_j26113401160011_1_alg».proof.Proof.Gen.ReferenceIdeal
import proofs.«174023_j26113401160011_1_alg».proof.Proof.Gen.Pre_finite_inputs
import proofs.«174023_j26113401160011_1_alg».proof.Proof.Gen.ReferenceIdeal.Read
import Idealize.ShloMosaic.Adequacy
import Idealize.ShloMosaic.Init
import proofs.«174023_j26113401160011_1_alg».proof.Proof.KRun
import proofs.«174023_j26113401160011_1_alg».proof.Proof.KValue
import proofs.«174023_j26113401160011_1_alg».proof.Proof.RefValue

noncomputable section

namespace Cert.Proof.Claims

open Idealize.ShloMosaic Idealize.SL.Sem

/-- The kernel program runs to completion with its argument arrays unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run states the two results and then the arguments. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- At the ideal values both programs end with the network's two results of the argument arrays: the users' last
    layer (its neighbours are the items after the hidden layer, over the item → user edges) and the items' last
    layer (its neighbours the users after the hidden layer, over the user → item edges).  The reference's results
    are these functions of its own arguments, which are the kernel program's. -/
theorem algebraic : Cert.algebraic_KernelIdeal_ReferenceIdeal := by
  intro m ρ m' ρ' _ hagree
  refine ⟨fun c => Cert.Net.last
        (Cert.Net.hi1
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) (m ((c.tc : Thread Cert.KernelIdeal.nD Cert.KernelIdeal.τ).loc Cert.KernelIdeal.main_arg10))
          (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
        (Cert.Net.hu1
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) (m ((c.tc : Thread Cert.KernelIdeal.nD Cert.KernelIdeal.τ).loc Cert.KernelIdeal.main_arg13))
          (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg21))
        (m ((c.tc : Thread Cert.KernelIdeal.nD Cert.KernelIdeal.τ).loc Cert.KernelIdeal.main_arg23))
        (m ((c.tc : Thread Cert.KernelIdeal.nD Cert.KernelIdeal.τ).loc Cert.KernelIdeal.main_arg22))
        (m ((c.tc : Thread Cert.KernelIdeal.nD Cert.KernelIdeal.τ).loc Cert.KernelIdeal.main_arg24))
        (m ((c.tc : Thread Cert.KernelIdeal.nD Cert.KernelIdeal.τ).loc Cert.KernelIdeal.main_arg25)),
      fun c => Cert.Net.last
        (Cert.Net.hu1
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) (m ((c.tc : Thread Cert.KernelIdeal.nD Cert.KernelIdeal.τ).loc Cert.KernelIdeal.main_arg13))
          (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
        (Cert.Net.hi1
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) (m ((c.tc : Thread Cert.KernelIdeal.nD Cert.KernelIdeal.τ).loc Cert.KernelIdeal.main_arg10))
          (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg26))
        (m ((c.tc : Thread Cert.KernelIdeal.nD Cert.KernelIdeal.τ).loc Cert.KernelIdeal.main_arg27)), ?_, ?_⟩
  · exact (θ_run Cert.KernelIdeal.defs _ _).mono
      (fun r h c => ⟨(h c).1.trans (Cert.KernelIdeal.Value.at8_v97 m ρ c),
        (h c).2.1.trans (Cert.KernelIdeal.Value.at8_v96 m ρ c), (h c).2.2⟩)
      (Cert.KernelIdeal.Run.run (F := Ideal) m ρ)
  · refine (θ_run Cert.ReferenceIdeal.defs _ _).mono (fun r h c => ?_)
      (Cert.ReferenceIdeal.Value.run (F := Ideal) m' ρ')
    obtain ⟨a0, a1, a2, a3, a4, a5, a6, a7, a8, a9, a10, a11, a12, a13, a14, a15, a16, a17, a18, a19, a20, a21, a22, a23, a24, a25, a26, a27⟩ := hagree c
    have e1 := (h c).1
    have e2 := (h c).2.1
    rw [Cert.ReferenceIdeal.Read.val_main_v195_eq m' c, Cert.RefValue.ref_users,
      a0, a1, a2, a3, a4, a5, a6, a7, a8, a9, a10, a11, a12, a13, a14, a15, a16, a17, a21, a22, a23, a24, a25] at e1
    rw [Cert.ReferenceIdeal.Read.val_main_v219_eq m' c, Cert.RefValue.ref_items,
      a0, a1, a2, a3, a4, a5, a6, a7, a8, a9, a10, a11, a12, a13, a14, a15, a16, a17, a18, a19, a20, a26, a27] at e2
    exact ⟨e1, e2, (h c).2.2⟩

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
